-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S1200000 : Shape := ⟨1, ![1200000]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S1x128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1200000 32) (main_arg2 : IVec S1200000 32) (main_arg3 : FVec F S1000x128 .f32) (main_arg4 : FVec F S128x128 .f32) (main_arg5 : FVec F S128x128 .f32) (main_arg6 : FVec F S128x128 .f32) (main_arg7 : FVec F S128x128 .f32) (main_arg8 : FVec F S1x128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg3
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1200000 : Shape := ⟨2, ![2, 1200000]⟩
abbrev S1200000 : Shape := ⟨1, ![1200000]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S1001x128 : Shape := ⟨2, ![1001, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S6000x128 : Shape := ⟨2, ![6000, 128]⟩
abbrev S4000x128 : Shape := ⟨2, ![4000, 128]⟩

abbrev nBuf : Space → Nat
  | .hbm => 148
  | .vmem => 38
  | .smem => 0
  | _ => 0

abbrev hbmTy0_0 (i : Nat) : BufTy := match i % 128 with
  | 0 => ⟨S100000x128, .f32⟩
  | 1 => ⟨S2x1200000, .i32⟩
  | 2 => ⟨S1200000, .i32⟩
  | 3 => ⟨S1000x128, .f32⟩
  | 4 => ⟨S128x128, .f32⟩
  | 5 => ⟨S128x128, .f32⟩
  | 6 => ⟨S128x128, .f32⟩
  | 7 => ⟨S128x128, .f32⟩
  | 8 => ⟨S1x128, .f32⟩
  | 9 => ⟨S128, .f32⟩
  | 10 => ⟨S128, .f32⟩
  | 11 => ⟨S128, .f32⟩
  | 12 => ⟨S1001x128, .f32⟩
  | 13 => ⟨S2x600000, .i32⟩
  | 14 => ⟨S2x600000, .i32⟩
  | 15 => ⟨S600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S1x600000, .i32⟩
  | 45 => ⟨S600000, .i32⟩
  | 46 => ⟨S_, .f32⟩
  | 47 => ⟨S600000, .f32⟩
  | 48 => ⟨S_, .f32⟩
  | 49 => ⟨S100000, .f32⟩
  | 50 => ⟨S600000x1, .i32⟩
  | 51 => ⟨S100000, .f32⟩
  | 52 => ⟨S_, .f32⟩
  | 53 => ⟨S100000, .f32⟩
  | 54 => ⟨S100000, .i1⟩
  | 55 => ⟨S_, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S1x600000, .i32⟩
  | 72 => ⟨S600000, .i32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S600000x1, .f32⟩
  | 83 => ⟨S600000x128, .f32⟩
  | 84 => ⟨S600000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S600000x128, .f32⟩
  | 95 => ⟨S1x600000, .i32⟩
  | 96 => ⟨S600000, .i32⟩
  | 97 => ⟨S_, .f32⟩
  | 98 => ⟨S100000x128, .f32⟩
  | 99 => ⟨S600000x1, .i32⟩
  | 100 => ⟨S100000x128, .f32⟩
  | 101 => ⟨S1x600000, .i32⟩
  | 102 => ⟨S600000, .i32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S600000x1, .f32⟩
  | 113 => ⟨S600000x128, .f32⟩
  | 114 => ⟨S600000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S600000x128, .f32⟩
  | 125 => ⟨S1x600000, .i32⟩
  | 126 => ⟨S600000, .i32⟩
  | 127 => ⟨S_, .f32⟩
  | _ => ⟨S100000x128, .f32⟩

abbrev hbmTy0_1 (i : Nat) : BufTy := match i % 128 with
  | 0 => ⟨S100000x128, .f32⟩
  | 1 => ⟨S600000x1, .i32⟩
  | 2 => ⟨S100000x128, .f32⟩
  | 3 => ⟨S1x128, .f32⟩
  | 4 => ⟨S1x128, .f32⟩
  | 5 => ⟨S1x128, .f32⟩
  | 6 => ⟨S100000x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S1x128, .f32⟩
  | 17 => ⟨S100000x128, .f32⟩
  | 18 => ⟨S1000x128, .f32⟩
  | 19 => ⟨S1000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S128x128, .f32⟩
  | .local _ .vmem, ⟨12, _⟩ => ⟨S6000x128, .f32⟩
  | .local _ .vmem, ⟨13, _⟩ => ⟨S6000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S1x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S4000x128, .f32⟩
  | .local _ .vmem, ⟨34, _⟩ => ⟨S4000x128, .f32⟩
  | .local _ .vmem, ⟨35, _⟩ => ⟨S1000x128, .f32⟩
  | .local _ .vmem, ⟨36, _⟩ => ⟨S128x128, .f32⟩
  | .local _ .vmem, ⟨37, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_c_10 : Ref sig .tc := ⟨.hbm, 62, rfl⟩
abbrev main_v34 : Ref sig .tc := ⟨.hbm, 63, rfl⟩
abbrev main_v35 : Ref sig .tc := ⟨.hbm, 64, rfl⟩
abbrev main_c_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_12 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_c_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_c_18 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_19 : Ref sig .tc := ⟨.hbm, 115, rfl⟩
abbrev main_v78 : Ref sig .tc := ⟨.hbm, 116, rfl⟩
abbrev main_v79 : Ref sig .tc := ⟨.hbm, 117, rfl⟩
abbrev main_c_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94_0 : Ref sig .tc := ⟨.hbm, 134, rfl⟩
abbrev main_v94_1 : Ref sig .tc := ⟨.hbm, 135, rfl⟩
abbrev main_v94_2 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_cst_23 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg8_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg2_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem8_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem1_0 : DmaSem sig := 36
abbrev cc4_sem2_0 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1000x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  concatenates_S1000x128_S1x128_S1001x128_d0 : Shape.Concatenates [S1000x128, S1x128] S1001x128 0
  slices_S2x1200000_S2x600000_0_0 : S2x1200000.Slices ![0, 0] S2x600000
  slices_S2x1200000_S2x600000_0_600000 : S2x1200000.Slices ![0, 600000] S2x600000
  slices_S1200000_S600000_0 : S1200000.Slices ![0] S600000
  slices_S1200000_S600000_600000 : S1200000.Slices ![600000] S600000
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S2x600000_S1x600000_1_0 : S2x600000.Slices ![1, 0] S1x600000
  bcast_S600000x1_S600000x128_0_1 : S600000x1.BroadcastsInDim S600000x128 (![0, 1] : Fin 2 → Fin S600000x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S4000x128_S4000x128 : S4000x128.ShapeCasts S4000x128
  shapeCasts_S1x128_S1x128 : S1x128.ShapeCasts S1x128
  reduces_S4000x128_S128 : S4000x128.Reduces [0] S128
  bcast_S_S1x128 : S_.BroadcastsInDim S1x128 (![] : Fin 0 → Fin S1x128.rank)
  slices_S1001x128_S1000x128_0_0 : S1001x128.Slices ![0, 0] S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  gather_S1001x128_S600000x1_S600000x128_1_0_n_n_0_1_1128_wf : GatherDims.WF S1001x128 S600000x1 S600000x128 [1] [0] [] [0] [] 1 ![1, 128]
  dot_S6000x128_S128x128_S6000x128_1_0_0_1_n_n_wf : DotDims.WF S6000x128 S128x128 S6000x128 [1] [0] [0] [1] [] []
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .f32 = 32 ∨ (Rect.block (s := S600000x128) S6000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S1000x128.size a
  hwx4_2 : ∀ i : grid4.Coords, EltTy.bits .f32 = 32 ∨ (Rect.block (s := S1000x128) S1000x128.size (cc4_transform_2 i) (hinb4_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S1001x128_S600000x1_S600000x128_1_0_n_n_0_1_1128 : GatherDims S1001x128 S600000x1 S600000x128 where
  offsetDims := [1]
  collapsedSliceDims := [0]
  operandBatchingDims := []
  startIndicesBatchingDims := []
  startIndexMap := [0]
  indexVectorDim := 1
  sliceSizes := ![1, 128]
  wf := gather_S1001x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v52) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v77) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v94_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v94_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v94_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v94_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v100) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S1000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S1000x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S1200000 : Shape := ⟨1, ![1200000]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S1001x128 : Shape := ⟨2, ![1001, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S2x1200000, .i32⟩
  | 2 => ⟨S1200000, .i32⟩
  | 3 => ⟨S1000x128, .f32⟩
  | 4 => ⟨S128x128, .f32⟩
  | 5 => ⟨S128x128, .f32⟩
  | 6 => ⟨S128x128, .f32⟩
  | 7 => ⟨S128x128, .f32⟩
  | 8 => ⟨S1x128, .f32⟩
  | 9 => ⟨S128, .f32⟩
  | 10 => ⟨S128, .f32⟩
  | 11 => ⟨S128, .f32⟩
  | 12 => ⟨S1001x128, .f32⟩
  | 13 => ⟨S2x600000, .i32⟩
  | 14 => ⟨S2x600000, .i32⟩
  | 15 => ⟨S600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S1x600000, .i32⟩
  | 45 => ⟨S600000, .i32⟩
  | 46 => ⟨S_, .f32⟩
  | 47 => ⟨S600000, .f32⟩
  | 48 => ⟨S_, .f32⟩
  | 49 => ⟨S100000, .f32⟩
  | 50 => ⟨S600000x1, .i32⟩
  | 51 => ⟨S100000, .f32⟩
  | 52 => ⟨S_, .f32⟩
  | 53 => ⟨S100000, .f32⟩
  | 54 => ⟨S100000, .i1⟩
  | 55 => ⟨S_, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S1x600000, .i32⟩
  | 72 => ⟨S600000, .i32⟩
  | 73 => ⟨S1x600000, .i32⟩
  | 74 => ⟨S600000, .i32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S600000x128, .f32⟩
  | 94 => ⟨S600000x128, .f32⟩
  | 95 => ⟨S600000x1, .f32⟩
  | 96 => ⟨S600000x128, .f32⟩
  | 97 => ⟨S600000x128, .f32⟩
  | 98 => ⟨S_, .f32⟩
  | 99 => ⟨S100000x128, .f32⟩
  | 100 => ⟨S600000x1, .i32⟩
  | 101 => ⟨S100000x128, .f32⟩
  | 102 => ⟨S1x600000, .i32⟩
  | 103 => ⟨S600000, .i32⟩
  | 104 => ⟨S1x600000, .i32⟩
  | 105 => ⟨S600000, .i32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S600000x128, .f32⟩
  | 125 => ⟨S600000x128, .f32⟩
  | 126 => ⟨S600000x1, .f32⟩
  | 127 => ⟨S600000x128, .f32⟩
  | _ => ⟨S100000x128, .f32⟩

abbrev hbmTy0_1 (i : Nat) : BufTy := match i % 128 with
  | 0 => ⟨S600000x128, .f32⟩
  | 1 => ⟨S_, .f32⟩
  | 2 => ⟨S100000x128, .f32⟩
  | 3 => ⟨S600000x1, .i32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1001x128, .f32⟩
  | 61 => ⟨S1000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_c_10 : Ref sig .tc := ⟨.hbm, 62, rfl⟩
abbrev main_v34 : Ref sig .tc := ⟨.hbm, 63, rfl⟩
abbrev main_v35 : Ref sig .tc := ⟨.hbm, 64, rfl⟩
abbrev main_c_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_14 : Ref sig .tc := ⟨.hbm, 84, rfl⟩
abbrev main_v52 : Ref sig .tc := ⟨.hbm, 85, rfl⟩
abbrev main_v53 : Ref sig .tc := ⟨.hbm, 86, rfl⟩
abbrev main_c_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_19 : Ref sig .tc := ⟨.hbm, 115, rfl⟩
abbrev main_v78 : Ref sig .tc := ⟨.hbm, 116, rfl⟩
abbrev main_v79 : Ref sig .tc := ⟨.hbm, 117, rfl⟩
abbrev main_c_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_v103 : Ref sig .tc := ⟨.hbm, 145, rfl⟩
abbrev main_cst_24 : Ref sig .tc := ⟨.hbm, 146, rfl⟩
abbrev main_v104 : Ref sig .tc := ⟨.hbm, 147, rfl⟩
abbrev main_v105 : Ref sig .tc := ⟨.hbm, 148, rfl⟩
abbrev main_c_25 : Ref sig .tc := ⟨.hbm, 149, rfl⟩
abbrev main_call2_cst : Ref sig .tc := ⟨.hbm, 150, rfl⟩
abbrev main_call2_v0 : Ref sig .tc := ⟨.hbm, 151, rfl⟩
abbrev main_call2_v1 : Ref sig .tc := ⟨.hbm, 152, rfl⟩
abbrev main_call2_cst_0 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_v7 : Ref sig .tc := ⟨.hbm, 159, rfl⟩
abbrev main_call2_cst_1 : Ref sig .tc := ⟨.hbm, 160, rfl⟩
abbrev main_call2_v8 : Ref sig .tc := ⟨.hbm, 161, rfl⟩
abbrev main_call2_cst_2 : Ref sig .tc := ⟨.hbm, 162, rfl⟩
abbrev main_call2_v9 : Ref sig .tc := ⟨.hbm, 163, rfl⟩
abbrev main_call2_v10 : Ref sig .tc := ⟨.hbm, 164, rfl⟩
abbrev main_call2_v11 : Ref sig .tc := ⟨.hbm, 165, rfl⟩
abbrev main_call2_cst_3 : Ref sig .tc := ⟨.hbm, 166, rfl⟩
abbrev main_call2_v12 : Ref sig .tc := ⟨.hbm, 167, rfl⟩
abbrev main_call2_cst_4 : Ref sig .tc := ⟨.hbm, 168, rfl⟩
abbrev main_call2_call0_v0 : Ref sig .tc := ⟨.hbm, 169, rfl⟩
abbrev main_call2_call0_v1 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_26 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩

abbrev nD : Nat := 1
abbrev τ : Topo := Topo.v7x

variable {F : FTy → Type} [FloatOps F]

class Facts₀ : Prop where
  concatenates_S1000x128_S1x128_S1001x128_d0 : Shape.Concatenates [S1000x128, S1x128] S1001x128 0
  slices_S2x1200000_S2x600000_0_0 : S2x1200000.Slices ![0, 0] S2x600000
  slices_S2x1200000_S2x600000_0_600000 : S2x1200000.Slices ![0, 600000] S2x600000
  slices_S1200000_S600000_0 : S1200000.Slices ![0] S600000
  slices_S1200000_S600000_600000 : S1200000.Slices ![600000] S600000
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S2x600000_S1x600000_1_0 : S2x600000.Slices ![1, 0] S1x600000
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S128_S1x128_1 : S128.BroadcastsInDim S1x128 (![1] : Fin 1 → Fin S1x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S1001x128_S1000x128_0_0 : S1001x128.Slices ![0, 0] S1000x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  gather_S1001x128_S600000x1_S600000x128_1_0_n_n_0_1_1128_wf : GatherDims.WF S1001x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S1001x128_S128x128_S1001x128_1_0_0_1_n_n_wf : DotDims.WF S1001x128 S128x128 S1001x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S1001x128_S600000x1_S600000x128_1_0_n_n_0_1_1128 : GatherDims S1001x128 S600000x1 S600000x128 where
  offsetDims := [1]
  collapsedSliceDims := [0]
  operandBatchingDims := []
  startIndicesBatchingDims := []
  startIndexMap := [0]
  indexVectorDim := 1
  sliceSizes := ![1, 128]
  wf := gather_S1001x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1001x128_S128x128_S1001x128_1_0_0_1_n_n : DotDims S1001x128 S128x128 S1001x128 where
  lhsContracting := [1]
  rhsContracting := [0]
  lhsNonContracting := [0]
  rhsNonContracting := [1]
  lhsBatch := []
  rhsBatch := []
  wf := dot_S1001x128_S128x128_S1001x128_1_0_0_1_n_n_wf

class Facts : Prop extends Facts₀ where

variable [Facts]
-- ==== Proof.KerRun.lean ====
/-
  The Pallas program's run with every final buffer kept: at the compiled mesh, from any memory with zero counters,
  every weakly fair execution of @main terminates without a fault, and in the final state every unscoped buffer of
  every core holds what the fold through @main's fourteen segments leaves there (`Gen.W14`): the host stretches
  applied in order, each tiled pass's arrays at what its write-backs leave. The launch runs the segments one after the
  other over the thread state "every unscoped buffer at the boundary's contents"; the last thread state is read against
  the final memory, which gives the statement for every buffer at once.
-/
import proofs.«133848_j46454366273980_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main ends, and ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.W14 m ρ c b) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W14 m ρ c) s')
      isplitl [Hh] <;> iassumption)
    (hQ := fun s h => h)

end Cert.KernelIdeal.HandRun

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.LayerSpec.lean ====
/-
  What each tiled pass of the layer computes, as ONE function of whole arrays, index by index, over the extended reals.
  * `msg`: per edge `e` and output lane `j`, `∑ k, (a e k · b e k) · W k j` — the lane-wise product of two per-edge
    rows, projected by a 128×128 matrix.
  * `loopEmb`: the same projection of `x n k · ℓ k`, the self-loop message of node `n`.
  * `combined`: `((emb + rev) + loop) · third + bias`, with `third` the single-precision word nearest to 1/3.
  * `colSum`, `colSumSq`: the sum, and the sum of squares, of a column over all 100000 node rows.
  * `normalized`: `((c − mean) · rsqrt (var + eps)) · γ + β` column-wise, `eps` the single-precision word nearest 1e-5.
  * `relOut`: a plain matrix product.
-/
import Idealize.ShloMosaic.PureOps.Ideal
import Idealize.ShloMosaic.Lib.ValueIdx
import proofs.«133848_j46454366273980_2_alg».proof.Proof.LibMatProd

noncomputable section

namespace Cert.Layer

open Idealize.ShloMosaic Idealize.ShloMosaic.ValueIdx

/-- Index types of the arrays of the layer. -/
abbrev E128 : Type := (⟨2, ![600000, 128]⟩ : Shape).Idx
abbrev N128 : Type := (⟨2, ![100000, 128]⟩ : Shape).Idx
abbrev W128 : Type := (⟨2, ![128, 128]⟩ : Shape).Idx
abbrev R128 : Type := (⟨2, ![1, 128]⟩ : Shape).Idx
abbrev T128 : Type := (⟨2, ![1000, 128]⟩ : Shape).Idx

/-- The single-precision word nearest to 1/3, as the exact real it denotes. -/
def third : EReal := Ideal.ofBits .f32 0x3EAAAAAB#32
/-- The single-precision word nearest to 1e-5, as the exact real it denotes. -/
def eps : EReal := Ideal.ofBits .f32 0x3727C5AC#32
/-- The single-precision word of 100000. -/
def nNodes : EReal := Ideal.ofBits .f32 0x47C35000#32

/-- Per edge: the lane-wise product of two rows, projected by `W`. -/
def msg (a b : E128 → EReal) (W : W128 → EReal) : E128 → EReal :=
  Cert.Gcn.Dense.prod (M := 600000) (K := 128) (N := 128) (fun i => a i * b i) W

/-- Per node: the row of `x` times the loop relation lane-wise, projected by `W`. -/
def loopEmb (x : N128 → EReal) (l : R128 → EReal) (W : W128 → EReal) : N128 → EReal :=
  Cert.Gcn.Dense.prod (M := 100000) (K := 128) (N := 128) (fun i => x i * l (ix2 (0 : Fin 1) (i 1))) W

/-- The three message sums averaged with the word `third`, plus the bias of the lane. -/
def combined (emb rev x : N128 → EReal) (l : R128 → EReal) (W : W128 → EReal) (bias : R128 → EReal) : N128 → EReal :=
  fun i => ((emb i + rev i) + loopEmb x l W i) * third + bias (ix2 (0 : Fin 1) (i 1))

/-- The sum of a lane over all node rows. -/
def colSum (c : N128 → EReal) : R128 → EReal := fun j => ∑ n : Fin 100000, c (ix2 n (j 1))

/-- The sum of squares of a lane over all node rows. -/
def colSumSq (c : N128 → EReal) : R128 → EReal := fun j => ∑ n : Fin 100000, c (ix2 n (j 1)) * c (ix2 n (j 1))

/-- Batch normalization of a lane with given mean and variance, then scale and shift. -/
def normalized (c : N128 → EReal) (mean var g b : R128 → EReal) : N128 → EReal :=
  fun i => ((c i - mean (ix2 (0 : Fin 1) (i 1))) * Ideal.rsqrt (var (ix2 (0 : Fin 1) (i 1)) + eps)) * g (ix2 (0 : Fin 1) (i 1))
    + b (ix2 (0 : Fin 1) (i 1))

/-- The relation table projected by `W`. -/
def relOut (a : T128 → EReal) (W : W128 → EReal) : T128 → EReal :=
  Cert.Gcn.Dense.prod (M := 1000) (K := 128) (N := 128) a W

end Cert.Layer

end
-- ==== Proof.KerFinalsStmt.lean ====
/-
  What the five tiled passes leave in their output arrays, stated for any contents `V` a pass is entered with: the
  array after the last grid point is the pass's whole-array function of its operand arrays as `V` holds them.
-/
import proofs.«133848_j46454366273980_2_alg».proof.Proof.Gen.KernelIdeal.Frame
import proofs.«133848_j46454366273980_2_alg».proof.Proof.LayerSpec

set_option maxRecDepth 16384

noncomputable section

namespace Cert.KernelIdeal.HandRun

open Idealize.ShloMosaic Idealize.ShloMosaic.TcCoe Cert.KernelIdeal

/-- The buffer contents of every core when a pass is entered. -/
abbrev Vals : Type := (c : Dev nD) → (b : Ref sig .tc) → Buf (Elt Ideal) ((c : Thread nD τ).loc b)

/-- The forward message pass: the projected lane-wise products. -/
def Final0 : Prop := ∀ (V : Vals) (c : Dev nD),
  (Gen.dat0 (F := Ideal) V c).arrAt 3 cfg0.N = Cert.Layer.msg (V c main_v52) (V c main_v59) (V c main_arg4)
/-- The reverse message pass. -/
def Final1 : Prop := ∀ (V : Vals) (c : Dev nD),
  (Gen.dat1 (F := Ideal) V c).arrAt 3 cfg1.N = Cert.Layer.msg (V c main_v77) (V c main_v84) (V c main_arg5)
/-- The combine pass, its first output: the averaged, biased features. -/
def Final2c : Prop := ∀ (V : Vals) (c : Dev nD),
  (Gen.dat2 (F := Ideal) V c).arrAt 6 cfg2.N
    = Cert.Layer.combined (V c main_v65) (V c main_v90) (V c main_arg0) (V c main_arg8) (V c main_arg7) (V c main_v91)
/-- The combine pass, its second output: each lane's sum over all rows. -/
def Final2s : Prop := ∀ (V : Vals) (c : Dev nD),
  (Gen.dat2 (F := Ideal) V c).arrAt 7 cfg2.N
    = Cert.Layer.colSum (Cert.Layer.combined (V c main_v65) (V c main_v90) (V c main_arg0) (V c main_arg8) (V c main_arg7) (V c main_v91))
/-- The combine pass, its third output: each lane's sum of squares over all rows. -/
def Final2q : Prop := ∀ (V : Vals) (c : Dev nD),
  (Gen.dat2 (F := Ideal) V c).arrAt 8 cfg2.N
    = Cert.Layer.colSumSq (Cert.Layer.combined (V c main_v65) (V c main_v90) (V c main_arg0) (V c main_arg8) (V c main_arg7) (V c main_v91))
/-- The normalization pass. -/
def Final3 : Prop := ∀ (V : Vals) (c : Dev nD),
  (Gen.dat3 (F := Ideal) V c).arrAt 5 cfg3.N
    = Cert.Layer.normalized (V c main_v94_0) (V c main_v96) (V c main_v100) (V c main_v92) (V c main_v93)
/-- The relation-table product. -/
def Final4 : Prop := ∀ (V : Vals) (c : Dev nD),
  (Gen.dat4 (F := Ideal) V c).arrAt 2 cfg4.N = Cert.Layer.relOut (V c main_v102) (V c main_arg6)

/-- All seven output arrays. -/
def Finals : Prop := Final0 ∧ Final1 ∧ Final2c ∧ Final2s ∧ Final2q ∧ Final3 ∧ Final4

end Cert.KernelIdeal.HandRun

end
-- ==== Proof.StagesK.lean ====
/-
  The host stages that the Pallas program and the jnp reference share, as pure functions of the argument arrays at the
  exact-real reading: the relation table with the loop relation appended, the two halves of the edge list and of the
  edge types, an index column, the wrap of a negative index by the axis length, the in-degree of a node as a
  scatter-add of ones, its reciprocal where positive and zero elsewhere, that reciprocal gathered per edge, the rows of
  `x` and of the relation table gathered per edge, and the segment sum of per-edge messages into node rows.
  Each is the composition of the program's own host operations, in the program's order.
-/
import proofs.«133848_j46454366273980_2_alg».proof.KernelIdeal
import Idealize.ShloMosaic.PureOps.Ideal

noncomputable section

namespace Cert.KernelIdeal.St

open Idealize.ShloMosaic Cert.KernelIdeal

variable [Facts]
open Facts₀ Facts

/-- A float array of shape `s` at the exact-real reading. -/
abbrev FA (s : Shape) : Type := FVec Ideal s .f32
/-- A 32-bit integer array of shape `s`. -/
abbrev IA (s : Shape) : Type := IVec s 32

/-- The float scalar with the given bits, spread over shape-`S100000` (one entry per node). -/
def nodeConst (w : BitVec 32) : FA S100000 := broadcastInDim S100000 ![] bcast_S_S100000 (constant (F := Ideal) S_ .f32 w)

/-- The relation table with the loop relation appended as row 1000. -/
def relFull (rel : FA S1000x128) (lr : FA S1x128) : FA S1001x128 :=
  concatenate S1001x128 0 [⟨S1000x128, rel⟩, ⟨S1x128, lr⟩] concatenates_S1000x128_S1x128_S1001x128_d0

/-- Forward edges: columns 0 … 599999 of the edge list. -/
def halfF (ei : IA S2x1200000) : IA S2x600000 := extractStridedSlice S2x600000 ![0, 0] ei slices_S2x1200000_S2x600000_0_0
/-- Reverse edges: columns 600000 … 1199999 of the edge list. -/
def halfR (ei : IA S2x1200000) : IA S2x600000 := extractStridedSlice S2x600000 ![0, 600000] ei slices_S2x1200000_S2x600000_0_600000
/-- Relation types of the forward edges. -/
def typF (et : IA S1200000) : IA S600000 := extractStridedSlice S600000 ![0] et slices_S1200000_S600000_0
/-- Relation types of the reverse edges. -/
def typR (et : IA S1200000) : IA S600000 := extractStridedSlice S600000 ![600000] et slices_S1200000_S600000_600000
/-- Row 0 of a half of the edge list (the node a message is summed into), as a vector. -/
def row0 (h : IA S2x600000) : IA S600000 :=
  shapeCast S600000 (extractStridedSlice S1x600000 ![0, 0] h slices_S2x600000_S1x600000_0_0) shapeCasts_S1x600000_S600000
/-- Row 1 of a half of the edge list (the node whose features are read), as a vector. -/
def row1 (h : IA S2x600000) : IA S600000 :=
  shapeCast S600000 (extractStridedSlice S1x600000 ![1, 0] h slices_S2x600000_S1x600000_1_0) shapeCasts_S1x600000_S600000
/-- An index vector as a one-column index array. -/
def col (v : IA S600000) : IA S600000x1 := broadcastInDim S600000x1 ![0] bcast_S600000_S600000x1_0 v
/-- A negative index wrapped once by the axis length `n`. -/
def wrap (n : BitVec 32) (v : IA S600000) : IA S600000 :=
  select (cmpi .slt v (broadcastInDim S600000 ![] bcast_S_S600000 (constantI S_ 32 0#32)))
    (addi v (broadcastInDim S600000 ![] bcast_S_S600000 (constantI S_ 32 n))) v
/-- The number of edges summed into each node: ones scattered-added at `row`. -/
def deg (row : IA S600000) : FA S100000 :=
  Host.scatterAdd (F := Ideal) scatter_S100000_S600000x1_S600000_n_0_0_1 (nodeConst 0x00000000#32) (col row)
    (broadcastInDim S600000 ![] bcast_S_S600000 (constant (F := Ideal) S_ .f32 0x3F800000#32))
/-- `1 / deg` where the degree is positive, `0` elsewhere. -/
def invDeg (row : IA S600000) : FA S100000 :=
  select (cmpf (F := Ideal) .ogt (deg row) (nodeConst 0x00000000#32)) (Host.divf (F := Ideal) (nodeConst 0x3F800000#32) (deg row))
    (nodeConst 0x00000000#32)
/-- The per-edge scale: the reciprocal in-degree of the edge's target row. -/
def edgeNorm (row : IA S600000) : FA S600000 :=
  Host.gather gather_S100000_S600000x1_S600000_n_0_n_n_0_1_1 (invDeg row) (col (wrap 100000#32 row))
/-- A per-edge scalar repeated along the 128 lanes. -/
def lanes (n : FA S600000) : FA S600000x128 :=
  broadcastInDim S600000x128 ![0, 1] bcast_S600000x1_S600000x128_0_1 (broadcastInDim S600000x1 ![0] bcast_S600000_S600000x1_0 n)
/-- The rows of `x` at the edges' source nodes. -/
def xRows (x : FA S100000x128) (dst : IA S600000) : FA S600000x128 :=
  Host.gather gather_S100000x128_S600000x1_S600000x128_1_0_n_n_0_1_1128 x (col (wrap 100000#32 dst))
/-- The rows of the extended relation table at the edges' types. -/
def relRows (rf : FA S1001x128) (ty : IA S600000) : FA S600000x128 :=
  Host.gather gather_S1001x128_S600000x1_S600000x128_1_0_n_n_0_1_1128 rf (col (wrap 1001#32 ty))
/-- Per-edge messages summed into their target node rows. -/
def segSum (row : IA S600000) (msg : FA S600000x128) : FA S100000x128 :=
  Host.scatterAdd (F := Ideal) scatter_S100000x128_S600000x1_S600000x128_1_0_0_1
    (broadcastInDim S100000x128 ![] bcast_S_S100000x128 (constant (F := Ideal) S_ .f32 0x00000000#32)) (col row) msg

end Cert.KernelIdeal.St

end
-- ==== Proof.KerValue.lean ====
/-
  The Pallas program's two results as pure functions of the argument arrays, over the shared host stages and the
  whole-array functions of the five tiled passes. Per direction the per-edge scale (reciprocal in-degree of the target
  row) multiplies the gathered row of `x` BEFORE the projection; the batch variance of a lane is its mean square
  minus its squared mean.
-/
import proofs.«133848_j46454366273980_2_alg».proof.Proof.StagesK
import proofs.«133848_j46454366273980_2_alg».proof.Proof.LayerSpec

noncomputable section

namespace Cert.KernelIdeal.St

open Idealize.ShloMosaic Cert.KernelIdeal

variable [Facts]
open Facts₀ Facts

/-- One direction's messages summed into node rows, the scale applied to the gathered rows of `x`. -/
def embK (x : FA S100000x128) (rf : FA S1001x128) (h : IA S2x600000) (ty : IA S600000) (W : FA S128x128) : FA S100000x128 :=
  segSum (row0 h) (Cert.Layer.msg (mulf (xRows x (row1 h)) (lanes (edgeNorm (row0 h)))) (relRows rf ty) W)

/-- A 128-vector as a one-row array. -/
def rowOf (v : FA S128) : FA S1x128 := shapeCast S1x128 v shapeCasts_S128_S1x128

/-- The word of 100000 in every lane of a one-row array. -/
def nNodesRow : FA S1x128 := broadcastInDim S1x128 ![] bcast_S_S1x128 (constant (F := Ideal) S_ .f32 0x47C35000#32)

/-- The averaged, biased node features before normalization. -/
def combK (x : FA S100000x128) (ei : IA S2x1200000) (et : IA S1200000) (rel : FA S1000x128)
    (Win Wout Wloop : FA S128x128) (lr : FA S1x128) (bias : FA S128) : FA S100000x128 :=
  Cert.Layer.combined (embK x (relFull rel lr) (halfF ei) (typF et) Win) (embK x (relFull rel lr) (halfR ei) (typR et) Wout)
    x lr Wloop (rowOf bias)

/-- The batch mean of each lane. -/
def meanK (c : FA S100000x128) : FA S1x128 := Host.divf (Cert.Layer.colSum c) nNodesRow

/-- The batch variance of each lane: mean square minus squared mean. -/
def varK (c : FA S100000x128) : FA S1x128 :=
  subf (Host.divf (F := Ideal) (Cert.Layer.colSumSq c) nNodesRow) (mulf (meanK c) (meanK c))

/-- The first result: the normalized node features. -/
def outK (x : FA S100000x128) (ei : IA S2x1200000) (et : IA S1200000) (rel : FA S1000x128)
    (Win Wout Wloop : FA S128x128) (lr : FA S1x128) (bias g b : FA S128) : FA S100000x128 :=
  Cert.Layer.normalized (combK x ei et rel Win Wout Wloop lr bias) (meanK (combK x ei et rel Win Wout Wloop lr bias))
    (varK (combK x ei et rel Win Wout Wloop lr bias)) (rowOf g) (rowOf b)

/-- The second result: the 1000 relation rows projected by `Wrel`. -/
def relOutK (rel : FA S1000x128) (lr : FA S1x128) (Wrel : FA S128x128) : FA S1000x128 :=
  Cert.Layer.relOut (extractStridedSlice S1000x128 ![0, 0] (relFull rel lr) slices_S1001x128_S1000x128_0_0) Wrel

end Cert.KernelIdeal.St

end
-- ==== Proof.KerStretch.lean ====
/-
  The host stretches of the Pallas program, one at a time: which buffers a stretch writes, and what it leaves in each
  buffer the results depend on, from any contents before it — the stretch's own operations composed in their order,
  written with the shared stage functions (the halves of the edge list, a row of a half, the degree as a scatter-add of
  ones, its guarded reciprocal, the gathers of rows, the segment sum).
-/
import proofs.«133848_j46454366273980_2_alg».proof.Proof.KerFinalsStmt
import proofs.«133848_j46454366273980_2_alg».proof.Proof.KerValue

set_option maxRecDepth 16384

noncomputable section

namespace Cert.KernelIdeal.HandRun

open Idealize.ShloMosaic Idealize.ShloMosaic.TcCoe Cert.KernelIdeal
open Facts₀ Facts

local notation:max "⟪" b "⟫" => Proc.devRef Proc.tc b

/-! ## What each host stretch writes -/

/-- The references written by the operations of `Gen.hostOps0`. -/
def wr0 : List (Ref sig .tc) :=
  [main_v0, main_v1, main_v2, main_v3, main_v4, main_v5, main_v6, main_cst, main_v7, main_cst_0, main_v8, main_v9, main_v10, main_cst_1, main_v11, main_v12, main_cst_2, main_v13, main_v14, main_cst_3]
theorem wr0_sub : (Gen.hostOps0 (F := Ideal)).Forall fun op => op.writes ⊆ (wr0.map (Proc.devRef (τ := τ) .tc)).toFinset := by
  simp only [Gen.hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps0_1`. -/
def wr0_1 : List (Ref sig .tc) :=
  [main_call0_v0, main_call0_v1, main_v15]
theorem wr0_1_sub : (Gen.hostOps0_1 (F := Ideal)).Forall fun op => op.writes ⊆ (wr0_1.map (Proc.devRef (τ := τ) .tc)).toFinset := by
  simp only [Gen.hostOps0_1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps0_2`. -/
def wr0_2 : List (Ref sig .tc) :=
  [main_c, main_v16, main_v17, main_c_4, main_v18, main_v19, main_v20, main_v21, main_v22, main_v23, main_v24, main_cst_5, main_v25, main_cst_6, main_v26, main_v27, main_v28, main_cst_7, main_v29, main_v30, main_cst_8, main_v31, main_v32, main_cst_9]
theorem wr0_2_sub : (Gen.hostOps0_2 (F := Ideal)).Forall fun op => op.writes ⊆ (wr0_2.map (Proc.devRef (τ := τ) .tc)).toFinset := by
  simp only [Gen.hostOps0_2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps0_3`. -/
def wr0_3 : List (Ref sig .tc) :=
  [main_call1_v0, main_call1_v1, main_v33]
theorem wr0_3_sub : (Gen.hostOps0_3 (F := Ideal)).Forall fun op => op.writes ⊆ (wr0_3.map (Proc.devRef (τ := τ) .tc)).toFinset := by
  simp only [Gen.hostOps0_3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps0_4`. -/
def wr0_4 : List (Ref sig .tc) :=
  [main_c_10, main_v34, main_v35, main_c_11, main_v36, main_v37, main_v38, main_v39, main_v40, main_v41, main_v42, main_c_12, main_v43, main_v44, main_c_13, main_v45, main_v46, main_v47, main_v48, main_v49, main_v50, main_v51, main_v52, main_c_14, main_v53, main_v54, main_c_15, main_v55, main_v56, main_v57, main_v58, main_v59]
theorem wr0_4_sub : (Gen.hostOps0_4 (F := Ideal)).Forall fun op => op.writes ⊆ (wr0_4.map (Proc.devRef (τ := τ) .tc)).toFinset := by
  simp only [Gen.hostOps0_4, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps1`. -/
def wr1 : List (Ref sig .tc) :=
  [main_v61, main_v62, main_cst_16, main_v63, main_v64, main_v65, main_v66, main_v67, main_c_17, main_v68, main_v69, main_c_18, main_v70, main_v71, main_v72, main_v73, main_v74, main_v75, main_v76, main_v77, main_c_19, main_v78, main_v79, main_c_20, main_v80, main_v81, main_v82, main_v83, main_v84]
theorem wr1_sub : (Gen.hostOps1 (F := Ideal)).Forall fun op => op.writes ⊆ (wr1.map (Proc.devRef (τ := τ) .tc)).toFinset := by
  simp only [Gen.hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps2`. -/
def wr2 : List (Ref sig .tc) :=
  [main_v86, main_v87, main_cst_21, main_v88, main_v89, main_v90, main_v91, main_v92, main_v93]
theorem wr2_sub : (Gen.hostOps2 (F := Ideal)).Forall fun op => op.writes ⊆ (wr2.map (Proc.devRef (τ := τ) .tc)).toFinset := by
  simp only [Gen.hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps3`. -/
def wr3 : List (Ref sig .tc) :=
  [main_cst_22, main_v95, main_v96, main_cst_23, main_v97, main_v98, main_v99, main_v100]
theorem wr3_sub : (Gen.hostOps3 (F := Ideal)).Forall fun op => op.writes ⊆ (wr3.map (Proc.devRef (τ := τ) .tc)).toFinset := by
  simp only [Gen.hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-- The references written by the operations of `Gen.hostOps4`. -/
def wr4 : List (Ref sig .tc) :=
  [main_v102]
theorem wr4_sub : (Gen.hostOps4 (F := Ideal)).Forall fun op => op.writes ⊆ (wr4.map (Proc.devRef (τ := τ) .tc)).toFinset := by
  simp only [Gen.hostOps4, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

/-! ## What each host stretch leaves in the buffers the results depend on, from any contents `V` before it -/

section Stretches
open St

theorem o0_v0 (V : Valuation τ sig (Elt Ideal)) :
    StableHlo.after (Gen.hostOps0 (F := Ideal)) V ⟪main_v0⟫ = relFull (V ⟪main_arg3⟫) (V ⟪main_arg8⟫) := by
  dsimp only [Gen.hostOps0]; after_results <;> rfl
theorem o0_v1 (V : Valuation τ sig (Elt Ideal)) :
    StableHlo.after (Gen.hostOps0 (F := Ideal)) V ⟪main_v1⟫ = halfF (V ⟪main_arg1⟫) := by
  dsimp only [Gen.hostOps0]; after_results <;> rfl
theorem o0_v2 (V : Valuation τ sig (Elt Ideal)) :
    StableHlo.after (Gen.hostOps0 (F := Ideal)) V ⟪main_v2⟫ = halfR (V ⟪main_arg1⟫) := by
  dsimp only [Gen.hostOps0]; after_results <;> rfl
theorem o0_v3 (V : Valuation τ sig (Elt Ideal)) :
    StableHlo.after (Gen.hostOps0 (F := Ideal)) V ⟪main_v3⟫ = typF (V ⟪main_arg2⟫) := by
  dsimp only [Gen.hostOps0]; after_results <;> rfl
theorem o0_v4 (V : Valuation τ sig (Elt Ideal)) :
    StableHlo.after (Gen.hostOps0 (F := Ideal)) V ⟪main_v4⟫ = typR (V ⟪main_arg2⟫) := by
  dsimp only [Gen.hostOps0]; after_results <;> rfl
theorem o0_v6 (V : Valuation τ sig (Elt Ideal)) :
    StableHlo.after (Gen.hostOps0 (F := Ideal)) V ⟪main_v6⟫ = row0 (halfF (V ⟪main_arg1⟫)) := by
  dsimp only [Gen.hostOps0]; after_results <;> rfl
theorem o0_v12 (V : Valuation τ sig (Elt Ideal)) :
    StableHlo.after (Gen.hostOps0 (F := Ideal)) V ⟪main_v12⟫ = cmpf (F := Ideal) .ogt (deg (row0 (halfF (V ⟪main_arg1⟫)))) (nodeConst 0x00000000#32) := by
  dsimp only [Gen.hostOps0]; after_results <;> rfl
theorem o0_v14 (V : Valuation τ sig (Elt Ideal)) :
    StableHlo.after (Gen.hostOps0 (F := Ideal)) V ⟪main_v14⟫ = Host.divf (F := Ideal) (nodeConst 0x3F800000#32) (deg (row0 (halfF (V ⟪main_arg1⟫)))) := by
  dsimp only [Gen.hostOps0]; after_results <;> rfl
theorem o0_cst3 (V : Valuation τ sig (Elt Ideal)) :
    StableHlo.after (Gen.hostOps0 (F := Ideal)) V ⟪main_cst_3⟫ = constant (F := Ideal) S_ .f32 0x00000000#32 := by
  dsimp only [Gen.hostOps0]; after_results <;> rfl
theorem o01_v15 (V : Valuation τ sig (Elt Ideal)) :
    StableHlo.after (Gen.hostOps0_1 (F := Ideal)) V ⟪main_v15⟫ = select (V ⟪main_v12⟫) (V ⟪main_v14⟫) (broadcastInDim S100000 ![] bcast_S_S100000 (V ⟪main_cst_3⟫)) := by
  dsimp only [Gen.hostOps0_1]; after_results <;> rfl
theorem o02_v22 (V : Valuation τ sig (Elt Ideal)) :
    StableHlo.after (Gen.hostOps0_2 (F := Ideal)) V ⟪main_v22⟫ = Host.gather gather_S100000_S600000x1_S600000_n_0_n_n_0_1_1 (V ⟪main_v15⟫) (col (wrap 100000#32 (V ⟪main_v6⟫))) := by
  dsimp only [Gen.hostOps0_2]; after_results <;> rfl
theorem o02_v24 (V : Valuation τ sig (Elt Ideal)) :
    StableHlo.after (Gen.hostOps0_2 (F := Ideal)) V ⟪main_v24⟫ = row0 (V ⟪main_v2⟫) := by
  dsimp only [Gen.hostOps0_2]; after_results <;> rfl
theorem o02_v30 (V : Valuation τ sig (Elt Ideal)) :
    StableHlo.after (Gen.hostOps0_2 (F := Ideal)) V ⟪main_v30⟫ = cmpf (F := Ideal) .ogt (deg (row0 (V ⟪main_v2⟫))) (nodeConst 0x00000000#32) := by
  dsimp only [Gen.hostOps0_2]; after_results <;> rfl
theorem o02_v32 (V : Valuation τ sig (Elt Ideal)) :
    StableHlo.after (Gen.hostOps0_2 (F := Ideal)) V ⟪main_v32⟫ = Host.divf (F := Ideal) (nodeConst 0x3F800000#32) (deg (row0 (V ⟪main_v2⟫))) := by
  dsimp only [Gen.hostOps0_2]; after_results <;> rfl
theorem o02_cst9 (V : Valuation τ sig (Elt Ideal)) :
    StableHlo.after (Gen.hostOps0_2 (F := Ideal)) V ⟪main_cst_9⟫ = constant (F := Ideal) S_ .f32 0x00000000#32 := by
  dsimp only [Gen.hostOps0_2]; after_results <;> rfl
theorem o03_v33 (V : Valuation τ sig (Elt Ideal)) :
    StableHlo.after (Gen.hostOps0_3 (F := Ideal)) V ⟪main_v33⟫ = select (V ⟪main_v30⟫) (V ⟪main_v32⟫) (broadcastInDim S100000 ![] bcast_S_S100000 (V ⟪main_cst_9⟫)) := by
  dsimp only [Gen.hostOps0_3]; after_results <;> rfl
theorem o04_v40 (V : Valuation τ sig (Elt Ideal)) :
    StableHlo.after (Gen.hostOps0_4 (F := Ideal)) V ⟪main_v40⟫ = Host.gather gather_S100000_S600000x1_S600000_n_0_n_n_0_1_1 (V ⟪main_v33⟫) (col (wrap 100000#32 (V ⟪main_v24⟫))) := by
  dsimp only [Gen.hostOps0_4]; after_results_simp <;> rfl
theorem o04_v52 (V : Valuation τ sig (Elt Ideal)) :
    StableHlo.after (Gen.hostOps0_4 (F := Ideal)) V ⟪main_v52⟫ = mulf (xRows (V ⟪main_arg0⟫) (row1 (V ⟪main_v1⟫))) (lanes (V ⟪main_v22⟫)) := by
  dsimp only [Gen.hostOps0_4]; after_results_simp <;> rfl
theorem o04_v59 (V : Valuation τ sig (Elt Ideal)) :
    StableHlo.after (Gen.hostOps0_4 (F := Ideal)) V ⟪main_v59⟫ = relRows (V ⟪main_v0⟫) (V ⟪main_v3⟫) := by
  dsimp only [Gen.hostOps0_4]; after_results_simp <;> rfl
theorem o1_v65 (V : Valuation τ sig (Elt Ideal)) :
    StableHlo.after (Gen.hostOps1 (F := Ideal)) V ⟪main_v65⟫ = segSum (row0 (V ⟪main_v1⟫)) (V ⟪main_v60⟫) := by
  dsimp only [Gen.hostOps1]; after_results_simp <;> rfl
theorem o1_v77 (V : Valuation τ sig (Elt Ideal)) :
    StableHlo.after (Gen.hostOps1 (F := Ideal)) V ⟪main_v77⟫ = mulf (xRows (V ⟪main_arg0⟫) (row1 (V ⟪main_v2⟫))) (lanes (V ⟪main_v40⟫)) := by
  dsimp only [Gen.hostOps1]; after_results_simp <;> rfl
theorem o1_v84 (V : Valuation τ sig (Elt Ideal)) :
    StableHlo.after (Gen.hostOps1 (F := Ideal)) V ⟪main_v84⟫ = relRows (V ⟪main_v0⟫) (V ⟪main_v4⟫) := by
  dsimp only [Gen.hostOps1]; after_results_simp <;> rfl
theorem o2_v90 (V : Valuation τ sig (Elt Ideal)) :
    StableHlo.after (Gen.hostOps2 (F := Ideal)) V ⟪main_v90⟫ = segSum (row0 (V ⟪main_v2⟫)) (V ⟪main_v85⟫) := by
  dsimp only [Gen.hostOps2]; after_results <;> rfl
theorem o2_v91 (V : Valuation τ sig (Elt Ideal)) :
    StableHlo.after (Gen.hostOps2 (F := Ideal)) V ⟪main_v91⟫ = rowOf (V ⟪main_arg9⟫) := by
  dsimp only [Gen.hostOps2]; after_results <;> rfl
theorem o2_v92 (V : Valuation τ sig (Elt Ideal)) :
    StableHlo.after (Gen.hostOps2 (F := Ideal)) V ⟪main_v92⟫ = rowOf (V ⟪main_arg10⟫) := by
  dsimp only [Gen.hostOps2]; after_results <;> rfl
theorem o2_v93 (V : Valuation τ sig (Elt Ideal)) :
    StableHlo.after (Gen.hostOps2 (F := Ideal)) V ⟪main_v93⟫ = rowOf (V ⟪main_arg11⟫) := by
  dsimp only [Gen.hostOps2]; after_results <;> rfl
theorem o3_v96 (V : Valuation τ sig (Elt Ideal)) :
    StableHlo.after (Gen.hostOps3 (F := Ideal)) V ⟪main_v96⟫ = Host.divf (F := Ideal) (V ⟪main_v94_1⟫) nNodesRow := by
  dsimp only [Gen.hostOps3]; after_results <;> rfl
theorem o3_v100 (V : Valuation τ sig (Elt Ideal)) :
    StableHlo.after (Gen.hostOps3 (F := Ideal)) V ⟪main_v100⟫ = subf (Host.divf (F := Ideal) (V ⟪main_v94_2⟫) nNodesRow)
      (mulf (Host.divf (F := Ideal) (V ⟪main_v94_1⟫) nNodesRow) (Host.divf (F := Ideal) (V ⟪main_v94_1⟫) nNodesRow)) := by
  dsimp only [Gen.hostOps3]; after_results <;> rfl
theorem o4_v102 (V : Valuation τ sig (Elt Ideal)) :
    StableHlo.after (Gen.hostOps4 (F := Ideal)) V ⟪main_v102⟫ = extractStridedSlice S1000x128 ![0, 0] (V ⟪main_v0⟫) slices_S1001x128_S1000x128_0_0 := by
  dsimp only [Gen.hostOps4]; after_results <;> rfl

end Stretches

end Cert.KernelIdeal.HandRun

end
-- ==== Proof.KerFold.lean ====
/-
  The Pallas program's two results read back through the fold of @main's segments.
  The fold is walked backwards one boundary at a time. At a host stretch a buffer the stretch does not write keeps its
  contents, and a buffer it writes holds the stretch's own operations applied to the contents before it; at a tiled
  pass a buffer that is none of the pass's arrays keeps its contents, and an output array holds the pass's whole-array
  function of its operand arrays. Composed, the first result is the normalized, averaged sum of the two directions'
  segment sums and the self-loop projection, and the second the relation table's product, each as a function of the
  twelve argument arrays.
-/
import proofs.«133848_j46454366273980_2_alg».proof.Proof.KerStretch

set_option maxRecDepth 16384

noncomputable section

namespace Cert.KernelIdeal.HandRun

open Idealize.ShloMosaic Idealize.ShloMosaic.TcCoe Cert.KernelIdeal
open Facts₀ Facts

local notation:max "⟪" b "⟫" => Proc.devRef Proc.tc b

/-! ## A buffer a segment does not write keeps its contents -/

section Fold

variable {m : (ℓ : Loc nD τ sig) → Buf (Elt Ideal) ℓ} {ρ : Dev nD → PrngReg} {c : Dev nD}

theorem keep1 (r : Ref sig .tc) (h : r ∉ wr0) : Gen.W1 m ρ c ⟪r⟫ = Gen.W0 m ρ c ⟪r⟫ :=
  StableHlo.after_of_writes_sub _ _ wr0_sub h

theorem keep2 (r : Ref sig .tc) (h : r ∉ wr0_1) : Gen.W2 m ρ c ⟪r⟫ = Gen.W1 m ρ c ⟪r⟫ :=
  StableHlo.after_of_writes_sub _ _ wr0_1_sub h

theorem keep3 (r : Ref sig .tc) (h : r ∉ wr0_2) : Gen.W3 m ρ c ⟪r⟫ = Gen.W2 m ρ c ⟪r⟫ :=
  StableHlo.after_of_writes_sub _ _ wr0_2_sub h

theorem keep4 (r : Ref sig .tc) (h : r ∉ wr0_3) : Gen.W4 m ρ c ⟪r⟫ = Gen.W3 m ρ c ⟪r⟫ :=
  StableHlo.after_of_writes_sub _ _ wr0_3_sub h

theorem keep5 (r : Ref sig .tc) (h : r ∉ wr0_4) : Gen.W5 m ρ c ⟪r⟫ = Gen.W4 m ρ c ⟪r⟫ :=
  StableHlo.after_of_writes_sub _ _ wr0_4_sub h

theorem keep7 (r : Ref sig .tc) (h : r ∉ wr1) : Gen.W7 m ρ c ⟪r⟫ = Gen.W6 m ρ c ⟪r⟫ :=
  StableHlo.after_of_writes_sub _ _ wr1_sub h

theorem keep9 (r : Ref sig .tc) (h : r ∉ wr2) : Gen.W9 m ρ c ⟪r⟫ = Gen.W8 m ρ c ⟪r⟫ :=
  StableHlo.after_of_writes_sub _ _ wr2_sub h

theorem keep11 (r : Ref sig .tc) (h : r ∉ wr3) : Gen.W11 m ρ c ⟪r⟫ = Gen.W10 m ρ c ⟪r⟫ :=
  StableHlo.after_of_writes_sub _ _ wr3_sub h

theorem keep13 (r : Ref sig .tc) (h : r ∉ wr4) : Gen.W13 m ρ c ⟪r⟫ = Gen.W12 m ρ c ⟪r⟫ :=
  StableHlo.after_of_writes_sub _ _ wr4_sub h

/-- From the first pass's entry back to the contents after the first stretch. -/
theorem hop_1_4 (r : Ref sig .tc) (h1 : r ∉ wr0_1) (h2 : r ∉ wr0_2) (h3 : r ∉ wr0_3) :
    Gen.W4 m ρ c ⟪r⟫ = Gen.W1 m ρ c ⟪r⟫ :=
  (keep4 r h3).trans ((keep3 r h2).trans (keep2 r h1))
theorem hop_0_4 (r : Ref sig .tc) (h0 : r ∉ wr0) (h1 : r ∉ wr0_1) (h2 : r ∉ wr0_2) (h3 : r ∉ wr0_3) :
    Gen.W4 m ρ c ⟪r⟫ = Gen.W0 m ρ c ⟪r⟫ :=
  (hop_1_4 r h1 h2 h3).trans (keep1 r h0)
/-- Across the last stretch before the first pass, and the pass. -/
theorem hop_4_6 (r : Ref sig .tc) (h4 : r ∉ wr0_4) (hr : ∀ w, Pipeline.arrRef spec0 w ≠ r) :
    Gen.W6 m ρ c ⟪r⟫ = Gen.W4 m ρ c ⟪r⟫ :=
  (Gen.W6_of_ne m ρ c r hr).trans (keep5 r h4)
/-- Across the second stretch and the second pass. -/
theorem hop_6_8 (r : Ref sig .tc) (h : r ∉ wr1) (hr : ∀ w, Pipeline.arrRef spec1 w ≠ r) :
    Gen.W8 m ρ c ⟪r⟫ = Gen.W6 m ρ c ⟪r⟫ :=
  (Gen.W8_of_ne m ρ c r hr).trans (keep7 r h)
/-- Across the third stretch and the third pass. -/
theorem hop_8_10 (r : Ref sig .tc) (h : r ∉ wr2) (hr : ∀ w, Pipeline.arrRef spec2 w ≠ r) :
    Gen.W10 m ρ c ⟪r⟫ = Gen.W8 m ρ c ⟪r⟫ :=
  (Gen.W10_of_ne m ρ c r hr).trans (keep9 r h)
/-- Across the fourth stretch and the fourth pass. -/
theorem hop_10_12 (r : Ref sig .tc) (h : r ∉ wr3) (hr : ∀ w, Pipeline.arrRef spec3 w ≠ r) :
    Gen.W12 m ρ c ⟪r⟫ = Gen.W10 m ρ c ⟪r⟫ :=
  (Gen.W12_of_ne m ρ c r hr).trans (keep11 r h)
/-- An argument array, untouched by the five stretches before the first pass and by the first two passes with the
    stretches between them, holds its launch contents when the third stretch begins. -/
theorem hop_0_8 (r : Ref sig .tc) (h0 : r ∉ wr0) (h1 : r ∉ wr0_1) (h2 : r ∉ wr0_2) (h3 : r ∉ wr0_3) (h4 : r ∉ wr0_4)
    (hr0 : ∀ w, Pipeline.arrRef spec0 w ≠ r) (h5 : r ∉ wr1) (hr1 : ∀ w, Pipeline.arrRef spec1 w ≠ r) :
    Gen.W8 m ρ c ⟪r⟫ = Gen.W0 m ρ c ⟪r⟫ :=
  (hop_6_8 r h5 hr1).trans ((hop_4_6 r h4 hr0).trans (hop_0_4 r h0 h1 h2 h3))

/-! ## The contents at each boundary, as functions of the argument arrays -/

section Values
open St

set_option quotPrecheck false in
local notation "𝐱" => m ((c : Thread nD τ).loc main_arg0)
set_option quotPrecheck false in
local notation "𝐞" => m ((c : Thread nD τ).loc main_arg1)
set_option quotPrecheck false in
local notation "𝐭" => m ((c : Thread nD τ).loc main_arg2)
set_option quotPrecheck false in
local notation "𝐫" => m ((c : Thread nD τ).loc main_arg3)
set_option quotPrecheck false in
local notation "𝐥" => m ((c : Thread nD τ).loc main_arg8)

/-! ### After the first stretch: the extended relation table, the halves of the edge list and of the edge types,
    the forward target row, and the forward degree's comparison and reciprocal -/

theorem W1_v0 : Gen.W1 m ρ c ⟪main_v0⟫ = relFull 𝐫 𝐥 := o0_v0 (Gen.W0 m ρ c)
theorem W1_v1 : Gen.W1 m ρ c ⟪main_v1⟫ = halfF 𝐞 := o0_v1 (Gen.W0 m ρ c)
theorem W1_v2 : Gen.W1 m ρ c ⟪main_v2⟫ = halfR 𝐞 := o0_v2 (Gen.W0 m ρ c)
theorem W1_v3 : Gen.W1 m ρ c ⟪main_v3⟫ = typF 𝐭 := o0_v3 (Gen.W0 m ρ c)
theorem W1_v4 : Gen.W1 m ρ c ⟪main_v4⟫ = typR 𝐭 := o0_v4 (Gen.W0 m ρ c)
theorem W1_v6 : Gen.W1 m ρ c ⟪main_v6⟫ = row0 (halfF 𝐞) := o0_v6 (Gen.W0 m ρ c)
theorem W1_v12 : Gen.W1 m ρ c ⟪main_v12⟫ = cmpf (F := Ideal) .ogt (deg (row0 (halfF 𝐞))) (nodeConst 0x00000000#32) :=
  o0_v12 (Gen.W0 m ρ c)
theorem W1_v14 : Gen.W1 m ρ c ⟪main_v14⟫ = Host.divf (F := Ideal) (nodeConst 0x3F800000#32) (deg (row0 (halfF 𝐞))) :=
  o0_v14 (Gen.W0 m ρ c)
theorem W1_cst3 : Gen.W1 m ρ c ⟪main_cst_3⟫ = constant (F := Ideal) S_ .f32 0x00000000#32 := o0_cst3 (Gen.W0 m ρ c)

/-! ### The forward reciprocal degree, then the reverse direction's degree -/

theorem W2_v15 : Gen.W2 m ρ c ⟪main_v15⟫ = invDeg (row0 (halfF 𝐞)) :=
  (o01_v15 (Gen.W1 m ρ c)).trans (by rw [W1_v12, W1_v14, W1_cst3] <;> rfl)
theorem W2_v6 : Gen.W2 m ρ c ⟪main_v6⟫ = row0 (halfF 𝐞) := (keep2 main_v6 (by decide)).trans W1_v6
theorem W2_v2 : Gen.W2 m ρ c ⟪main_v2⟫ = halfR 𝐞 := (keep2 main_v2 (by decide)).trans W1_v2

theorem W3_v22 : Gen.W3 m ρ c ⟪main_v22⟫ = edgeNorm (row0 (halfF 𝐞)) :=
  (o02_v22 (Gen.W2 m ρ c)).trans (by rw [W2_v15, W2_v6] <;> rfl)
theorem W3_v24 : Gen.W3 m ρ c ⟪main_v24⟫ = row0 (halfR 𝐞) := (o02_v24 (Gen.W2 m ρ c)).trans (by rw [W2_v2])
theorem W3_v30 : Gen.W3 m ρ c ⟪main_v30⟫ = cmpf (F := Ideal) .ogt (deg (row0 (halfR 𝐞))) (nodeConst 0x00000000#32) :=
  (o02_v30 (Gen.W2 m ρ c)).trans (by rw [W2_v2])
theorem W3_v32 : Gen.W3 m ρ c ⟪main_v32⟫ = Host.divf (F := Ideal) (nodeConst 0x3F800000#32) (deg (row0 (halfR 𝐞))) :=
  (o02_v32 (Gen.W2 m ρ c)).trans (by rw [W2_v2])
theorem W3_cst9 : Gen.W3 m ρ c ⟪main_cst_9⟫ = constant (F := Ideal) S_ .f32 0x00000000#32 := o02_cst9 (Gen.W2 m ρ c)

theorem W4_v33 : Gen.W4 m ρ c ⟪main_v33⟫ = invDeg (row0 (halfR 𝐞)) :=
  (o03_v33 (Gen.W3 m ρ c)).trans (by rw [W3_v30, W3_v32, W3_cst9] <;> rfl)
theorem W4_v24 : Gen.W4 m ρ c ⟪main_v24⟫ = row0 (halfR 𝐞) := (keep4 main_v24 (by decide)).trans W3_v24
theorem W4_v22 : Gen.W4 m ρ c ⟪main_v22⟫ = edgeNorm (row0 (halfF 𝐞)) := (keep4 main_v22 (by decide)).trans W3_v22
theorem W4_v0 : Gen.W4 m ρ c ⟪main_v0⟫ = relFull 𝐫 𝐥 :=
  (hop_1_4 main_v0 (by decide) (by decide) (by decide)).trans W1_v0
theorem W4_v1 : Gen.W4 m ρ c ⟪main_v1⟫ = halfF 𝐞 :=
  (hop_1_4 main_v1 (by decide) (by decide) (by decide)).trans W1_v1
theorem W4_v2 : Gen.W4 m ρ c ⟪main_v2⟫ = halfR 𝐞 :=
  (hop_1_4 main_v2 (by decide) (by decide) (by decide)).trans W1_v2
theorem W4_v3 : Gen.W4 m ρ c ⟪main_v3⟫ = typF 𝐭 :=
  (hop_1_4 main_v3 (by decide) (by decide) (by decide)).trans W1_v3
theorem W4_v4 : Gen.W4 m ρ c ⟪main_v4⟫ = typR 𝐭 :=
  (hop_1_4 main_v4 (by decide) (by decide) (by decide)).trans W1_v4
theorem W4_arg0 : Gen.W4 m ρ c ⟪main_arg0⟫ = 𝐱 :=
  hop_0_4 main_arg0 (by decide) (by decide) (by decide) (by decide)

/-! ### The first pass's operands and output -/

theorem W5_v40 : Gen.W5 m ρ c ⟪main_v40⟫ = edgeNorm (row0 (halfR 𝐞)) :=
  (o04_v40 (Gen.W4 m ρ c)).trans (by rw [W4_v33, W4_v24] <;> rfl)
theorem W5_v52 : Gen.W5 m ρ c ⟪main_v52⟫ = mulf (xRows 𝐱 (row1 (halfF 𝐞))) (lanes (edgeNorm (row0 (halfF 𝐞)))) :=
  (o04_v52 (Gen.W4 m ρ c)).trans (by rw [W4_arg0, W4_v1, W4_v22])
theorem W5_v59 : Gen.W5 m ρ c ⟪main_v59⟫ = relRows (relFull 𝐫 𝐥) (typF 𝐭) :=
  (o04_v59 (Gen.W4 m ρ c)).trans (by rw [W4_v0, W4_v3])
theorem W5_arg4 : Gen.W5 m ρ c ⟪main_arg4⟫ = m ((c : Thread nD τ).loc main_arg4) :=
  (keep5 main_arg4 (by decide)).trans (hop_0_4 main_arg4 (by decide) (by decide) (by decide) (by decide))

theorem W6_v60 (hfin : Finals) : Gen.W6 m ρ c ⟪main_v60⟫
    = Cert.Layer.msg (mulf (xRows 𝐱 (row1 (halfF 𝐞))) (lanes (edgeNorm (row0 (halfF 𝐞))))) (relRows (relFull 𝐫 𝐥) (typF 𝐭))
        (m ((c : Thread nD τ).loc main_arg4)) :=
  (Gen.W6_arr m ρ c 3).trans ((hfin.1 (Gen.V5 m ρ) c).trans (by
    show Cert.Layer.msg (Gen.W5 m ρ c ⟪main_v52⟫) (Gen.W5 m ρ c ⟪main_v59⟫) (Gen.W5 m ρ c ⟪main_arg4⟫) = _
    rw [W5_v52, W5_v59, W5_arg4]))

theorem W6_v40 : Gen.W6 m ρ c ⟪main_v40⟫ = edgeNorm (row0 (halfR 𝐞)) :=
  (Gen.W6_of_ne m ρ c main_v40 (by decide)).trans W5_v40
theorem W6_v0 : Gen.W6 m ρ c ⟪main_v0⟫ = relFull 𝐫 𝐥 := (hop_4_6 main_v0 (by decide) (by decide)).trans W4_v0
theorem W6_v1 : Gen.W6 m ρ c ⟪main_v1⟫ = halfF 𝐞 := (hop_4_6 main_v1 (by decide) (by decide)).trans W4_v1
theorem W6_v2 : Gen.W6 m ρ c ⟪main_v2⟫ = halfR 𝐞 := (hop_4_6 main_v2 (by decide) (by decide)).trans W4_v2
theorem W6_v4 : Gen.W6 m ρ c ⟪main_v4⟫ = typR 𝐭 := (hop_4_6 main_v4 (by decide) (by decide)).trans W4_v4
theorem W6_arg0 : Gen.W6 m ρ c ⟪main_arg0⟫ = 𝐱 := (hop_4_6 main_arg0 (by decide) (by decide)).trans W4_arg0

/-! ### The forward segment sum; the second pass's operands and output -/

theorem W7_v65 (hfin : Finals) : Gen.W7 m ρ c ⟪main_v65⟫
    = embK 𝐱 (relFull 𝐫 𝐥) (halfF 𝐞) (typF 𝐭) (m ((c : Thread nD τ).loc main_arg4)) :=
  (o1_v65 (Gen.W6 m ρ c)).trans (by rw [W6_v1, W6_v60 hfin] <;> rfl)
theorem W7_v77 : Gen.W7 m ρ c ⟪main_v77⟫ = mulf (xRows 𝐱 (row1 (halfR 𝐞))) (lanes (edgeNorm (row0 (halfR 𝐞)))) :=
  (o1_v77 (Gen.W6 m ρ c)).trans (by rw [W6_arg0, W6_v2, W6_v40])
theorem W7_v84 : Gen.W7 m ρ c ⟪main_v84⟫ = relRows (relFull 𝐫 𝐥) (typR 𝐭) :=
  (o1_v84 (Gen.W6 m ρ c)).trans (by rw [W6_v0, W6_v4])
theorem W7_arg5 : Gen.W7 m ρ c ⟪main_arg5⟫ = m ((c : Thread nD τ).loc main_arg5) :=
  (keep7 main_arg5 (by decide)).trans ((hop_4_6 main_arg5 (by decide) (by decide)).trans
    (hop_0_4 main_arg5 (by decide) (by decide) (by decide) (by decide)))

theorem W8_v85 (hfin : Finals) : Gen.W8 m ρ c ⟪main_v85⟫
    = Cert.Layer.msg (mulf (xRows 𝐱 (row1 (halfR 𝐞))) (lanes (edgeNorm (row0 (halfR 𝐞))))) (relRows (relFull 𝐫 𝐥) (typR 𝐭))
        (m ((c : Thread nD τ).loc main_arg5)) :=
  (Gen.W8_arr m ρ c 3).trans ((hfin.2.1 (Gen.V7 m ρ) c).trans (by
    show Cert.Layer.msg (Gen.W7 m ρ c ⟪main_v77⟫) (Gen.W7 m ρ c ⟪main_v84⟫) (Gen.W7 m ρ c ⟪main_arg5⟫) = _
    rw [W7_v77, W7_v84, W7_arg5]))
theorem W8_v2 : Gen.W8 m ρ c ⟪main_v2⟫ = halfR 𝐞 := (hop_6_8 main_v2 (by decide) (by decide)).trans W6_v2
theorem W8_v65 (hfin : Finals) : Gen.W8 m ρ c ⟪main_v65⟫
    = embK 𝐱 (relFull 𝐫 𝐥) (halfF 𝐞) (typF 𝐭) (m ((c : Thread nD τ).loc main_arg4)) :=
  (Gen.W8_of_ne m ρ c main_v65 (by decide)).trans (W7_v65 hfin)
theorem W8_arg (r : Ref sig .tc) (h0 : r ∉ wr0) (h1 : r ∉ wr0_1) (h2 : r ∉ wr0_2) (h3 : r ∉ wr0_3) (h4 : r ∉ wr0_4)
    (hr0 : ∀ w, Pipeline.arrRef spec0 w ≠ r) (h5 : r ∉ wr1) (hr1 : ∀ w, Pipeline.arrRef spec1 w ≠ r) :
    Gen.W8 m ρ c ⟪r⟫ = m ((c : Thread nD τ).loc r) :=
  hop_0_8 r h0 h1 h2 h3 h4 hr0 h5 hr1

/-! ### The reverse segment sum and the three one-row arrays; the third pass's outputs -/

theorem W9_v90 (hfin : Finals) : Gen.W9 m ρ c ⟪main_v90⟫
    = embK 𝐱 (relFull 𝐫 𝐥) (halfR 𝐞) (typR 𝐭) (m ((c : Thread nD τ).loc main_arg5)) :=
  (o2_v90 (Gen.W8 m ρ c)).trans (by rw [W8_v2, W8_v85 hfin] <;> rfl)
theorem W9_v91 : Gen.W9 m ρ c ⟪main_v91⟫ = rowOf (m ((c : Thread nD τ).loc main_arg9)) :=
  (o2_v91 (Gen.W8 m ρ c)).trans (by
    rw [W8_arg main_arg9 (by decide) (by decide) (by decide) (by decide) (by decide) (by decide) (by decide) (by decide)])
theorem W9_v92 : Gen.W9 m ρ c ⟪main_v92⟫ = rowOf (m ((c : Thread nD τ).loc main_arg10)) :=
  (o2_v92 (Gen.W8 m ρ c)).trans (by
    rw [W8_arg main_arg10 (by decide) (by decide) (by decide) (by decide) (by decide) (by decide) (by decide) (by decide)])
theorem W9_v93 : Gen.W9 m ρ c ⟪main_v93⟫ = rowOf (m ((c : Thread nD τ).loc main_arg11)) :=
  (o2_v93 (Gen.W8 m ρ c)).trans (by
    rw [W8_arg main_arg11 (by decide) (by decide) (by decide) (by decide) (by decide) (by decide) (by decide) (by decide)])
theorem W9_v65 (hfin : Finals) : Gen.W9 m ρ c ⟪main_v65⟫
    = embK 𝐱 (relFull 𝐫 𝐥) (halfF 𝐞) (typF 𝐭) (m ((c : Thread nD τ).loc main_arg4)) :=
  (keep9 main_v65 (by decide)).trans (W8_v65 hfin)
theorem W9_arg0 : Gen.W9 m ρ c ⟪main_arg0⟫ = 𝐱 :=
  (keep9 main_arg0 (by decide)).trans
    (W8_arg main_arg0 (by decide) (by decide) (by decide) (by decide) (by decide) (by decide) (by decide) (by decide))
theorem W9_arg8 : Gen.W9 m ρ c ⟪main_arg8⟫ = 𝐥 :=
  (keep9 main_arg8 (by decide)).trans
    (W8_arg main_arg8 (by decide) (by decide) (by decide) (by decide) (by decide) (by decide) (by decide) (by decide))
theorem W9_arg7 : Gen.W9 m ρ c ⟪main_arg7⟫ = m ((c : Thread nD τ).loc main_arg7) :=
  (keep9 main_arg7 (by decide)).trans
    (W8_arg main_arg7 (by decide) (by decide) (by decide) (by decide) (by decide) (by decide) (by decide) (by decide))

/-- The averaged, biased node features, as the third pass's operands give them. -/
theorem V9_comb (hfin : Finals) :
    Cert.Layer.combined (Gen.V9 m ρ c main_v65) (Gen.V9 m ρ c main_v90) (Gen.V9 m ρ c main_arg0) (Gen.V9 m ρ c main_arg8)
        (Gen.V9 m ρ c main_arg7) (Gen.V9 m ρ c main_v91)
      = combK 𝐱 𝐞 𝐭 𝐫 (m ((c : Thread nD τ).loc main_arg4)) (m ((c : Thread nD τ).loc main_arg5))
          (m ((c : Thread nD τ).loc main_arg7)) 𝐥 (m ((c : Thread nD τ).loc main_arg9)) := by
  show Cert.Layer.combined (Gen.W9 m ρ c ⟪main_v65⟫) (Gen.W9 m ρ c ⟪main_v90⟫) (Gen.W9 m ρ c ⟪main_arg0⟫)
    (Gen.W9 m ρ c ⟪main_arg8⟫) (Gen.W9 m ρ c ⟪main_arg7⟫) (Gen.W9 m ρ c ⟪main_v91⟫) = _
  rw [W9_v65 hfin, W9_v90 hfin, W9_arg0, W9_arg8, W9_arg7, W9_v91] <;> rfl

set_option quotPrecheck false in
local notation "𝐜" => combK 𝐱 𝐞 𝐭 𝐫 (m ((c : Thread nD τ).loc main_arg4)) (m ((c : Thread nD τ).loc main_arg5)) (m ((c : Thread nD τ).loc main_arg7)) 𝐥 (m ((c : Thread nD τ).loc main_arg9))

theorem W10_v94_0 (hfin : Finals) : Gen.W10 m ρ c ⟪main_v94_0⟫ = 𝐜 :=
  (Gen.W10_arr m ρ c 6).trans ((hfin.2.2.1 (Gen.V9 m ρ) c).trans (V9_comb hfin))
theorem W10_v94_1 (hfin : Finals) : Gen.W10 m ρ c ⟪main_v94_1⟫ = Cert.Layer.colSum 𝐜 :=
  (Gen.W10_arr m ρ c 7).trans ((hfin.2.2.2.1 (Gen.V9 m ρ) c).trans (congrArg Cert.Layer.colSum (V9_comb hfin)))
theorem W10_v94_2 (hfin : Finals) : Gen.W10 m ρ c ⟪main_v94_2⟫ = Cert.Layer.colSumSq 𝐜 :=
  (Gen.W10_arr m ρ c 8).trans ((hfin.2.2.2.2.1 (Gen.V9 m ρ) c).trans (congrArg Cert.Layer.colSumSq (V9_comb hfin)))
theorem W10_v92 : Gen.W10 m ρ c ⟪main_v92⟫ = rowOf (m ((c : Thread nD τ).loc main_arg10)) :=
  (Gen.W10_of_ne m ρ c main_v92 (by decide)).trans W9_v92
theorem W10_v93 : Gen.W10 m ρ c ⟪main_v93⟫ = rowOf (m ((c : Thread nD τ).loc main_arg11)) :=
  (Gen.W10_of_ne m ρ c main_v93 (by decide)).trans W9_v93

/-! ### The batch mean and variance; the normalized features -/

theorem W11_v94_0 (hfin : Finals) : Gen.W11 m ρ c ⟪main_v94_0⟫ = 𝐜 := (keep11 main_v94_0 (by decide)).trans (W10_v94_0 hfin)
theorem W11_v96 (hfin : Finals) : Gen.W11 m ρ c ⟪main_v96⟫ = meanK 𝐜 :=
  (o3_v96 (Gen.W10 m ρ c)).trans (by rw [W10_v94_1 hfin] <;> rfl)
theorem W11_v100 (hfin : Finals) : Gen.W11 m ρ c ⟪main_v100⟫ = varK 𝐜 :=
  (o3_v100 (Gen.W10 m ρ c)).trans (by rw [W10_v94_1 hfin, W10_v94_2 hfin] <;> rfl)
theorem W11_v92 : Gen.W11 m ρ c ⟪main_v92⟫ = rowOf (m ((c : Thread nD τ).loc main_arg10)) :=
  (keep11 main_v92 (by decide)).trans W10_v92
theorem W11_v93 : Gen.W11 m ρ c ⟪main_v93⟫ = rowOf (m ((c : Thread nD τ).loc main_arg11)) :=
  (keep11 main_v93 (by decide)).trans W10_v93

theorem W12_v101 (hfin : Finals) : Gen.W12 m ρ c ⟪main_v101⟫
    = outK 𝐱 𝐞 𝐭 𝐫 (m ((c : Thread nD τ).loc main_arg4)) (m ((c : Thread nD τ).loc main_arg5))
        (m ((c : Thread nD τ).loc main_arg7)) 𝐥 (m ((c : Thread nD τ).loc main_arg9))
        (m ((c : Thread nD τ).loc main_arg10)) (m ((c : Thread nD τ).loc main_arg11)) :=
  (Gen.W12_arr m ρ c 5).trans ((hfin.2.2.2.2.2.1 (Gen.V11 m ρ) c).trans (by
    show Cert.Layer.normalized (Gen.W11 m ρ c ⟪main_v94_0⟫) (Gen.W11 m ρ c ⟪main_v96⟫) (Gen.W11 m ρ c ⟪main_v100⟫)
      (Gen.W11 m ρ c ⟪main_v92⟫) (Gen.W11 m ρ c ⟪main_v93⟫) = _
    rw [W11_v94_0 hfin, W11_v96 hfin, W11_v100 hfin, W11_v92, W11_v93] <;> rfl))

/-! ### The relation table's rows and the last pass -/

theorem W12_v0 : Gen.W12 m ρ c ⟪main_v0⟫ = relFull 𝐫 𝐥 :=
  (hop_10_12 main_v0 (by decide) (by decide)).trans ((hop_8_10 main_v0 (by decide) (by decide)).trans
    ((hop_6_8 main_v0 (by decide) (by decide)).trans W6_v0))
theorem W13_v102 : Gen.W13 m ρ c ⟪main_v102⟫
    = extractStridedSlice S1000x128 ![0, 0] (relFull 𝐫 𝐥) slices_S1001x128_S1000x128_0_0 :=
  (o4_v102 (Gen.W12 m ρ c)).trans (by rw [W12_v0])
theorem W13_arg6 : Gen.W13 m ρ c ⟪main_arg6⟫ = m ((c : Thread nD τ).loc main_arg6) :=
  (keep13 main_arg6 (by decide)).trans ((hop_10_12 main_arg6 (by decide) (by decide)).trans
    ((hop_8_10 main_arg6 (by decide) (by decide)).trans
      (W8_arg main_arg6 (by decide) (by decide) (by decide) (by decide) (by decide) (by decide) (by decide) (by decide))))

end Values

end Fold

/-! ## The two results -/

open St in
/-- The first result: the normalized node features, as a function of the argument arrays. -/
theorem W14_out (hfin : Finals) (m : (ℓ : Loc nD τ sig) → Buf (Elt Ideal) ℓ) (ρ : Dev nD → PrngReg) (c : Dev nD) :
    Gen.W14 (F := Ideal) m ρ c ⟪main_v101⟫
      = outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) (m ((c : Thread nD τ).loc main_arg8)) (m ((c : Thread nD τ).loc main_arg9))
          (m ((c : Thread nD τ).loc main_arg10)) (m ((c : Thread nD τ).loc main_arg11)) :=
  (Gen.W14_of_ne m ρ c main_v101 (by decide)).trans ((keep13 main_v101 (by decide)).trans (W12_v101 hfin))

open St in
/-- The second result: the relation table projected, as a function of the argument arrays. -/
theorem W14_rel (hfin : Finals) (m : (ℓ : Loc nD τ sig) → Buf (Elt Ideal) ℓ) (ρ : Dev nD → PrngReg) (c : Dev nD) :
    Gen.W14 (F := Ideal) m ρ c ⟪main_v103⟫
      = relOutK (m ((c : Thread nD τ).loc main_arg3)) (m ((c : Thread nD τ).loc main_arg8)) (m ((c : Thread nD τ).loc main_arg6)) :=
  (Gen.W14_arr m ρ c 2).trans ((hfin.2.2.2.2.2.2 (Gen.V13 m ρ) c).trans (by
    show Cert.Layer.relOut (Gen.W13 m ρ c ⟪main_v102⟫) (Gen.W13 m ρ c ⟪main_arg6⟫) = _
    rw [W13_v102, W13_arg6] <;> rfl))

end Cert.KernelIdeal.HandRun

end
-- ==== Proof.KerValueRun.lean ====
/-
  The Pallas program's run with its two results named: every weakly fair execution of @main ends with the first
  result array holding the normalized node features and the second the projected relation table, each as a function
  of the twelve argument arrays, and with the argument arrays as launched. It is the run with every final buffer kept,
  read at the two result buffers and at the arguments through the fold of @main's segments.
-/
import proofs.«133848_j46454366273980_2_alg».proof.Proof.KerRun
import proofs.«133848_j46454366273980_2_alg».proof.Proof.KerFold

set_option maxRecDepth 16384

noncomputable section

namespace Cert.KernelIdeal.HandRun

open Idealize.ShloMosaic Idealize.ShloMosaic.TcCoe Cert.KernelIdeal

/-- Both results as functions of the arguments, and the arguments unchanged. -/
theorem value_run (hfin : Finals) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v101)
          = St.outK (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg7)) (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_v103)
          = St.relOutK (m ((c.tc : Thread nD τ).loc main_arg3)) (m ((c.tc : Thread nD τ).loc main_arg8)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (Gen.mem_uc main_v101 (by decide))).trans (W14_out hfin m ρ c),
     (h c _ (Gen.mem_uc main_v103 (by decide))).trans (W14_rel hfin m ρ c),
     (h c _ (Gen.mem_uc main_arg0 (by decide))).trans (Gen.W14_main_arg0 m ρ c),
     (h c _ (Gen.mem_uc main_arg1 (by decide))).trans (Gen.W14_main_arg1 m ρ c),
     (h c _ (Gen.mem_uc main_arg2 (by decide))).trans (Gen.W14_main_arg2 m ρ c),
     (h c _ (Gen.mem_uc main_arg3 (by decide))).trans (Gen.W14_main_arg3 m ρ c),
     (h c _ (Gen.mem_uc main_arg4 (by decide))).trans (Gen.W14_main_arg4 m ρ c),
     (h c _ (Gen.mem_uc main_arg5 (by decide))).trans (Gen.W14_main_arg5 m ρ c),
     (h c _ (Gen.mem_uc main_arg6 (by decide))).trans (Gen.W14_main_arg6 m ρ c),
     (h c _ (Gen.mem_uc main_arg7 (by decide))).trans (Gen.W14_main_arg7 m ρ c),
     (h c _ (Gen.mem_uc main_arg8 (by decide))).trans (Gen.W14_main_arg8 m ρ c),
     (h c _ (Gen.mem_uc main_arg9 (by decide))).trans (Gen.W14_main_arg9 m ρ c),
     (h c _ (Gen.mem_uc main_arg10 (by decide))).trans (Gen.W14_main_arg10 m ρ c),
     (h c _ (Gen.mem_uc main_arg11 (by decide))).trans (Gen.W14_main_arg11 m ρ c)⟩)
    (run_all m ρ)

end Cert.KernelIdeal.HandRun

end
-- ==== Proof.KerFinal0.lean ====
/-
  A message pass (forward direction). The grid is 100 points; point `t` loads rows `6000·t … 6000·t + 5999` of the two
  per-edge operand arrays and the whole 128×128 weight, and stores the lane-wise product of the two row blocks times
  the weight. A block of that product depends only on the same rows of the operands, so what each point writes back is
  its block of ONE whole-array function — the projected lane-wise products — and the 100 blocks tile the result array.
-/
import proofs.«133848_j46454366273980_2_alg».proof.Proof.KerFinalsStmt
import Idealize.ShloMosaic.Lib.Pipeline.Value
import Idealize.ShloMosaic.Lib.ValueIdx
import Idealize.ShloMosaic.PureOps.Ideal.Laws

set_option maxRecDepth 16384

noncomputable section

namespace Cert.KernelIdeal.HandRun

open Idealize.ShloMosaic Idealize.ShloMosaic.TcCoe Idealize.ShloMosaic.ValueIdx Cert.KernelIdeal
open Idealize.ShloMosaic.Pipeline (Dat)

namespace R0

theorem hz : (![0, 0] : Fin 2 → Nat) = fun _ => 0 := funext fun a => by fin_cases a <;> rfl

/-- The stored block at an index: the contraction over the 128 lanes of the lane-wise product with the weight. -/
theorem pay_apply (x0 x1 : Vec Ideal S6000x128 .f32) (x2 : Vec Ideal S128x128 .f32) (y : S6000x128.Idx) :
    Gen.k0_pay1 x0 x1 x2 y
      = Cert.Gcn.Dense.prod (M := 6000) (K := 128) (N := 128) (fun i => x0 i * x1 i) x2 y := by
  unfold Gen.k0_pay1
  simp only [shapeCast_self]
  refine (Ideal.matmul_constant_zero_apply dot_S6000x128_S128x128_S6000x128_1_0_0_1_n_n none _ _ y).trans ?_
  exact Cert.Gcn.Dense.sum_contr_eq_prod dot_S6000x128_S128x128_S6000x128_1_0_0_1_n_n rfl rfl
    (fun _ _ => rfl)
    (fun i q => dot_S6000x128_S128x128_S6000x128_1_0_0_1_n_n.lhsIdx_val_of_single rfl i q)
    (fun i q => dot_S6000x128_S128x128_S6000x128_1_0_0_1_n_n.rhsIdx_val_of_single rfl i q)
    (fun _ _ => rfl) (fun i => x0 i * x1 i) x2 y

/-- The stored block at an index against the whole-array function: it is enough that the loaded blocks read the
    arrays along the row and the column the index names. -/
theorem pay_at (A B : Cert.Layer.E128 → EReal) (W : Cert.Layer.W128 → EReal)
    (x0 x1 : Vec Ideal S6000x128 .f32) (x2 : Vec Ideal S128x128 .f32) (y : S6000x128.Idx) (i : S600000x128.Idx)
    (h0 : ∀ k : Fin 128, x0 (ix2 (y 0) k) = A (ix2 (i 0) k))
    (h1 : ∀ k : Fin 128, x1 (ix2 (y 0) k) = B (ix2 (i 0) k))
    (h2 : ∀ k : Fin 128, x2 (ix2 k (y 1)) = W (ix2 k (i 1))) :
    Gen.k0_pay1 x0 x1 x2 y = Cert.Layer.msg A B W i := by
  refine (pay_apply x0 x1 x2 y).trans ?_
  unfold Cert.Layer.msg Cert.Gcn.Dense.prod
  refine Finset.sum_congr rfl fun k _ => ?_
  show x0 (ix2 (y 0) k) * x1 (ix2 (y 0) k) * x2 (ix2 k (y 1)) = A (ix2 (i 0) k) * B (ix2 (i 0) k) * W (ix2 k (i 1))
  rw [h0 k, h1 k, h2 k]

/-- Window 0's block at a point is rows `t·6000 … t·6000 + 5999` of its array. -/
theorem idx_0 : ∀ t : Fin cfg0.N, win0_0.index t (0 : Fin 2) = t.val ∧ win0_0.index t (1 : Fin 2) = 0 :=
  (by decide +kernel : ∀ t : Fin grid0.N, _)

theorem iblk_0_apply (V : Vals) (c : Dev nD) (t : Fin cfg0.N) (x : S6000x128.Idx) (k : S600000x128.Idx)
    (hk0 : (k 0).val = t.val * 6000 + (x 0).val) (hk1 : (k 1).val = (x 1).val) :
    (Gen.iblk0 (F := Ideal) V c 0 t : Vec Ideal S6000x128 .f32) x = V c main_v52 k := by
  obtain ⟨e0, e1⟩ := idx_0 t
  unfold Gen.iblk0
  rw [View.read_apply]
  show V c main_v52 _ = V c main_v52 _
  congr 1
  funext a
  apply Fin.ext
  match a with
  | ⟨0, _⟩ => show win0_0.index t (0 : Fin 2) * 6000 + 1 * (x 0).val = (k 0).val; rw [e0, hk0]; omega
  | ⟨1, _⟩ => show win0_0.index t (1 : Fin 2) * 128 + 1 * (x 1).val = (k 1).val; rw [e1, hk1]; omega

/-- Window 1's block at a point is rows `t·6000 … t·6000 + 5999` of its array. -/
theorem idx_1 : ∀ t : Fin cfg0.N, win0_1.index t (0 : Fin 2) = t.val ∧ win0_1.index t (1 : Fin 2) = 0 :=
  (by decide +kernel : ∀ t : Fin grid0.N, _)

theorem iblk_1_apply (V : Vals) (c : Dev nD) (t : Fin cfg0.N) (x : S6000x128.Idx) (k : S600000x128.Idx)
    (hk0 : (k 0).val = t.val * 6000 + (x 0).val) (hk1 : (k 1).val = (x 1).val) :
    (Gen.iblk0 (F := Ideal) V c 1 t : Vec Ideal S6000x128 .f32) x = V c main_v59 k := by
  obtain ⟨e0, e1⟩ := idx_1 t
  unfold Gen.iblk0
  rw [View.read_apply]
  show V c main_v59 _ = V c main_v59 _
  congr 1
  funext a
  apply Fin.ext
  match a with
  | ⟨0, _⟩ => show win0_1.index t (0 : Fin 2) * 6000 + 1 * (x 0).val = (k 0).val; rw [e0, hk0]; omega
  | ⟨1, _⟩ => show win0_1.index t (1 : Fin 2) * 128 + 1 * (x 1).val = (k 1).val; rw [e1, hk1]; omega

/-- Window 2's block at every point is its whole array (the weight). -/
theorem idx_2 : ∀ t : Fin cfg0.N, win0_2.index t (0 : Fin 2) = 0 ∧ win0_2.index t (1 : Fin 2) = 0 :=
  (by decide +kernel : ∀ t : Fin grid0.N, _)

theorem iblk_2_apply (V : Vals) (c : Dev nD) (t : Fin cfg0.N) (x k : S128x128.Idx)
    (hk0 : (k 0).val = (x 0).val) (hk1 : (k 1).val = (x 1).val) :
    (Gen.iblk0 (F := Ideal) V c 2 t : Vec Ideal S128x128 .f32) x = V c main_arg4 k := by
  obtain ⟨e0, e1⟩ := idx_2 t
  unfold Gen.iblk0
  rw [View.read_apply]
  show V c main_arg4 _ = V c main_arg4 _
  congr 1
  funext a
  apply Fin.ext
  match a with
  | ⟨0, _⟩ => show win0_2.index t (0 : Fin 2) * 128 + 1 * (x 0).val = (k 0).val; rw [e0, hk0]; omega
  | ⟨1, _⟩ => show win0_2.index t (1 : Fin 2) * 128 + 1 * (x 1).val = (k 1).val; rw [e1, hk1]; omega

/-- The output window's block at a point is rows `t·6000 … t·6000 + 5999` of the result array. -/
theorem idx_3 : ∀ t : Fin cfg0.N, win0_3.index t (0 : Fin 2) = t.val ∧ win0_3.index t (1 : Fin 2) = 0 :=
  (by decide +kernel : ∀ t : Fin grid0.N, _)

/-- An index of the result array is in a point's block iff each coordinate is in the block's range. -/
theorem mem_blk (t : Fin cfg0.N) (i : S600000x128.Idx) :
    i ∈ ((cfg0.win 3).blk t).view.set ↔ ∀ a : Fin 2, win0_3.index t a * S6000x128.size a ≤ (i a).val
      ∧ (i a).val < win0_3.index t a * S6000x128.size a + S6000x128.size a := by
  show i ∈ ((View.whole main_v60).slice (win0_3.rect t)).set ↔ _
  rw [View.set_slice_whole, Rect.mem_set_unit]
  exact Iff.rfl

/-- Row `r` of the result array is in the block of point `r / 6000`. -/
theorem cover (i : S600000x128.Idx) :
    ∃ t : Fin cfg0.N, (cfg0.win 3).flush t = true ∧ i ∈ ((cfg0.win 3).blk t).view.set := by
  have hN : cfg0.N = 100 := Gen.N_0
  have hi0 : (i 0).val < 600000 := (i 0).isLt
  have hi1 : (i 1).val < 128 := (i 1).isLt
  obtain ⟨tt, htt⟩ : ∃ tt : Fin cfg0.N, tt.val = (i 0).val / 6000 :=
    ⟨⟨(i 0).val / 6000, by rw [hN]; omega⟩, rfl⟩
  obtain ⟨e0, e1⟩ := idx_3 tt
  refine ⟨tt, Gen.flush0_3 tt, ?_⟩
  rw [mem_blk]
  intro a
  match a with
  | ⟨0, _⟩ =>
    show win0_3.index tt (0 : Fin 2) * 6000 ≤ (i 0).val ∧ (i 0).val < win0_3.index tt (0 : Fin 2) * 6000 + 6000
    rw [e0, htt]; omega
  | ⟨1, _⟩ =>
    show win0_3.index tt (1 : Fin 2) * 128 ≤ (i 1).val ∧ (i 1).val < win0_3.index tt (1 : Fin 2) * 128 + 128
    rw [e1]; omega

/-- What a point writes back is its block of the projected lane-wise products of the operand arrays. -/
theorem flushed_eq (V : Vals) (c : Dev nD) (t : Fin cfg0.N) :
    (Gen.dat0 (F := Ideal) V c).flushed 3 t
      = ((cfg0.win 3).blk t).view.read (Elt Ideal) (Cert.Layer.msg (V c main_v52) (V c main_v59) (V c main_arg4)) := by
  show (cfg0.win 3).cut (grid0.coords t) ((Gen.dat0 (F := Ideal) V c).after 3 t) = _
  rw [Gen.after0_3]
  unfold Gen.out0_3
  rw [View.canon_unit_zero hz]
  simp only [View.ld_unit_zero (S := S6000x128) hz, View.ld_unit_zero (S := S128x128) hz]
  obtain ⟨e0, e1⟩ := idx_3 t
  refine funext fun (y : S6000x128.Idx) => ?_
  show Gen.k0_pay1 (Gen.iblk0 V c 0 t) (Gen.iblk0 V c 1 t) (Gen.iblk0 V c 2 t) y
      = Cert.Layer.msg (V c main_v52) (V c main_v59) (V c main_arg4) (((cfg0.win 3).blk t).view.emb y)
  have h0 : ((((cfg0.win 3).blk t).view.emb y : S600000x128.Idx) 0).val = t.val * 6000 + (y 0).val := by
    show win0_3.index t (0 : Fin 2) * 6000 + 1 * (y 0).val = t.val * 6000 + (y 0).val; rw [e0]; omega
  have h1 : ((((cfg0.win 3).blk t).view.emb y : S600000x128.Idx) 1).val = (y 1).val := by
    show win0_3.index t (1 : Fin 2) * 128 + 1 * (y 1).val = (y 1).val; rw [e1]; omega
  exact pay_at (V c main_v52) (V c main_v59) (V c main_arg4) (Gen.iblk0 V c 0 t) (Gen.iblk0 V c 1 t) (Gen.iblk0 V c 2 t) y
    (((cfg0.win 3).blk t).view.emb y)
    (fun k => iblk_0_apply V c t (ix2 (y 0) k) (ix2 ((((cfg0.win 3).blk t).view.emb y : S600000x128.Idx) 0) k) h0 rfl)
    (fun k => iblk_1_apply V c t (ix2 (y 0) k) (ix2 ((((cfg0.win 3).blk t).view.emb y : S600000x128.Idx) 0) k) h0 rfl)
    (fun k => iblk_2_apply V c t (ix2 k (y 1)) (ix2 k ((((cfg0.win 3).blk t).view.emb y : S600000x128.Idx) 1)) rfl h1)

end R0

/-- The message pass leaves the projected lane-wise products of its operand arrays. -/
theorem final0 : Final0 := fun V c =>
  (Gen.dat0 (F := Ideal) V c).arrAt_eq_of_cover 3 (Cert.Layer.msg (V c main_v52) (V c main_v59) (V c main_arg4))
    (fun t _ => R0.flushed_eq V c t) R0.cover

end Cert.KernelIdeal.HandRun

end
-- ==== Proof.KerFinal1.lean ====
/-
  A message pass (reverse direction). The grid is 100 points; point `t` loads rows `6000·t … 6000·t + 5999` of the two
  per-edge operand arrays and the whole 128×128 weight, and stores the lane-wise product of the two row blocks times
  the weight. A block of that product depends only on the same rows of the operands, so what each point writes back is
  its block of ONE whole-array function — the projected lane-wise products — and the 100 blocks tile the result array.
-/
import proofs.«133848_j46454366273980_2_alg».proof.Proof.KerFinalsStmt
import Idealize.ShloMosaic.Lib.Pipeline.Value
import Idealize.ShloMosaic.Lib.ValueIdx
import Idealize.ShloMosaic.PureOps.Ideal.Laws

set_option maxRecDepth 16384

noncomputable section

namespace Cert.KernelIdeal.HandRun

open Idealize.ShloMosaic Idealize.ShloMosaic.TcCoe Idealize.ShloMosaic.ValueIdx Cert.KernelIdeal
open Idealize.ShloMosaic.Pipeline (Dat)

namespace R1

theorem hz : (![0, 0] : Fin 2 → Nat) = fun _ => 0 := funext fun a => by fin_cases a <;> rfl

/-- The stored block at an index: the contraction over the 128 lanes of the lane-wise product with the weight. -/
theorem pay_apply (x0 x1 : Vec Ideal S6000x128 .f32) (x2 : Vec Ideal S128x128 .f32) (y : S6000x128.Idx) :
    Gen.k1_pay1 x0 x1 x2 y
      = Cert.Gcn.Dense.prod (M := 6000) (K := 128) (N := 128) (fun i => x0 i * x1 i) x2 y := by
  unfold Gen.k1_pay1
  simp only [shapeCast_self]
  refine (Ideal.matmul_constant_zero_apply dot_S6000x128_S128x128_S6000x128_1_0_0_1_n_n none _ _ y).trans ?_
  exact Cert.Gcn.Dense.sum_contr_eq_prod dot_S6000x128_S128x128_S6000x128_1_0_0_1_n_n rfl rfl
    (fun _ _ => rfl)
    (fun i q => dot_S6000x128_S128x128_S6000x128_1_0_0_1_n_n.lhsIdx_val_of_single rfl i q)
    (fun i q => dot_S6000x128_S128x128_S6000x128_1_0_0_1_n_n.rhsIdx_val_of_single rfl i q)
    (fun _ _ => rfl) (fun i => x0 i * x1 i) x2 y

/-- The stored block at an index against the whole-array function: it is enough that the loaded blocks read the
    arrays along the row and the column the index names. -/
theorem pay_at (A B : Cert.Layer.E128 → EReal) (W : Cert.Layer.W128 → EReal)
    (x0 x1 : Vec Ideal S6000x128 .f32) (x2 : Vec Ideal S128x128 .f32) (y : S6000x128.Idx) (i : S600000x128.Idx)
    (h0 : ∀ k : Fin 128, x0 (ix2 (y 0) k) = A (ix2 (i 0) k))
    (h1 : ∀ k : Fin 128, x1 (ix2 (y 0) k) = B (ix2 (i 0) k))
    (h2 : ∀ k : Fin 128, x2 (ix2 k (y 1)) = W (ix2 k (i 1))) :
    Gen.k1_pay1 x0 x1 x2 y = Cert.Layer.msg A B W i := by
  refine (pay_apply x0 x1 x2 y).trans ?_
  unfold Cert.Layer.msg Cert.Gcn.Dense.prod
  refine Finset.sum_congr rfl fun k _ => ?_
  show x0 (ix2 (y 0) k) * x1 (ix2 (y 0) k) * x2 (ix2 k (y 1)) = A (ix2 (i 0) k) * B (ix2 (i 0) k) * W (ix2 k (i 1))
  rw [h0 k, h1 k, h2 k]

/-- Window 0's block at a point is rows `t·6000 … t·6000 + 5999` of its array. -/
theorem idx_0 : ∀ t : Fin cfg1.N, win1_0.index t (0 : Fin 2) = t.val ∧ win1_0.index t (1 : Fin 2) = 0 :=
  (by decide +kernel : ∀ t : Fin grid1.N, _)

theorem iblk_0_apply (V : Vals) (c : Dev nD) (t : Fin cfg1.N) (x : S6000x128.Idx) (k : S600000x128.Idx)
    (hk0 : (k 0).val = t.val * 6000 + (x 0).val) (hk1 : (k 1).val = (x 1).val) :
    (Gen.iblk1 (F := Ideal) V c 0 t : Vec Ideal S6000x128 .f32) x = V c main_v77 k := by
  obtain ⟨e0, e1⟩ := idx_0 t
  unfold Gen.iblk1
  rw [View.read_apply]
  show V c main_v77 _ = V c main_v77 _
  congr 1
  funext a
  apply Fin.ext
  match a with
  | ⟨0, _⟩ => show win1_0.index t (0 : Fin 2) * 6000 + 1 * (x 0).val = (k 0).val; rw [e0, hk0]; omega
  | ⟨1, _⟩ => show win1_0.index t (1 : Fin 2) * 128 + 1 * (x 1).val = (k 1).val; rw [e1, hk1]; omega

/-- Window 1's block at a point is rows `t·6000 … t·6000 + 5999` of its array. -/
theorem idx_1 : ∀ t : Fin cfg1.N, win1_1.index t (0 : Fin 2) = t.val ∧ win1_1.index t (1 : Fin 2) = 0 :=
  (by decide +kernel : ∀ t : Fin grid1.N, _)

theorem iblk_1_apply (V : Vals) (c : Dev nD) (t : Fin cfg1.N) (x : S6000x128.Idx) (k : S600000x128.Idx)
    (hk0 : (k 0).val = t.val * 6000 + (x 0).val) (hk1 : (k 1).val = (x 1).val) :
    (Gen.iblk1 (F := Ideal) V c 1 t : Vec Ideal S6000x128 .f32) x = V c main_v84 k := by
  obtain ⟨e0, e1⟩ := idx_1 t
  unfold Gen.iblk1
  rw [View.read_apply]
  show V c main_v84 _ = V c main_v84 _
  congr 1
  funext a
  apply Fin.ext
  match a with
  | ⟨0, _⟩ => show win1_1.index t (0 : Fin 2) * 6000 + 1 * (x 0).val = (k 0).val; rw [e0, hk0]; omega
  | ⟨1, _⟩ => show win1_1.index t (1 : Fin 2) * 128 + 1 * (x 1).val = (k 1).val; rw [e1, hk1]; omega

/-- Window 2's block at every point is its whole array (the weight). -/
theorem idx_2 : ∀ t : Fin cfg1.N, win1_2.index t (0 : Fin 2) = 0 ∧ win1_2.index t (1 : Fin 2) = 0 :=
  (by decide +kernel : ∀ t : Fin grid1.N, _)

theorem iblk_2_apply (V : Vals) (c : Dev nD) (t : Fin cfg1.N) (x k : S128x128.Idx)
    (hk0 : (k 0).val = (x 0).val) (hk1 : (k 1).val = (x 1).val) :
    (Gen.iblk1 (F := Ideal) V c 2 t : Vec Ideal S128x128 .f32) x = V c main_arg5 k := by
  obtain ⟨e0, e1⟩ := idx_2 t
  unfold Gen.iblk1
  rw [View.read_apply]
  show V c main_arg5 _ = V c main_arg5 _
  congr 1
  funext a
  apply Fin.ext
  match a with
  | ⟨0, _⟩ => show win1_2.index t (0 : Fin 2) * 128 + 1 * (x 0).val = (k 0).val; rw [e0, hk0]; omega
  | ⟨1, _⟩ => show win1_2.index t (1 : Fin 2) * 128 + 1 * (x 1).val = (k 1).val; rw [e1, hk1]; omega

/-- The output window's block at a point is rows `t·6000 … t·6000 + 5999` of the result array. -/
theorem idx_3 : ∀ t : Fin cfg1.N, win1_3.index t (0 : Fin 2) = t.val ∧ win1_3.index t (1 : Fin 2) = 0 :=
  (by decide +kernel : ∀ t : Fin grid1.N, _)

/-- An index of the result array is in a point's block iff each coordinate is in the block's range. -/
theorem mem_blk (t : Fin cfg1.N) (i : S600000x128.Idx) :
    i ∈ ((cfg1.win 3).blk t).view.set ↔ ∀ a : Fin 2, win1_3.index t a * S6000x128.size a ≤ (i a).val
      ∧ (i a).val < win1_3.index t a * S6000x128.size a + S6000x128.size a := by
  show i ∈ ((View.whole main_v85).slice (win1_3.rect t)).set ↔ _
  rw [View.set_slice_whole, Rect.mem_set_unit]
  exact Iff.rfl

/-- Row `r` of the result array is in the block of point `r / 6000`. -/
theorem cover (i : S600000x128.Idx) :
    ∃ t : Fin cfg1.N, (cfg1.win 3).flush t = true ∧ i ∈ ((cfg1.win 3).blk t).view.set := by
  have hN : cfg1.N = 100 := Gen.N_1
  have hi0 : (i 0).val < 600000 := (i 0).isLt
  have hi1 : (i 1).val < 128 := (i 1).isLt
  obtain ⟨tt, htt⟩ : ∃ tt : Fin cfg1.N, tt.val = (i 0).val / 6000 :=
    ⟨⟨(i 0).val / 6000, by rw [hN]; omega⟩, rfl⟩
  obtain ⟨e0, e1⟩ := idx_3 tt
  refine ⟨tt, Gen.flush1_3 tt, ?_⟩
  rw [mem_blk]
  intro a
  match a with
  | ⟨0, _⟩ =>
    show win1_3.index tt (0 : Fin 2) * 6000 ≤ (i 0).val ∧ (i 0).val < win1_3.index tt (0 : Fin 2) * 6000 + 6000
    rw [e0, htt]; omega
  | ⟨1, _⟩ =>
    show win1_3.index tt (1 : Fin 2) * 128 ≤ (i 1).val ∧ (i 1).val < win1_3.index tt (1 : Fin 2) * 128 + 128
    rw [e1]; omega

/-- What a point writes back is its block of the projected lane-wise products of the operand arrays. -/
theorem flushed_eq (V : Vals) (c : Dev nD) (t : Fin cfg1.N) :
    (Gen.dat1 (F := Ideal) V c).flushed 3 t
      = ((cfg1.win 3).blk t).view.read (Elt Ideal) (Cert.Layer.msg (V c main_v77) (V c main_v84) (V c main_arg5)) := by
  show (cfg1.win 3).cut (grid1.coords t) ((Gen.dat1 (F := Ideal) V c).after 3 t) = _
  rw [Gen.after1_3]
  unfold Gen.out1_3
  rw [View.canon_unit_zero hz]
  simp only [View.ld_unit_zero (S := S6000x128) hz, View.ld_unit_zero (S := S128x128) hz]
  obtain ⟨e0, e1⟩ := idx_3 t
  refine funext fun (y : S6000x128.Idx) => ?_
  show Gen.k1_pay1 (Gen.iblk1 V c 0 t) (Gen.iblk1 V c 1 t) (Gen.iblk1 V c 2 t) y
      = Cert.Layer.msg (V c main_v77) (V c main_v84) (V c main_arg5) (((cfg1.win 3).blk t).view.emb y)
  have h0 : ((((cfg1.win 3).blk t).view.emb y : S600000x128.Idx) 0).val = t.val * 6000 + (y 0).val := by
    show win1_3.index t (0 : Fin 2) * 6000 + 1 * (y 0).val = t.val * 6000 + (y 0).val; rw [e0]; omega
  have h1 : ((((cfg1.win 3).blk t).view.emb y : S600000x128.Idx) 1).val = (y 1).val := by
    show win1_3.index t (1 : Fin 2) * 128 + 1 * (y 1).val = (y 1).val; rw [e1]; omega
  exact pay_at (V c main_v77) (V c main_v84) (V c main_arg5) (Gen.iblk1 V c 0 t) (Gen.iblk1 V c 1 t) (Gen.iblk1 V c 2 t) y
    (((cfg1.win 3).blk t).view.emb y)
    (fun k => iblk_0_apply V c t (ix2 (y 0) k) (ix2 ((((cfg1.win 3).blk t).view.emb y : S600000x128.Idx) 0) k) h0 rfl)
    (fun k => iblk_1_apply V c t (ix2 (y 0) k) (ix2 ((((cfg1.win 3).blk t).view.emb y : S600000x128.Idx) 0) k) h0 rfl)
    (fun k => iblk_2_apply V c t (ix2 k (y 1)) (ix2 k ((((cfg1.win 3).blk t).view.emb y : S600000x128.Idx) 1)) rfl h1)

end R1

/-- The message pass leaves the projected lane-wise products of its operand arrays. -/
theorem final1 : Final1 := fun V c =>
  (Gen.dat1 (F := Ideal) V c).arrAt_eq_of_cover 3 (Cert.Layer.msg (V c main_v77) (V c main_v84) (V c main_arg5))
    (fun t _ => R1.flushed_eq V c t) R1.cover

end Cert.KernelIdeal.HandRun

end
-- ==== Proof.KerFinal2Pieces.lean ====
/-
  The combine pass, one grid point: what the body leaves in each of its three output buffers, as a term of the six
  loaded blocks and (past the first point) of what the two accumulators held. At the first point the accumulators are
  zeroed and read back before they are added to; at the later points they are read as the point before left them.
  For any float type.
-/
import proofs.«133848_j46454366273980_2_alg».proof.Proof.Gen.KernelIdeal.Frame
import Idealize.ShloMosaic.Lib.Pipeline.Value
import Idealize.ShloMosaic.Lib.Tactic

set_option maxRecDepth 16384

noncomputable section

namespace Cert.KernelIdeal.HandRun.R2

open Idealize.ShloMosaic Idealize.ShloMosaic.TcCoe Idealize.ShloMosaic.Tactic Cert.KernelIdeal

variable {F : FTy → Type} [FloatOps F]

theorem hz : (![0, 0] : Fin 2 → Nat) = fun _ => 0 := funext fun a => by fin_cases a <;> rfl

theorem outA6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : Gen.cond2_0 i) (x0 x1 x2 : Vec F S4000x128 .f32) (x3 : Vec F S1x128 .f32) (x4 : Vec F S128x128 .f32) (x5 : Vec F S1x128 .f32) :
    Gen.out2_A_6 c i arg1 harg1 arg2 harg2 arg3 harg3 arg4 harg4 arg5 harg5 arg6 harg6 arg7 harg7 arg8 harg8 arg9 harg9 hc0 x0 x1 x2 x3 x4 x5 = Gen.k2_pay4 x2 x3 x4 x0 x1 x5 := by
  unfold Gen.out2_A_6
  rw [View.read_writes_eq_canon _ _ _ (Gen.cover2_A_6 c i arg1 harg1 arg2 harg2 arg3 harg3 arg4 harg4 arg5 harg5 arg6 harg6 arg7 harg7 arg8 harg8 arg9 harg9 hc0 x0 x1 x2 x3 x4 x5)]
  unfold Gen.kernelRun2_A
  dsimp only
  try sl_unfold_words
  rw [View.canon_cons_unit_zero (S := S4000x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

theorem outA7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : Gen.cond2_0 i) (x0 x1 x2 : Vec F S4000x128 .f32) (x3 : Vec F S1x128 .f32) (x4 : Vec F S128x128 .f32) (x5 : Vec F S1x128 .f32) :
    Gen.out2_A_7 c i arg1 harg1 arg2 harg2 arg3 harg3 arg4 harg4 arg5 harg5 arg6 harg6 arg7 harg7 arg8 harg8 arg9 harg9 hc0 x0 x1 x2 x3 x4 x5 = Gen.k2_pay5 x2 x3 x4 x0 x1 x5 (Gen.k2_pay2 (F := F)) := by
  unfold Gen.out2_A_7
  rw [View.read_writes_eq_canon _ _ _ (Gen.cover2_A_7 c i arg1 harg1 arg2 harg2 arg3 harg3 arg4 harg4 arg5 harg5 arg6 harg6 arg7 harg7 arg8 harg8 arg9 harg9 hc0 x0 x1 x2 x3 x4 x5)]
  unfold Gen.kernelRun2_A
  dsimp only
  try sl_unfold_words
  rw [View.canon_cons_unit_zero (S := S1x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

theorem outA8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : Gen.cond2_0 i) (x0 x1 x2 : Vec F S4000x128 .f32) (x3 : Vec F S1x128 .f32) (x4 : Vec F S128x128 .f32) (x5 : Vec F S1x128 .f32) :
    Gen.out2_A_8 c i arg1 harg1 arg2 harg2 arg3 harg3 arg4 harg4 arg5 harg5 arg6 harg6 arg7 harg7 arg8 harg8 arg9 harg9 hc0 x0 x1 x2 x3 x4 x5 = Gen.k2_pay1 (Gen.k2_pay4 x2 x3 x4 x0 x1 x5) (Gen.k2_pay3 (F := F)) := by
  unfold Gen.out2_A_8
  rw [View.read_writes_eq_canon _ _ _ (Gen.cover2_A_8 c i arg1 harg1 arg2 harg2 arg3 harg3 arg4 harg4 arg5 harg5 arg6 harg6 arg7 harg7 arg8 harg8 arg9 harg9 hc0 x0 x1 x2 x3 x4 x5)]
  unfold Gen.kernelRun2_A
  dsimp only
  try sl_unfold_words
  rw [View.canon_cons_unit_zero (S := S1x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

theorem outB6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬Gen.cond2_0 i) (x0 x1 x2 : Vec F S4000x128 .f32) (x3 : Vec F S1x128 .f32) (x4 : Vec F S128x128 .f32) (x5 : Vec F S1x128 .f32) (xo7 xo8 : Vec F S1x128 .f32) :
    Gen.out2_B_6 c i arg1 harg1 arg2 harg2 arg3 harg3 arg4 harg4 arg5 harg5 arg6 harg6 arg7 harg7 arg8 harg8 arg9 harg9 hc0 x0 x1 x2 x3 x4 x5 xo7 xo8 = Gen.k2_pay4 x2 x3 x4 x0 x1 x5 := by
  unfold Gen.out2_B_6
  rw [View.read_writes_eq_canon _ _ _ (Gen.cover2_B_6 c i arg1 harg1 arg2 harg2 arg3 harg3 arg4 harg4 arg5 harg5 arg6 harg6 arg7 harg7 arg8 harg8 arg9 harg9 hc0 x0 x1 x2 x3 x4 x5 xo7 xo8)]
  unfold Gen.kernelRun2_B
  dsimp only
  try sl_unfold_words
  rw [View.canon_cons_unit_zero (S := S4000x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

theorem outB7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬Gen.cond2_0 i) (x0 x1 x2 : Vec F S4000x128 .f32) (x3 : Vec F S1x128 .f32) (x4 : Vec F S128x128 .f32) (x5 : Vec F S1x128 .f32) (xo7 xo8 : Vec F S1x128 .f32) :
    Gen.out2_B_7 c i arg1 harg1 arg2 harg2 arg3 harg3 arg4 harg4 arg5 harg5 arg6 harg6 arg7 harg7 arg8 harg8 arg9 harg9 hc0 x0 x1 x2 x3 x4 x5 xo7 xo8 = Gen.k2_pay5 x2 x3 x4 x0 x1 x5 xo7 := by
  unfold Gen.out2_B_7
  rw [View.read_writes_eq_canon _ _ _ (Gen.cover2_B_7 c i arg1 harg1 arg2 harg2 arg3 harg3 arg4 harg4 arg5 harg5 arg6 harg6 arg7 harg7 arg8 harg8 arg9 harg9 hc0 x0 x1 x2 x3 x4 x5 xo7 xo8)]
  unfold Gen.kernelRun2_B
  dsimp only
  try sl_unfold_words
  rw [View.canon_cons_unit_zero (S := S1x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

theorem outB8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬Gen.cond2_0 i) (x0 x1 x2 : Vec F S4000x128 .f32) (x3 : Vec F S1x128 .f32) (x4 : Vec F S128x128 .f32) (x5 : Vec F S1x128 .f32) (xo7 xo8 : Vec F S1x128 .f32) :
    Gen.out2_B_8 c i arg1 harg1 arg2 harg2 arg3 harg3 arg4 harg4 arg5 harg5 arg6 harg6 arg7 harg7 arg8 harg8 arg9 harg9 hc0 x0 x1 x2 x3 x4 x5 xo7 xo8 = Gen.k2_pay1 (Gen.k2_pay4 x2 x3 x4 x0 x1 x5) xo8 := by
  unfold Gen.out2_B_8
  rw [View.read_writes_eq_canon _ _ _ (Gen.cover2_B_8 c i arg1 harg1 arg2 harg2 arg3 harg3 arg4 harg4 arg5 harg5 arg6 harg6 arg7 harg7 arg8 harg8 arg9 harg9 hc0 x0 x1 x2 x3 x4 x5 xo7 xo8)]
  unfold Gen.kernelRun2_B
  dsimp only
  try sl_unfold_words
  rw [View.canon_cons_unit_zero (S := S1x128) hz]
  try rw [View.readCov_unit_zero (S := S1x128) _ hz]
  simp only [View.readAt_eq_ld, harg1.read_unread, harg2.read_unread, harg3.read_unread, harg4.read_unread,
    harg5.read_unread, harg6.read_unread, harg8.read_unread, harg9.read_unread,
    View.ld_unit_zero (S := S4000x128) hz, View.ld_unit_zero (S := S1x128) hz, View.ld_unit_zero (S := S128x128) hz]

end Cert.KernelIdeal.HandRun.R2

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.KerFinal2Math.lean ====
/-
  The combine pass, its arithmetic read at an index over the extended reals: the stored feature block (the three
  message sums averaged with the word nearest 1/3, plus the bias), the two accumulator updates (the old row plus the
  block's column sums, of the features and of their squares), and the regrouping of a sum over 100000 rows as 25 runs
  of 4000.
-/
import proofs.«133848_j46454366273980_2_alg».proof.Proof.Gen.KernelIdeal.Skeleton
import proofs.«133848_j46454366273980_2_alg».proof.Proof.LayerSpec
import proofs.«133848_j46454366273980_2_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandRun.R2M

open Idealize.ShloMosaic Idealize.ShloMosaic.ValueIdx Cert.KernelIdeal

/-- The matrix unit's product of a 4000×128 block with the 128×128 weight, into the zero accumulator, at an index. -/
theorem mm_apply (a : FVec Ideal S4000x128 .f32) (w : FVec Ideal S128x128 .f32)
    (h1 h2 : FTy.bits .bf16 < FTy.bits .f32) (p : Fin 4000) (q : Fin 128) :
    matmul dot_S4000x128_S128x128_S4000x128_1_0_0_1_n_n none (truncf .bf16 a h1) (truncf .bf16 w h2)
        (constant (F := Ideal) S4000x128 .f32 0x00000000#32) (ix2 p q)
      = ∑ k : Fin 128, a (ix2 p k) * w (ix2 k q) :=
  ((Ideal.matmul_constant_zero_apply dot_S4000x128_S128x128_S4000x128_1_0_0_1_n_n none _ _ (ix2 p q)).trans
    (Cert.Gcn.Dense.sum_contr_eq_prod dot_S4000x128_S128x128_S4000x128_1_0_0_1_n_n rfl rfl (fun _ _ => rfl)
      (fun i q => dot_S4000x128_S128x128_S4000x128_1_0_0_1_n_n.lhsIdx_val_of_single rfl i q)
      (fun i q => dot_S4000x128_S128x128_S4000x128_1_0_0_1_n_n.rhsIdx_val_of_single rfl i q)
      (fun _ _ => rfl) a w (ix2 p q))).trans rfl

/-- The stored feature block at an index. -/
theorem pay4_apply (v3 v11 v13 : Vec Ideal S4000x128 .f32) (v4 v19 : Vec Ideal S1x128 .f32)
    (v8 : Vec Ideal S128x128 .f32) (p : Fin 4000) (q : Fin 128) :
    Gen.k2_pay4 v3 v4 v8 v11 v13 v19 (ix2 p q)
      = ((v11 (ix2 p q) + v13 (ix2 p q))
            + ∑ k : Fin 128, (v3 (ix2 p k) * v4 (ix2 (0 : Fin 1) k)) * v8 (ix2 k q)) * Cert.Layer.third
          + v19 (ix2 (0 : Fin 1) q) := by
  unfold Gen.k2_pay4
  simp only [shapeCast_self, addf_apply, mulf_apply, broadcastTo_1b_ab_apply]
  rw [mm_apply]
  simp only [mulf_apply, broadcastTo_1b_ab_apply]
  rfl

/-- The stored feature block at an index against the whole-array function: it is enough that the loaded blocks read
    the arrays at the index, along its row, and at its lane. -/
theorem pay4_at (E R X : Cert.Layer.N128 → EReal) (L B : Cert.Layer.R128 → EReal) (W : Cert.Layer.W128 → EReal)
    (v3 v11 v13 : Vec Ideal S4000x128 .f32) (v4 v19 : Vec Ideal S1x128 .f32) (v8 : Vec Ideal S128x128 .f32)
    (p : Fin 4000) (q : Fin 128) (i : S100000x128.Idx)
    (h11 : v11 (ix2 p q) = E i) (h13 : v13 (ix2 p q) = R i)
    (h3 : ∀ k : Fin 128, v3 (ix2 p k) = X (ix2 (i 0) k))
    (h4 : ∀ k : Fin 128, v4 (ix2 (0 : Fin 1) k) = L (ix2 (0 : Fin 1) k))
    (h8 : ∀ k : Fin 128, v8 (ix2 k q) = W (ix2 k (i 1)))
    (h19 : v19 (ix2 (0 : Fin 1) q) = B (ix2 (0 : Fin 1) (i 1))) :
    Gen.k2_pay4 v3 v4 v8 v11 v13 v19 (ix2 p q) = Cert.Layer.combined E R X L W B i := by
  rw [pay4_apply, h11, h13, h19]
  simp only [h3, h4, h8]
  rfl

/-- A sum over the 4000 rows of a block, into the zero word, at a lane. -/
theorem colred_apply (src : FVec Ideal S4000x128 .f32) (h : S4000x128.Reduces [0] S128) (hφ : FKind.Formats .f32)
    (hacc : (0x00000000#32 : BitVec 32) = 0x00000000#32) (q : Fin 128) :
    multiReduction .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column-sum accumulator's update at a lane: the old entry plus the block's column sum. -/
theorem pay5_apply (v3 v11 v13 : Vec Ideal S4000x128 .f32) (v4 v19 : Vec Ideal S1x128 .f32)
    (v8 : Vec Ideal S128x128 .f32) (v24 : Vec Ideal S1x128 .f32) (u : Fin 1) (q : Fin 128) :
    Gen.k2_pay5 v3 v4 v8 v11 v13 v19 v24 (ix2 u q)
      = v24 (ix2 u q) + ∑ r : Fin 4000, Gen.k2_pay4 v3 v4 v8 v11 v13 v19 (ix2 r q) := by
  unfold Gen.k2_pay5
  simp only [shapeCast_self, addf_apply]
  rw [shapeCast_a_1a_apply]
  exact congrArg (v24 (ix2 u q) + ·) (colred_apply (Gen.k2_pay4 v3 v4 v8 v11 v13 v19) _ _ _ q)

/-- The sum-of-squares accumulator's update at a lane: the old entry plus the block's column sum of squares. -/
theorem pay1_apply (v22 : FVec Ideal S4000x128 .f32) (v30 : Vec Ideal S1x128 .f32) (u : Fin 1) (q : Fin 128) :
    Gen.k2_pay1 v22 v30 (ix2 u q) = v30 (ix2 u q) + ∑ r : Fin 4000, v22 (ix2 r q) * v22 (ix2 r q) := by
  unfold Gen.k2_pay1
  simp only [shapeCast_self, addf_apply]
  rw [shapeCast_a_1a_apply]
  exact congrArg (v30 (ix2 u q) + ·) (colred_apply (mulf v22 v22) _ _ _ q)

/-- The two zero rows the first point stores. -/
theorem pay2_apply (j : S1x128.Idx) : Gen.k2_pay2 (F := Ideal) j = 0 := Ideal.ofBits_zero_f32
theorem pay3_apply (j : S1x128.Idx) : Gen.k2_pay3 (F := Ideal) j = 0 := Ideal.ofBits_zero_f32

/-- A function of the 100000 rows extended by zero to all naturals. -/
def ext0 (g : Fin 100000 → EReal) (n : ℕ) : EReal := if h : n < 100000 then g ⟨n, h⟩ else 0

theorem ext0_of_lt (g : Fin 100000 → EReal) (n : ℕ) (h : n < 100000) : ext0 g n = g ⟨n, h⟩ := dif_pos h

/-- A sum over 100000 rows is the sum over 25 runs of 4000 consecutive rows. -/
theorem sum_rows_blocks (g : Fin 100000 → EReal) :
    ∑ n : Fin 100000, g n
      = ∑ s : Fin 25, ∑ r : Fin 4000, g ⟨s.val * 4000 + r.val, by have := s.isLt; have := r.isLt; omega⟩ := by
  have e1 : ∑ n : Fin 100000, g n = ∑ n : Fin 100000, ext0 g n.val :=
    Finset.sum_congr rfl fun n _ => (ext0_of_lt g n.val n.isLt).symm
  have e2 : ∑ i ∈ Finset.range 100000, ext0 g i
      = ∑ j ∈ Finset.range 25, ∑ s ∈ Finset.range 4000, ext0 g (j * 4000 + s) :=
    Cert.LibSumBlocks.sum_range_blocks (ext0 g) 4000 25
  rw [e1, Fin.sum_univ_eq_sum_range (ext0 g) 100000, e2, Finset.sum_range]
  refine Finset.sum_congr rfl fun s _ => ?_
  rw [Finset.sum_range]
  exact Finset.sum_congr rfl fun r _ => ext0_of_lt g _ _

end Cert.KernelIdeal.HandRun.R2M

end
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«133848_j46454366273980_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.KerFinal2.lean ====
/-
  The combine pass. The grid is 25 points; point `t` loads rows `4000·t … 4000·t + 3999` of the two message-sum
  arrays and of the node features, the loop relation row, the loop weight and the bias row, stores the averaged, biased
  feature block, and adds that block's column sums, and column sums of squares, into two one-row accumulators that are
  zeroed at the first point and written back once, after the last. So the first output is tiled by 25 blocks of ONE
  whole-array function, and the two accumulators end at the sums over all 100000 rows: a run of 25 additions starting
  from zero, regrouped as one sum over the rows (addition of extended reals is commutative and associative).
-/
import proofs.«133848_j46454366273980_2_alg».proof.Proof.KerFinalsStmt
import proofs.«133848_j46454366273980_2_alg».proof.Proof.KerFinal2Pieces
import proofs.«133848_j46454366273980_2_alg».proof.Proof.KerFinal2Math
import proofs.«133848_j46454366273980_2_alg».proof.Proof.LibRegroup
import Idealize.ShloMosaic.Lib.Pipeline.Value
import Idealize.ShloMosaic.Lib.ValueIdx
import Idealize.ShloMosaic.PureOps.Ideal.Laws

set_option maxRecDepth 16384

noncomputable section

namespace Cert.KernelIdeal.HandRun

open Idealize.ShloMosaic Idealize.ShloMosaic.TcCoe Idealize.ShloMosaic.ValueIdx Cert.KernelIdeal
open Idealize.ShloMosaic.Pipeline (Dat)

namespace R2

/-- Window 0's block at a point is rows `t·4000 … t·4000 + 3999` of its array. -/
theorem idx_0 : ∀ t : Fin cfg2.N, win2_0.index t (0 : Fin 2) = t.val ∧ win2_0.index t (1 : Fin 2) = 0 :=
  (by decide +kernel : ∀ t : Fin grid2.N, _)

theorem iblk_0_apply (V : Vals) (c : Dev nD) (t : Fin cfg2.N) (x : S4000x128.Idx) (k : S100000x128.Idx)
    (hk0 : (k 0).val = t.val * 4000 + (x 0).val) (hk1 : (k 1).val = (x 1).val) :
    (Gen.iblk2 (F := Ideal) V c 0 t : Vec Ideal S4000x128 .f32) x = V c main_v65 k := by
  obtain ⟨e0, e1⟩ := idx_0 t
  unfold Gen.iblk2
  rw [View.read_apply]
  show V c main_v65 _ = V c main_v65 _
  congr 1
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 128 + 1 * (x 1).val = (k 1).val; rw [e1, hk1]; omega

/-- Window 1's block at a point is rows `t·4000 … t·4000 + 3999` of its array. -/
theorem idx_1 : ∀ t : Fin cfg2.N, win2_1.index t (0 : Fin 2) = t.val ∧ win2_1.index t (1 : Fin 2) = 0 :=
  (by decide +kernel : ∀ t : Fin grid2.N, _)

theorem iblk_1_apply (V : Vals) (c : Dev nD) (t : Fin cfg2.N) (x : S4000x128.Idx) (k : S100000x128.Idx)
    (hk0 : (k 0).val = t.val * 4000 + (x 0).val) (hk1 : (k 1).val = (x 1).val) :
    (Gen.iblk2 (F := Ideal) V c 1 t : Vec Ideal S4000x128 .f32) x = V c main_v90 k := by
  obtain ⟨e0, e1⟩ := idx_1 t
  unfold Gen.iblk2
  rw [View.read_apply]
  show V c main_v90 _ = V c main_v90 _
  congr 1
  funext a
  apply Fin.ext
  match a with
  | ⟨0, _⟩ => show win2_1.index t (0 : Fin 2) * 4000 + 1 * (x 0).val = (k 0).val; rw [e0, hk0]; omega
  | ⟨1, _⟩ => show win2_1.index t (1 : Fin 2) * 128 + 1 * (x 1).val = (k 1).val; rw [e1, hk1]; omega

/-- Window 2's block at a point is rows `t·4000 … t·4000 + 3999` of its array. -/
theorem idx_2 : ∀ t : Fin cfg2.N, win2_2.index t (0 : Fin 2) = t.val ∧ win2_2.index t (1 : Fin 2) = 0 :=
  (by decide +kernel : ∀ t : Fin grid2.N, _)

theorem iblk_2_apply (V : Vals) (c : Dev nD) (t : Fin cfg2.N) (x : S4000x128.Idx) (k : S100000x128.Idx)
    (hk0 : (k 0).val = t.val * 4000 + (x 0).val) (hk1 : (k 1).val = (x 1).val) :
    (Gen.iblk2 (F := Ideal) V c 2 t : Vec Ideal S4000x128 .f32) x = V c main_arg0 k := by
  obtain ⟨e0, e1⟩ := idx_2 t
  unfold Gen.iblk2
  rw [View.read_apply]
  show V c main_arg0 _ = V c main_arg0 _
  congr 1
  funext a
  apply Fin.ext
  match a with
  | ⟨0, _⟩ => show win2_2.index t (0 : Fin 2) * 4000 + 1 * (x 0).val = (k 0).val; rw [e0, hk0]; omega
  | ⟨1, _⟩ => show win2_2.index t (1 : Fin 2) * 128 + 1 * (x 1).val = (k 1).val; rw [e1, hk1]; omega

/-- Window 3's block at every point is its whole one-row array (the loop relation). -/
theorem idx_3 : ∀ t : Fin cfg2.N, win2_3.index t (0 : Fin 2) = 0 ∧ win2_3.index t (1 : Fin 2) = 0 :=
  (by decide +kernel : ∀ t : Fin grid2.N, _)

theorem iblk_3_apply (V : Vals) (c : Dev nD) (t : Fin cfg2.N) (x k : S1x128.Idx)
    (hk1 : (k 1).val = (x 1).val) :
    (Gen.iblk2 (F := Ideal) V c 3 t : Vec Ideal S1x128 .f32) x = V c main_arg8 k := by
  obtain ⟨e0, e1⟩ := idx_3 t
  have hx0 : (x 0).val < 1 := (x 0).isLt
  have hk0 : (k 0).val < 1 := (k 0).isLt
  unfold Gen.iblk2
  rw [View.read_apply]
  show V c main_arg8 _ = V c main_arg8 _
  congr 1
  funext a
  apply Fin.ext
  match a with
  | ⟨0, _⟩ => show win2_3.index t (0 : Fin 2) * 1 + 1 * (x 0).val = (k 0).val; rw [e0]; omega
  | ⟨1, _⟩ => show win2_3.index t (1 : Fin 2) * 128 + 1 * (x 1).val = (k 1).val; rw [e1, hk1]; omega

/-- Window 4's block at every point is its whole array (the loop weight). -/
theorem idx_4 : ∀ t : Fin cfg2.N, win2_4.index t (0 : Fin 2) = 0 ∧ win2_4.index t (1 : Fin 2) = 0 :=
  (by decide +kernel : ∀ t : Fin grid2.N, _)

theorem iblk_4_apply (V : Vals) (c : Dev nD) (t : Fin cfg2.N) (x k : S128x128.Idx)
    (hk0 : (k 0).val = (x 0).val) (hk1 : (k 1).val = (x 1).val) :
    (Gen.iblk2 (F := Ideal) V c 4 t : Vec Ideal S128x128 .f32) x = V c main_arg7 k := by
  obtain ⟨e0, e1⟩ := idx_4 t
  unfold Gen.iblk2
  rw [View.read_apply]
  show V c main_arg7 _ = V c main_arg7 _
  congr 1
  funext a
  apply Fin.ext
  match a with
  | ⟨0, _⟩ => show win2_4.index t (0 : Fin 2) * 128 + 1 * (x 0).val = (k 0).val; rw [e0, hk0]; omega
  | ⟨1, _⟩ => show win2_4.index t (1 : Fin 2) * 128 + 1 * (x 1).val = (k 1).val; rw [e1, hk1]; omega

/-- Window 5's block at every point is its whole one-row array (the bias). -/
theorem idx_5 : ∀ t : Fin cfg2.N, win2_5.index t (0 : Fin 2) = 0 ∧ win2_5.index t (1 : Fin 2) = 0 :=
  (by decide +kernel : ∀ t : Fin grid2.N, _)

theorem iblk_5_apply (V : Vals) (c : Dev nD) (t : Fin cfg2.N) (x k : S1x128.Idx)
    (hk1 : (k 1).val = (x 1).val) :
    (Gen.iblk2 (F := Ideal) V c 5 t : Vec Ideal S1x128 .f32) x = V c main_v91 k := by
  obtain ⟨e0, e1⟩ := idx_5 t
  have hx0 : (x 0).val < 1 := (x 0).isLt
  have hk0 : (k 0).val < 1 := (k 0).isLt
  unfold Gen.iblk2
  rw [View.read_apply]
  show V c main_v91 _ = V c main_v91 _
  congr 1
  funext a
  apply Fin.ext
  match a with
  | ⟨0, _⟩ => show win2_5.index t (0 : Fin 2) * 1 + 1 * (x 0).val = (k 0).val; rw [e0]; omega
  | ⟨1, _⟩ => show win2_5.index t (1 : Fin 2) * 128 + 1 * (x 1).val = (k 1).val; rw [e1, hk1]; omega

/-- The output window's block at a point is rows `t·4000 … t·4000 + 3999` of the result array. -/
theorem idx_6 : ∀ t : Fin cfg2.N, win2_6.index t (0 : Fin 2) = t.val ∧ win2_6.index t (1 : Fin 2) = 0 :=
  (by decide +kernel : ∀ t : Fin grid2.N, _)

/-- An index of the result array is in a point's block iff each coordinate is in the block's range. -/
theorem mem_blk (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v94_0).slice (win2_6.rect t)).set ↔ _
  rw [View.set_slice_whole, Rect.mem_set_unit]
  exact Iff.rfl

/-- Row `r` of the result array is in the block of point `r / 4000`. -/
theorem cover (i : S100000x128.Idx) :
    ∃ t : Fin cfg2.N, (cfg2.win 6).flush t = true ∧ i ∈ ((cfg2.win 6).blk t).view.set := by
  have hN : cfg2.N = 25 := Gen.N_2
  have hi0 : (i 0).val < 100000 := (i 0).isLt
  have hi1 : (i 1).val < 128 := (i 1).isLt
  obtain ⟨tt, htt⟩ : ∃ tt : Fin cfg2.N, tt.val = (i 0).val / 4000 :=
    ⟨⟨(i 0).val / 4000, by rw [hN]; omega⟩, rfl⟩
  obtain ⟨e0, e1⟩ := idx_6 tt
  refine ⟨tt, Gen.flush2_6 tt, ?_⟩
  rw [mem_blk]
  intro a
  match a with
  | ⟨0, _⟩ =>
    show win2_6.index tt (0 : Fin 2) * 4000 ≤ (i 0).val ∧ (i 0).val < win2_6.index tt (0 : Fin 2) * 4000 + 4000
    rw [e0, htt]; omega
  | ⟨1, _⟩ =>
    show win2_6.index tt (1 : Fin 2) * 128 ≤ (i 1).val ∧ (i 1).val < win2_6.index tt (1 : Fin 2) * 128 + 128
    rw [e1]; omega

/-! ## Output 6: the feature blocks -/

/-- The feature block point `t` stores. -/
def blkC (V : Vals) (c : Dev nD) (t : Fin cfg2.N) : Vec Ideal S4000x128 .f32 :=
  Gen.k2_pay4 (Gen.iblk2 V c 2 t) (Gen.iblk2 V c 3 t) (Gen.iblk2 V c 4 t) (Gen.iblk2 V c 0 t) (Gen.iblk2 V c 1 t)
    (Gen.iblk2 V c 5 t)

/-- It is rows `4000·t …` of the whole-array function of the six operand arrays. -/
theorem blkC_apply (V : Vals) (c : Dev nD) (t : Fin cfg2.N) (p : Fin 4000) (q : Fin 128) (i : S100000x128.Idx)
    (hi0 : (i 0).val = t.val * 4000 + p.val) (hi1 : (i 1).val = q.val) :
    blkC V c t (ix2 p q) = Cert.Layer.combined (V c main_v65) (V c main_v90) (V c main_arg0) (V c main_arg8) (V c main_arg7) (V c main_v91) i := by
  unfold blkC
  exact R2M.pay4_at (V c main_v65) (V c main_v90) (V c main_arg0) (V c main_arg8) (V c main_v91) (V c main_arg7)
    (Gen.iblk2 V c 2 t) (Gen.iblk2 V c 0 t) (Gen.iblk2 V c 1 t) (Gen.iblk2 V c 3 t) (Gen.iblk2 V c 5 t)
    (Gen.iblk2 V c 4 t) p q i
    (iblk_0_apply V c t (ix2 p q) i hi0 hi1)
    (iblk_1_apply V c t (ix2 p q) i hi0 hi1)
    (fun k => iblk_2_apply V c t (ix2 p k) (ix2 (i 0) k) hi0 rfl)
    (fun k => iblk_3_apply V c t (ix2 (0 : Fin 1) k) (ix2 (0 : Fin 1) k) rfl)
    (fun k => iblk_4_apply V c t (ix2 k q) (ix2 k (i 1)) rfl hi1)
    (iblk_5_apply V c t (ix2 (0 : Fin 1) q) (ix2 (0 : Fin 1) (i 1)) hi1)

/-- At every point, first or later, the first output's buffer is left at the point's feature block. -/
theorem outs6 (V : Vals) (c : Dev nD) (t : Fin cfg2.N) :
    (Gen.outsAt2 (F := Ideal) V c t.val t.isLt).1 = blkC V c t := by
  unfold blkC
  by_cases h0 : t.val % 25 = 0
  · rw [Gen.outsAt2_A V c t h0]
    dsimp only
    exact outA6 (F := Ideal) c (grid2.coords t) (Gen.ms2_0 t) (Gen.hs2_0 t) (Gen.ms2_1 t) (Gen.hs2_1 t) (Gen.ms2_2 t) (Gen.hs2_2 t) (Gen.ms2_3 t) (Gen.hs2_3 t) (Gen.ms2_4 t) (Gen.hs2_4 t) (Gen.ms2_5 t) (Gen.hs2_5 t) (Gen.ms2_6 t) (Gen.hs2_6 t) (Gen.ms2_7 t) (Gen.hs2_7 t) (Gen.ms2_8 t) (Gen.hs2_8 t) ((Gen.hcond2_0 t).mpr h0) (Gen.iblk2 V c 0 t) (Gen.iblk2 V c 1 t) (Gen.iblk2 V c 2 t) (Gen.iblk2 V c 3 t) (Gen.iblk2 V c 4 t) (Gen.iblk2 V c 5 t)
  · rw [Gen.outsAt2_B V c t h0]
    dsimp only
    exact outB6 (F := Ideal) c (grid2.coords t) (Gen.ms2_0 t) (Gen.hs2_0 t) (Gen.ms2_1 t) (Gen.hs2_1 t) (Gen.ms2_2 t) (Gen.hs2_2 t) (Gen.ms2_3 t) (Gen.hs2_3 t) (Gen.ms2_4 t) (Gen.hs2_4 t) (Gen.ms2_5 t) (Gen.hs2_5 t) (Gen.ms2_6 t) (Gen.hs2_6 t) (Gen.ms2_7 t) (Gen.hs2_7 t) (Gen.ms2_8 t) (Gen.hs2_8 t) (fun h => h0 ((Gen.hcond2_0 t).mp h)) (Gen.iblk2 V c 0 t) (Gen.iblk2 V c 1 t) (Gen.iblk2 V c 2 t) (Gen.iblk2 V c 3 t) (Gen.iblk2 V c 4 t) (Gen.iblk2 V c 5 t) (Gen.outsAt2 V c (t.val - 1) (Nat.lt_of_le_of_lt (Nat.sub_le _ _) t.isLt)).2.1 (Gen.outsAt2 V c (t.val - 1) (Nat.lt_of_le_of_lt (Nat.sub_le _ _) t.isLt)).2.2

/-- What a point writes back to the first output is its block of the whole-array function. -/
theorem flushed6_eq (V : Vals) (c : Dev nD) (t : Fin cfg2.N) :
    (Gen.dat2 (F := Ideal) V c).flushed 6 t
      = ((cfg2.win 6).blk t).view.read (Elt Ideal) (Cert.Layer.combined (V c main_v65) (V c main_v90) (V c main_arg0) (V c main_arg8) (V c main_arg7) (V c main_v91)) := by
  show (cfg2.win 6).cut (grid2.coords t) ((Gen.dat2 (F := Ideal) V c).after 6 t) = _
  rw [Gen.after2_6, outs6]
  obtain ⟨e0, e1⟩ := idx_6 t
  refine funext fun (y : S4000x128.Idx) => ?_
  obtain ⟨p, q, rfl⟩ : ∃ (p : Fin 4000) (q : Fin 128), y = ix2 p q := ⟨y 0, y 1, eq_ix2 y⟩
  show blkC V c t (ix2 p q) = Cert.Layer.combined (V c main_v65) (V c main_v90) (V c main_arg0) (V c main_arg8) (V c main_arg7) (V c main_v91) (((cfg2.win 6).blk t).view.emb (ix2 p q))
  exact blkC_apply V c t p q (((cfg2.win 6).blk t).view.emb (ix2 p q))
    (by show win2_6.index t (0 : Fin 2) * 4000 + 1 * p.val = t.val * 4000 + p.val; rw [e0]; omega)
    (by show win2_6.index t (1 : Fin 2) * 128 + 1 * q.val = q.val; rw [e1]; omega)

/-! ## Output 7: column sums -/

/-- The accumulator's entry at a lane after point `n`. -/
def sumS (V : Vals) (c : Dev nD) (n : ℕ) (h : n < cfg2.N) (q : Fin 128) : EReal :=
  (Gen.outsAt2 (F := Ideal) V c n h).2.1 (ix2 (0 : Fin 1) q)

/-- What point `n` adds at a lane: over its block's 4000 rows. -/
def sumP (V : Vals) (c : Dev nD) (n : ℕ) (h : n < cfg2.N) (q : Fin 128) : EReal :=
  ∑ r : Fin 4000, (blkC V c ⟨n, h⟩ (ix2 r q))

/-- At the first point the accumulator is zeroed, then added to. -/
theorem sum_first (V : Vals) (c : Dev nD) (n : ℕ) (h : n < cfg2.N) (q : Fin 128) (h0 : n % 25 = 0) :
    sumS V c n h q = sumP V c n h q := by
  unfold sumS sumP blkC
  rw [Gen.outsAt2_A V c ⟨n, h⟩ h0]
  dsimp only
  rw [outA7 (F := Ideal) c (grid2.coords ⟨n, h⟩) (Gen.ms2_0 ⟨n, h⟩) (Gen.hs2_0 ⟨n, h⟩) (Gen.ms2_1 ⟨n, h⟩) (Gen.hs2_1 ⟨n, h⟩) (Gen.ms2_2 ⟨n, h⟩) (Gen.hs2_2 ⟨n, h⟩) (Gen.ms2_3 ⟨n, h⟩) (Gen.hs2_3 ⟨n, h⟩) (Gen.ms2_4 ⟨n, h⟩) (Gen.hs2_4 ⟨n, h⟩) (Gen.ms2_5 ⟨n, h⟩) (Gen.hs2_5 ⟨n, h⟩) (Gen.ms2_6 ⟨n, h⟩) (Gen.hs2_6 ⟨n, h⟩) (Gen.ms2_7 ⟨n, h⟩) (Gen.hs2_7 ⟨n, h⟩) (Gen.ms2_8 ⟨n, h⟩) (Gen.hs2_8 ⟨n, h⟩) ((Gen.hcond2_0 ⟨n, h⟩).mpr h0) (Gen.iblk2 V c 0 ⟨n, h⟩) (Gen.iblk2 V c 1 ⟨n, h⟩) (Gen.iblk2 V c 2 ⟨n, h⟩) (Gen.iblk2 V c 3 ⟨n, h⟩) (Gen.iblk2 V c 4 ⟨n, h⟩) (Gen.iblk2 V c 5 ⟨n, h⟩), R2M.pay5_apply, R2M.pay2_apply, zero_add]

/-- At a later point it is added to as the point before left it. -/
theorem sum_step (V : Vals) (c : Dev nD) (n : ℕ) (h : n + 1 < cfg2.N) (q : Fin 128) (hB : ¬(n + 1) % 25 = 0) :
    sumS V c (n + 1) h q = sumS V c n (Nat.lt_of_succ_lt h) q + sumP V c (n + 1) h q := by
  unfold sumS sumP blkC
  rw [Gen.outsAt2_B V c ⟨n + 1, h⟩ hB]
  dsimp only
  rw [outB7 (F := Ideal) c (grid2.coords (⟨n + 1, h⟩ : Fin cfg2.N)) (Gen.ms2_0 (⟨n + 1, h⟩ : Fin cfg2.N)) (Gen.hs2_0 (⟨n + 1, h⟩ : Fin cfg2.N)) (Gen.ms2_1 (⟨n + 1, h⟩ : Fin cfg2.N)) (Gen.hs2_1 (⟨n + 1, h⟩ : Fin cfg2.N)) (Gen.ms2_2 (⟨n + 1, h⟩ : Fin cfg2.N)) (Gen.hs2_2 (⟨n + 1, h⟩ : Fin cfg2.N)) (Gen.ms2_3 (⟨n + 1, h⟩ : Fin cfg2.N)) (Gen.hs2_3 (⟨n + 1, h⟩ : Fin cfg2.N)) (Gen.ms2_4 (⟨n + 1, h⟩ : Fin cfg2.N)) (Gen.hs2_4 (⟨n + 1, h⟩ : Fin cfg2.N)) (Gen.ms2_5 (⟨n + 1, h⟩ : Fin cfg2.N)) (Gen.hs2_5 (⟨n + 1, h⟩ : Fin cfg2.N)) (Gen.ms2_6 (⟨n + 1, h⟩ : Fin cfg2.N)) (Gen.hs2_6 (⟨n + 1, h⟩ : Fin cfg2.N)) (Gen.ms2_7 (⟨n + 1, h⟩ : Fin cfg2.N)) (Gen.hs2_7 (⟨n + 1, h⟩ : Fin cfg2.N)) (Gen.ms2_8 (⟨n + 1, h⟩ : Fin cfg2.N)) (Gen.hs2_8 (⟨n + 1, h⟩ : Fin cfg2.N)) (fun hc => hB ((Gen.hcond2_0 (⟨n + 1, h⟩ : Fin cfg2.N)).mp hc)) (Gen.iblk2 V c 0 (⟨n + 1, h⟩ : Fin cfg2.N)) (Gen.iblk2 V c 1 (⟨n + 1, h⟩ : Fin cfg2.N)) (Gen.iblk2 V c 2 (⟨n + 1, h⟩ : Fin cfg2.N)) (Gen.iblk2 V c 3 (⟨n + 1, h⟩ : Fin cfg2.N)) (Gen.iblk2 V c 4 (⟨n + 1, h⟩ : Fin cfg2.N)) (Gen.iblk2 V c 5 (⟨n + 1, h⟩ : Fin cfg2.N)) (Gen.outsAt2 V c ((⟨n + 1, h⟩ : Fin cfg2.N).val - 1) (Nat.lt_of_le_of_lt (Nat.sub_le _ _) (⟨n + 1, h⟩ : Fin cfg2.N).isLt)).2.1 (Gen.outsAt2 V c ((⟨n + 1, h⟩ : Fin cfg2.N).val - 1) (Nat.lt_of_le_of_lt (Nat.sub_le _ _) (⟨n + 1, h⟩ : Fin cfg2.N).isLt)).2.2, R2M.pay5_apply]
  rfl

/-- So after the last point it holds the sum of what the 25 points added. -/
theorem sum_last (V : Vals) (c : Dev nD) (q : Fin 128) (t : Fin cfg2.N) (h24 : t.val = 25 * 0 + 24) :
    sumS V c t.val t.isLt q
      = ∑ s : Fin (24 + 1), sumP V c (25 * 0 + s.val) (by have := s.isLt; have := t.isLt; omega) q := by
  obtain ⟨tv, ht⟩ := t
  dsimp only at h24
  subst h24
  exact Cert.LibRegroup.run_sum 25 (sumS V c) (sumP V c) (fun n h i h0 => sum_first V c n h i h0)
    (fun n h i hB => sum_step V c n h i hB) 0 q 24 (by omega) ht

/-- The 25 points' additions are the sum over all 100000 rows of the whole-array function. -/
theorem sum_total (V : Vals) (c : Dev nD) (q : Fin 128) (hlt : ∀ s : Fin (24 + 1), 25 * 0 + s.val < cfg2.N) :
    ∑ s : Fin (24 + 1), sumP V c (25 * 0 + s.val) (hlt s) q
      = ∑ n : Fin 100000, (Cert.Layer.combined (V c main_v65) (V c main_v90) (V c main_arg0) (V c main_arg8) (V c main_arg7) (V c main_v91) (ix2 n q)) := by
  rw [R2M.sum_rows_blocks (fun n => (Cert.Layer.combined (V c main_v65) (V c main_v90) (V c main_arg0) (V c main_arg8) (V c main_arg7) (V c main_v91) (ix2 n q)))]
  refine Finset.sum_congr rfl fun s _ => ?_
  unfold sumP
  refine Finset.sum_congr rfl fun r _ => ?_
  rw [blkC_apply V c ⟨25 * 0 + s.val, hlt s⟩ r q
    (ix2 (⟨s.val * 4000 + r.val, by have := s.isLt; have := r.isLt; omega⟩ : Fin 100000) q)
    (by show s.val * 4000 + r.val = (25 * 0 + s.val) * 4000 + r.val; omega) rfl]

theorem idx_7 : ∀ t : Fin cfg2.N, win2_7.index t (0 : Fin 2) = 0 ∧ win2_7.index t (1 : Fin 2) = 0 :=
  (by decide +kernel : ∀ t : Fin grid2.N, _)

/-- The window's one block is its whole one-row array: cutting and reading through it change nothing. -/
theorem read_whole7 (t : Fin cfg2.N) (H : Cert.Layer.R128 → EReal) :
    (cfg2.win 7).cut (grid2.coords t) H = ((cfg2.win 7).blk t).view.read (Elt Ideal) H := by
  obtain ⟨e0, e1⟩ := idx_7 t
  refine funext fun (y : S1x128.Idx) => ?_
  show H y = H (((cfg2.win 7).blk t).view.emb y)
  refine congrArg H (funext fun a => Fin.ext ?_)
  match a with
  | ⟨0, _⟩ => show (y 0).val = win2_7.index t (0 : Fin 2) * 1 + 1 * (y 0).val; rw [e0]; omega
  | ⟨1, _⟩ => show (y 1).val = win2_7.index t (1 : Fin 2) * 128 + 1 * (y 1).val; rw [e1]; omega

/-- After the last point the accumulator holds the whole-array column sums. -/
theorem acc7_eq (V : Vals) (c : Dev nD) (t : Fin cfg2.N) (h24 : t.val = 25 * 0 + 24) :
    (Gen.outsAt2 (F := Ideal) V c t.val t.isLt).2.1 = Cert.Layer.colSum (Cert.Layer.combined (V c main_v65) (V c main_v90) (V c main_arg0) (V c main_arg8) (V c main_arg7) (V c main_v91)) := by
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  show sumS V c t.val t.isLt q = Cert.Layer.colSum (Cert.Layer.combined (V c main_v65) (V c main_v90) (V c main_arg0) (V c main_arg8) (V c main_arg7) (V c main_v91)) (ix2 (0 : Fin 1) q)
  rw [sum_last V c q t h24,
    sum_total V c q (fun s => by have := s.isLt; have := t.isLt; omega)]
  unfold Cert.Layer.colSum
  exact Finset.sum_congr rfl fun n _ => rfl

/-- The one write-back, after the last point, writes the whole-array column sums. -/
theorem flushed7_eq (V : Vals) (c : Dev nD) (t : Fin cfg2.N) (hf : (cfg2.win 7).flush t = true) :
    (Gen.dat2 (F := Ideal) V c).flushed 7 t
      = ((cfg2.win 7).blk t).view.read (Elt Ideal) (Cert.Layer.colSum (Cert.Layer.combined (V c main_v65) (V c main_v90) (V c main_arg0) (V c main_arg8) (V c main_arg7) (V c main_v91))) := by
  have hN : cfg2.N = 25 := Gen.N_2
  have h24 : t.val = 25 * 0 + 24 := by have := (Gen.flush2_7 t).mp hf; have := t.isLt; omega
  show (cfg2.win 7).cut (grid2.coords t) ((Gen.dat2 (F := Ideal) V c).after 7 t) = _
  rw [Gen.after2_7, acc7_eq V c t h24]
  exact read_whole7 t _

/-- An index of the one-row result array is in the block iff each coordinate is in the block's range. -/
theorem mem_blk7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v94_1).slice (win2_7.rect t)).set ↔ _
  rw [View.set_slice_whole, Rect.mem_set_unit]
  exact Iff.rfl

/-- The last point's block is the whole one-row array. -/
theorem cover7 (i : S1x128.Idx) :
    ∃ t : Fin cfg2.N, (cfg2.win 7).flush t = true ∧ i ∈ ((cfg2.win 7).blk t).view.set := by
  have hN : cfg2.N = 25 := Gen.N_2
  have hi0 : (i 0).val < 1 := (i 0).isLt
  have hi1 : (i 1).val < 128 := (i 1).isLt
  obtain ⟨tt, htt⟩ : ∃ tt : Fin cfg2.N, tt.val = 24 := ⟨⟨24, by rw [hN]; omega⟩, rfl⟩
  obtain ⟨e0, e1⟩ := idx_7 tt
  refine ⟨tt, (Gen.flush2_7 tt).mpr (by rw [htt]), ?_⟩
  rw [mem_blk7]
  intro a
  match a with
  | ⟨0, _⟩ =>
    show win2_7.index tt (0 : Fin 2) * 1 ≤ (i 0).val ∧ (i 0).val < win2_7.index tt (0 : Fin 2) * 1 + 1
    rw [e0]; omega
  | ⟨1, _⟩ =>
    show win2_7.index tt (1 : Fin 2) * 128 ≤ (i 1).val ∧ (i 1).val < win2_7.index tt (1 : Fin 2) * 128 + 128
    rw [e1]; omega

/-! ## Output 8: column sums of squares -/

/-- The accumulator's entry at a lane after point `n`. -/
def sqS (V : Vals) (c : Dev nD) (n : ℕ) (h : n < cfg2.N) (q : Fin 128) : EReal :=
  (Gen.outsAt2 (F := Ideal) V c n h).2.2 (ix2 (0 : Fin 1) q)

/-- What point `n` adds at a lane: over its block's 4000 rows. -/
def sqP (V : Vals) (c : Dev nD) (n : ℕ) (h : n < cfg2.N) (q : Fin 128) : EReal :=
  ∑ r : Fin 4000, (blkC V c ⟨n, h⟩ (ix2 r q)) * (blkC V c ⟨n, h⟩ (ix2 r q))

/-- At the first point the accumulator is zeroed, then added to. -/
theorem sq_first (V : Vals) (c : Dev nD) (n : ℕ) (h : n < cfg2.N) (q : Fin 128) (h0 : n % 25 = 0) :
    sqS V c n h q = sqP V c n h q := by
  unfold sqS sqP blkC
  rw [Gen.outsAt2_A V c ⟨n, h⟩ h0]
  dsimp only
  rw [outA8 (F := Ideal) c (grid2.coords ⟨n, h⟩) (Gen.ms2_0 ⟨n, h⟩) (Gen.hs2_0 ⟨n, h⟩) (Gen.ms2_1 ⟨n, h⟩) (Gen.hs2_1 ⟨n, h⟩) (Gen.ms2_2 ⟨n, h⟩) (Gen.hs2_2 ⟨n, h⟩) (Gen.ms2_3 ⟨n, h⟩) (Gen.hs2_3 ⟨n, h⟩) (Gen.ms2_4 ⟨n, h⟩) (Gen.hs2_4 ⟨n, h⟩) (Gen.ms2_5 ⟨n, h⟩) (Gen.hs2_5 ⟨n, h⟩) (Gen.ms2_6 ⟨n, h⟩) (Gen.hs2_6 ⟨n, h⟩) (Gen.ms2_7 ⟨n, h⟩) (Gen.hs2_7 ⟨n, h⟩) (Gen.ms2_8 ⟨n, h⟩) (Gen.hs2_8 ⟨n, h⟩) ((Gen.hcond2_0 ⟨n, h⟩).mpr h0) (Gen.iblk2 V c 0 ⟨n, h⟩) (Gen.iblk2 V c 1 ⟨n, h⟩) (Gen.iblk2 V c 2 ⟨n, h⟩) (Gen.iblk2 V c 3 ⟨n, h⟩) (Gen.iblk2 V c 4 ⟨n, h⟩) (Gen.iblk2 V c 5 ⟨n, h⟩), R2M.pay1_apply, R2M.pay3_apply, zero_add]

/-- At a later point it is added to as the point before left it. -/
theorem sq_step (V : Vals) (c : Dev nD) (n : ℕ) (h : n + 1 < cfg2.N) (q : Fin 128) (hB : ¬(n + 1) % 25 = 0) :
    sqS V c (n + 1) h q = sqS V c n (Nat.lt_of_succ_lt h) q + sqP V c (n + 1) h q := by
  unfold sqS sqP blkC
  rw [Gen.outsAt2_B V c ⟨n + 1, h⟩ hB]
  dsimp only
  rw [outB8 (F := Ideal) c (grid2.coords (⟨n + 1, h⟩ : Fin cfg2.N)) (Gen.ms2_0 (⟨n + 1, h⟩ : Fin cfg2.N)) (Gen.hs2_0 (⟨n + 1, h⟩ : Fin cfg2.N)) (Gen.ms2_1 (⟨n + 1, h⟩ : Fin cfg2.N)) (Gen.hs2_1 (⟨n + 1, h⟩ : Fin cfg2.N)) (Gen.ms2_2 (⟨n + 1, h⟩ : Fin cfg2.N)) (Gen.hs2_2 (⟨n + 1, h⟩ : Fin cfg2.N)) (Gen.ms2_3 (⟨n + 1, h⟩ : Fin cfg2.N)) (Gen.hs2_3 (⟨n + 1, h⟩ : Fin cfg2.N)) (Gen.ms2_4 (⟨n + 1, h⟩ : Fin cfg2.N)) (Gen.hs2_4 (⟨n + 1, h⟩ : Fin cfg2.N)) (Gen.ms2_5 (⟨n + 1, h⟩ : Fin cfg2.N)) (Gen.hs2_5 (⟨n + 1, h⟩ : Fin cfg2.N)) (Gen.ms2_6 (⟨n + 1, h⟩ : Fin cfg2.N)) (Gen.hs2_6 (⟨n + 1, h⟩ : Fin cfg2.N)) (Gen.ms2_7 (⟨n + 1, h⟩ : Fin cfg2.N)) (Gen.hs2_7 (⟨n + 1, h⟩ : Fin cfg2.N)) (Gen.ms2_8 (⟨n + 1, h⟩ : Fin cfg2.N)) (Gen.hs2_8 (⟨n + 1, h⟩ : Fin cfg2.N)) (fun hc => hB ((Gen.hcond2_0 (⟨n + 1, h⟩ : Fin cfg2.N)).mp hc)) (Gen.iblk2 V c 0 (⟨n + 1, h⟩ : Fin cfg2.N)) (Gen.iblk2 V c 1 (⟨n + 1, h⟩ : Fin cfg2.N)) (Gen.iblk2 V c 2 (⟨n + 1, h⟩ : Fin cfg2.N)) (Gen.iblk2 V c 3 (⟨n + 1, h⟩ : Fin cfg2.N)) (Gen.iblk2 V c 4 (⟨n + 1, h⟩ : Fin cfg2.N)) (Gen.iblk2 V c 5 (⟨n + 1, h⟩ : Fin cfg2.N)) (Gen.outsAt2 V c ((⟨n + 1, h⟩ : Fin cfg2.N).val - 1) (Nat.lt_of_le_of_lt (Nat.sub_le _ _) (⟨n + 1, h⟩ : Fin cfg2.N).isLt)).2.1 (Gen.outsAt2 V c ((⟨n + 1, h⟩ : Fin cfg2.N).val - 1) (Nat.lt_of_le_of_lt (Nat.sub_le _ _) (⟨n + 1, h⟩ : Fin cfg2.N).isLt)).2.2, R2M.pay1_apply]
  rfl

/-- So after the last point it holds the sum of what the 25 points added. -/
theorem sq_last (V : Vals) (c : Dev nD) (q : Fin 128) (t : Fin cfg2.N) (h24 : t.val = 25 * 0 + 24) :
    sqS V c t.val t.isLt q
      = ∑ s : Fin (24 + 1), sqP V c (25 * 0 + s.val) (by have := s.isLt; have := t.isLt; omega) q := by
  obtain ⟨tv, ht⟩ := t
  dsimp only at h24
  subst h24
  exact Cert.LibRegroup.run_sum 25 (sqS V c) (sqP V c) (fun n h i h0 => sq_first V c n h i h0)
    (fun n h i hB => sq_step V c n h i hB) 0 q 24 (by omega) ht

/-- The 25 points' additions are the sum over all 100000 rows of the whole-array function. -/
theorem sq_total (V : Vals) (c : Dev nD) (q : Fin 128) (hlt : ∀ s : Fin (24 + 1), 25 * 0 + s.val < cfg2.N) :
    ∑ s : Fin (24 + 1), sqP V c (25 * 0 + s.val) (hlt s) q
      = ∑ n : Fin 100000, (Cert.Layer.combined (V c main_v65) (V c main_v90) (V c main_arg0) (V c main_arg8) (V c main_arg7) (V c main_v91) (ix2 n q)) * (Cert.Layer.combined (V c main_v65) (V c main_v90) (V c main_arg0) (V c main_arg8) (V c main_arg7) (V c main_v91) (ix2 n q)) := by
  rw [R2M.sum_rows_blocks (fun n => (Cert.Layer.combined (V c main_v65) (V c main_v90) (V c main_arg0) (V c main_arg8) (V c main_arg7) (V c main_v91) (ix2 n q)) * (Cert.Layer.combined (V c main_v65) (V c main_v90) (V c main_arg0) (V c main_arg8) (V c main_arg7) (V c main_v91) (ix2 n q)))]
  refine Finset.sum_congr rfl fun s _ => ?_
  unfold sqP
  refine Finset.sum_congr rfl fun r _ => ?_
  rw [blkC_apply V c ⟨25 * 0 + s.val, hlt s⟩ r q
    (ix2 (⟨s.val * 4000 + r.val, by have := s.isLt; have := r.isLt; omega⟩ : Fin 100000) q)
    (by show s.val * 4000 + r.val = (25 * 0 + s.val) * 4000 + r.val; omega) rfl]

theorem idx_8 : ∀ t : Fin cfg2.N, win2_8.index t (0 : Fin 2) = 0 ∧ win2_8.index t (1 : Fin 2) = 0 :=
  (by decide +kernel : ∀ t : Fin grid2.N, _)

/-- The window's one block is its whole one-row array: cutting and reading through it change nothing. -/
theorem read_whole8 (t : Fin cfg2.N) (H : Cert.Layer.R128 → EReal) :
    (cfg2.win 8).cut (grid2.coords t) H = ((cfg2.win 8).blk t).view.read (Elt Ideal) H := by
  obtain ⟨e0, e1⟩ := idx_8 t
  refine funext fun (y : S1x128.Idx) => ?_
  show H y = H (((cfg2.win 8).blk t).view.emb y)
  refine congrArg H (funext fun a => Fin.ext ?_)
  match a with
  | ⟨0, _⟩ => show (y 0).val = win2_8.index t (0 : Fin 2) * 1 + 1 * (y 0).val; rw [e0]; omega
  | ⟨1, _⟩ => show (y 1).val = win2_8.index t (1 : Fin 2) * 128 + 1 * (y 1).val; rw [e1]; omega

/-- After the last point the accumulator holds the whole-array column sums of squares. -/
theorem acc8_eq (V : Vals) (c : Dev nD) (t : Fin cfg2.N) (h24 : t.val = 25 * 0 + 24) :
    (Gen.outsAt2 (F := Ideal) V c t.val t.isLt).2.2 = Cert.Layer.colSumSq (Cert.Layer.combined (V c main_v65) (V c main_v90) (V c main_arg0) (V c main_arg8) (V c main_arg7) (V c main_v91)) := by
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  show sqS V c t.val t.isLt q = Cert.Layer.colSumSq (Cert.Layer.combined (V c main_v65) (V c main_v90) (V c main_arg0) (V c main_arg8) (V c main_arg7) (V c main_v91)) (ix2 (0 : Fin 1) q)
  rw [sq_last V c q t h24,
    sq_total V c q (fun s => by have := s.isLt; have := t.isLt; omega)]
  unfold Cert.Layer.colSumSq
  exact Finset.sum_congr rfl fun n _ => rfl

/-- The one write-back, after the last point, writes the whole-array column sums of squares. -/
theorem flushed8_eq (V : Vals) (c : Dev nD) (t : Fin cfg2.N) (hf : (cfg2.win 8).flush t = true) :
    (Gen.dat2 (F := Ideal) V c).flushed 8 t
      = ((cfg2.win 8).blk t).view.read (Elt Ideal) (Cert.Layer.colSumSq (Cert.Layer.combined (V c main_v65) (V c main_v90) (V c main_arg0) (V c main_arg8) (V c main_arg7) (V c main_v91))) := by
  have hN : cfg2.N = 25 := Gen.N_2
  have h24 : t.val = 25 * 0 + 24 := by have := (Gen.flush2_8 t).mp hf; have := t.isLt; omega
  show (cfg2.win 8).cut (grid2.coords t) ((Gen.dat2 (F := Ideal) V c).after 8 t) = _
  rw [Gen.after2_8, acc8_eq V c t h24]
  exact read_whole8 t _

/-- An index of the one-row result array is in the block iff each coordinate is in the block's range. -/
theorem mem_blk8 (t : Fin cfg2.N) (i : S1x128.Idx) :
    i ∈ ((cfg2.win 8).blk t).view.set ↔ ∀ a : Fin 2, win2_8.index t a * S1x128.size a ≤ (i a).val
      ∧ (i a).val < win2_8.index t a * S1x128.size a + S1x128.size a := by
  show i ∈ ((View.whole main_v94_2).slice (win2_8.rect t)).set ↔ _
  rw [View.set_slice_whole, Rect.mem_set_unit]
  exact Iff.rfl

/-- The last point's block is the whole one-row array. -/
theorem cover8 (i : S1x128.Idx) :
    ∃ t : Fin cfg2.N, (cfg2.win 8).flush t = true ∧ i ∈ ((cfg2.win 8).blk t).view.set := by
  have hN : cfg2.N = 25 := Gen.N_2
  have hi0 : (i 0).val < 1 := (i 0).isLt
  have hi1 : (i 1).val < 128 := (i 1).isLt
  obtain ⟨tt, htt⟩ : ∃ tt : Fin cfg2.N, tt.val = 24 := ⟨⟨24, by rw [hN]; omega⟩, rfl⟩
  obtain ⟨e0, e1⟩ := idx_8 tt
  refine ⟨tt, (Gen.flush2_8 tt).mpr (by rw [htt]), ?_⟩
  rw [mem_blk8]
  intro a
  match a with
  | ⟨0, _⟩ =>
    show win2_8.index tt (0 : Fin 2) * 1 ≤ (i 0).val ∧ (i 0).val < win2_8.index tt (0 : Fin 2) * 1 + 1
    rw [e0]; omega
  | ⟨1, _⟩ =>
    show win2_8.index tt (1 : Fin 2) * 128 ≤ (i 1).val ∧ (i 1).val < win2_8.index tt (1 : Fin 2) * 128 + 128
    rw [e1]; omega

end R2

/-- The combine pass, first output: the averaged, biased features. -/
theorem final2c : Final2c := fun V c =>
  (Gen.dat2 (F := Ideal) V c).arrAt_eq_of_cover 6 (Cert.Layer.combined (V c main_v65) (V c main_v90) (V c main_arg0) (V c main_arg8) (V c main_arg7) (V c main_v91))
    (fun t _ => R2.flushed6_eq V c t) R2.cover

/-- The combine pass, second output: each lane's sum over all rows. -/
theorem final2s : Final2s := fun V c =>
  (Gen.dat2 (F := Ideal) V c).arrAt_eq_of_cover 7 (Cert.Layer.colSum (Cert.Layer.combined (V c main_v65) (V c main_v90) (V c main_arg0) (V c main_arg8) (V c main_arg7) (V c main_v91)))
    (fun t hf => R2.flushed7_eq V c t hf) R2.cover7

/-- The combine pass, third output: each lane's sum of squares over all rows. -/
theorem final2q : Final2q := fun V c =>
  (Gen.dat2 (F := Ideal) V c).arrAt_eq_of_cover 8 (Cert.Layer.colSumSq (Cert.Layer.combined (V c main_v65) (V c main_v90) (V c main_arg0) (V c main_arg8) (V c main_arg7) (V c main_v91)))
    (fun t hf => R2.flushed8_eq V c t hf) R2.cover8

end Cert.KernelIdeal.HandRun

end
-- ==== Proof.KerFinal3.lean ====
/-
  The normalization pass. The grid is 25 points; point `t` loads rows `4000·t … 4000·t + 3999` of the feature array
  and the four one-row arrays (mean, variance, scale, shift), and stores, lane by lane,
  `((c − mean) · rsqrt (var + eps)) · scale + shift`. That is a pointwise function of the feature array with the rows
  broadcast, so each point writes back its block of ONE whole-array function and the 25 blocks tile the result array.
-/
import proofs.«133848_j46454366273980_2_alg».proof.Proof.KerFinalsStmt
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.HandRun

open Idealize.ShloMosaic Idealize.ShloMosaic.TcCoe Idealize.ShloMosaic.ValueIdx Cert.KernelIdeal
open Idealize.ShloMosaic.Pipeline (Dat)

namespace R3

theorem hz : (![0, 0] : Fin 2 → Nat) = fun _ => 0 := funext fun a => by fin_cases a <;> rfl

/-- The stored block at an index: the batch normalization of the feature there with the lane's four row entries. -/
theorem pay_apply (v0 v7 v13 v17 : Vec Ideal S1x128 .f32) (v5 : Vec Ideal S4000x128 .f32) (p : Fin 4000) (q : Fin 128) :
    Gen.k3_pay1 v0 v5 v7 v13 v17 (ix2 p q)
      = ((v5 (ix2 p q) - v7 (ix2 (0 : Fin 1) q)) * Ideal.rsqrt (v0 (ix2 (0 : Fin 1) q) + Cert.Layer.eps))
          * v13 (ix2 (0 : Fin 1) q) + v17 (ix2 (0 : Fin 1) q) := by
  unfold Gen.k3_pay1
  simp only [shapeCast_self, addf_apply, mulf_apply, subf_apply, broadcastTo_1b_ab_apply]
  rfl

/-- The stored block at an index against the whole-array function: it is enough that the loaded blocks read the
    arrays at the index and at its lane. -/
theorem pay_at (C : Cert.Layer.N128 → EReal) (mean var g b : Cert.Layer.R128 → EReal)
    (v0 v7 v13 v17 : Vec Ideal S1x128 .f32) (v5 : Vec Ideal S4000x128 .f32) (p : Fin 4000) (q : Fin 128)
    (i : S100000x128.Idx) (h5 : v5 (ix2 p q) = C i)
    (h7 : v7 (ix2 (0 : Fin 1) q) = mean (ix2 (0 : Fin 1) (i 1)))
    (h0 : v0 (ix2 (0 : Fin 1) q) = var (ix2 (0 : Fin 1) (i 1)))
    (h13 : v13 (ix2 (0 : Fin 1) q) = g (ix2 (0 : Fin 1) (i 1)))
    (h17 : v17 (ix2 (0 : Fin 1) q) = b (ix2 (0 : Fin 1) (i 1))) :
    Gen.k3_pay1 v0 v5 v7 v13 v17 (ix2 p q) = Cert.Layer.normalized C mean var g b i := by
  rw [pay_apply, h5, h7, h0, h13, h17]
  rfl

/-- Window 0's block at a point is rows `t·4000 … t·4000 + 3999` of its array. -/
theorem idx_0 : ∀ t : Fin cfg3.N, win3_0.index t (0 : Fin 2) = t.val ∧ win3_0.index t (1 : Fin 2) = 0 :=
  (by decide +kernel : ∀ t : Fin grid3.N, _)

theorem iblk_0_apply (V : Vals) (c : Dev nD) (t : Fin cfg3.N) (x : S4000x128.Idx) (k : S100000x128.Idx)
    (hk0 : (k 0).val = t.val * 4000 + (x 0).val) (hk1 : (k 1).val = (x 1).val) :
    (Gen.iblk3 (F := Ideal) V c 0 t : Vec Ideal S4000x128 .f32) x = V c main_v94_0 k := by
  obtain ⟨e0, e1⟩ := idx_0 t
  unfold Gen.iblk3
  rw [View.read_apply]
  show V c main_v94_0 _ = V c main_v94_0 _
  congr 1
  funext a
  apply Fin.ext
  match a with
  | ⟨0, _⟩ => show win3_0.index t (0 : Fin 2) * 4000 + 1 * (x 0).val = (k 0).val; rw [e0, hk0]; omega
  | ⟨1, _⟩ => show win3_0.index t (1 : Fin 2) * 128 + 1 * (x 1).val = (k 1).val; rw [e1, hk1]; omega

/-- Window 1's block at every point is its whole one-row array (the lane means). -/
theorem idx_1 : ∀ t : Fin cfg3.N, win3_1.index t (0 : Fin 2) = 0 ∧ win3_1.index t (1 : Fin 2) = 0 :=
  (by decide +kernel : ∀ t : Fin grid3.N, _)

theorem iblk_1_apply (V : Vals) (c : Dev nD) (t : Fin cfg3.N) (x k : S1x128.Idx)
    (hk1 : (k 1).val = (x 1).val) :
    (Gen.iblk3 (F := Ideal) V c 1 t : Vec Ideal S1x128 .f32) x = V c main_v96 k := by
  obtain ⟨e0, e1⟩ := idx_1 t
  have hx0 : (x 0).val < 1 := (x 0).isLt
  have hk0 : (k 0).val < 1 := (k 0).isLt
  unfold Gen.iblk3
  rw [View.read_apply]
  show V c main_v96 _ = V c main_v96 _
  congr 1
  funext a
  apply Fin.ext
  match a with
  | ⟨0, _⟩ => show win3_1.index t (0 : Fin 2) * 1 + 1 * (x 0).val = (k 0).val; rw [e0]; omega
  | ⟨1, _⟩ => show win3_1.index t (1 : Fin 2) * 128 + 1 * (x 1).val = (k 1).val; rw [e1, hk1]; omega

/-- Window 2's block at every point is its whole one-row array (the lane variances). -/
theorem idx_2 : ∀ t : Fin cfg3.N, win3_2.index t (0 : Fin 2) = 0 ∧ win3_2.index t (1 : Fin 2) = 0 :=
  (by decide +kernel : ∀ t : Fin grid3.N, _)

theorem iblk_2_apply (V : Vals) (c : Dev nD) (t : Fin cfg3.N) (x k : S1x128.Idx)
    (hk1 : (k 1).val = (x 1).val) :
    (Gen.iblk3 (F := Ideal) V c 2 t : Vec Ideal S1x128 .f32) x = V c main_v100 k := by
  obtain ⟨e0, e1⟩ := idx_2 t
  have hx0 : (x 0).val < 1 := (x 0).isLt
  have hk0 : (k 0).val < 1 := (k 0).isLt
  unfold Gen.iblk3
  rw [View.read_apply]
  show V c main_v100 _ = V c main_v100 _
  congr 1
  funext a
  apply Fin.ext
  match a with
  | ⟨0, _⟩ => show win3_2.index t (0 : Fin 2) * 1 + 1 * (x 0).val = (k 0).val; rw [e0]; omega
  | ⟨1, _⟩ => show win3_2.index t (1 : Fin 2) * 128 + 1 * (x 1).val = (k 1).val; rw [e1, hk1]; omega

/-- Window 3's block at every point is its whole one-row array (the scale). -/
theorem idx_3 : ∀ t : Fin cfg3.N, win3_3.index t (0 : Fin 2) = 0 ∧ win3_3.index t (1 : Fin 2) = 0 :=
  (by decide +kernel : ∀ t : Fin grid3.N, _)

theorem iblk_3_apply (V : Vals) (c : Dev nD) (t : Fin cfg3.N) (x k : S1x128.Idx)
    (hk1 : (k 1).val = (x 1).val) :
    (Gen.iblk3 (F := Ideal) V c 3 t : Vec Ideal S1x128 .f32) x = V c main_v92 k := by
  obtain ⟨e0, e1⟩ := idx_3 t
  have hx0 : (x 0).val < 1 := (x 0).isLt
  have hk0 : (k 0).val < 1 := (k 0).isLt
  unfold Gen.iblk3
  rw [View.read_apply]
  show V c main_v92 _ = V c main_v92 _
  congr 1
  funext a
  apply Fin.ext
  match a with
  | ⟨0, _⟩ => show win3_3.index t (0 : Fin 2) * 1 + 1 * (x 0).val = (k 0).val; rw [e0]; omega
  | ⟨1, _⟩ => show win3_3.index t (1 : Fin 2) * 128 + 1 * (x 1).val = (k 1).val; rw [e1, hk1]; omega

/-- Window 4's block at every point is its whole one-row array (the shift). -/
theorem idx_4 : ∀ t : Fin cfg3.N, win3_4.index t (0 : Fin 2) = 0 ∧ win3_4.index t (1 : Fin 2) = 0 :=
  (by decide +kernel : ∀ t : Fin grid3.N, _)

theorem iblk_4_apply (V : Vals) (c : Dev nD) (t : Fin cfg3.N) (x k : S1x128.Idx)
    (hk1 : (k 1).val = (x 1).val) :
    (Gen.iblk3 (F := Ideal) V c 4 t : Vec Ideal S1x128 .f32) x = V c main_v93 k := by
  obtain ⟨e0, e1⟩ := idx_4 t
  have hx0 : (x 0).val < 1 := (x 0).isLt
  have hk0 : (k 0).val < 1 := (k 0).isLt
  unfold Gen.iblk3
  rw [View.read_apply]
  show V c main_v93 _ = V c main_v93 _
  congr 1
  funext a
  apply Fin.ext
  match a with
  | ⟨0, _⟩ => show win3_4.index t (0 : Fin 2) * 1 + 1 * (x 0).val = (k 0).val; rw [e0]; omega
  | ⟨1, _⟩ => show win3_4.index t (1 : Fin 2) * 128 + 1 * (x 1).val = (k 1).val; rw [e1, hk1]; omega

/-- The output window's block at a point is rows `t·4000 … t·4000 + 3999` of the result array. -/
theorem idx_5 : ∀ t : Fin cfg3.N, win3_5.index t (0 : Fin 2) = t.val ∧ win3_5.index t (1 : Fin 2) = 0 :=
  (by decide +kernel : ∀ t : Fin grid3.N, _)

/-- An index of the result array is in a point's block iff each coordinate is in the block's range. -/
theorem mem_blk (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v101).slice (win3_5.rect t)).set ↔ _
  rw [View.set_slice_whole, Rect.mem_set_unit]
  exact Iff.rfl

/-- Row `r` of the result array is in the block of point `r / 4000`. -/
theorem cover (i : S100000x128.Idx) :
    ∃ t : Fin cfg3.N, (cfg3.win 5).flush t = true ∧ i ∈ ((cfg3.win 5).blk t).view.set := by
  have hN : cfg3.N = 25 := Gen.N_3
  have hi0 : (i 0).val < 100000 := (i 0).isLt
  have hi1 : (i 1).val < 128 := (i 1).isLt
  obtain ⟨tt, htt⟩ : ∃ tt : Fin cfg3.N, tt.val = (i 0).val / 4000 :=
    ⟨⟨(i 0).val / 4000, by rw [hN]; omega⟩, rfl⟩
  obtain ⟨e0, e1⟩ := idx_5 tt
  refine ⟨tt, Gen.flush3_5 tt, ?_⟩
  rw [mem_blk]
  intro a
  match a with
  | ⟨0, _⟩ =>
    show win3_5.index tt (0 : Fin 2) * 4000 ≤ (i 0).val ∧ (i 0).val < win3_5.index tt (0 : Fin 2) * 4000 + 4000
    rw [e0, htt]; omega
  | ⟨1, _⟩ =>
    show win3_5.index tt (1 : Fin 2) * 128 ≤ (i 1).val ∧ (i 1).val < win3_5.index tt (1 : Fin 2) * 128 + 128
    rw [e1]; omega

/-- What a point writes back is its block of the normalized feature array. -/
theorem flushed_eq (V : Vals) (c : Dev nD) (t : Fin cfg3.N) :
    (Gen.dat3 (F := Ideal) V c).flushed 5 t
      = ((cfg3.win 5).blk t).view.read (Elt Ideal)
          (Cert.Layer.normalized (V c main_v94_0) (V c main_v96) (V c main_v100) (V c main_v92) (V c main_v93)) := by
  show (cfg3.win 5).cut (grid3.coords t) ((Gen.dat3 (F := Ideal) V c).after 5 t) = _
  rw [Gen.after3_5]
  unfold Gen.out3_5
  rw [View.canon_unit_zero hz]
  simp only [View.ld_unit_zero (S := S4000x128) hz, View.ld_unit_zero (S := S1x128) hz]
  obtain ⟨e0, e1⟩ := idx_5 t
  refine funext fun (y : S4000x128.Idx) => ?_
  obtain ⟨p, q, rfl⟩ : ∃ (p : Fin 4000) (q : Fin 128), y = ix2 p q := ⟨y 0, y 1, eq_ix2 y⟩
  show Gen.k3_pay1 (Gen.iblk3 V c 2 t) (Gen.iblk3 V c 0 t) (Gen.iblk3 V c 1 t) (Gen.iblk3 V c 3 t) (Gen.iblk3 V c 4 t) (ix2 p q)
      = Cert.Layer.normalized (V c main_v94_0) (V c main_v96) (V c main_v100) (V c main_v92) (V c main_v93)
          (((cfg3.win 5).blk t).view.emb (ix2 p q))
  have h0 : ((((cfg3.win 5).blk t).view.emb (ix2 p q) : S100000x128.Idx) 0).val = t.val * 4000 + p.val := by
    show win3_5.index t (0 : Fin 2) * 4000 + 1 * p.val = t.val * 4000 + p.val; rw [e0]; omega
  have h1 : ((((cfg3.win 5).blk t).view.emb (ix2 p q) : S100000x128.Idx) 1).val = q.val := by
    show win3_5.index t (1 : Fin 2) * 128 + 1 * q.val = q.val; rw [e1]; omega
  exact pay_at (V c main_v94_0) (V c main_v96) (V c main_v100) (V c main_v92) (V c main_v93)
    (Gen.iblk3 V c 2 t) (Gen.iblk3 V c 1 t) (Gen.iblk3 V c 3 t) (Gen.iblk3 V c 4 t) (Gen.iblk3 V c 0 t) p q
    (((cfg3.win 5).blk t).view.emb (ix2 p q))
    (iblk_0_apply V c t (ix2 p q) (((cfg3.win 5).blk t).view.emb (ix2 p q)) h0 h1)
    (iblk_1_apply V c t (ix2 (0 : Fin 1) q) (ix2 (0 : Fin 1) ((((cfg3.win 5).blk t).view.emb (ix2 p q) : S100000x128.Idx) 1)) h1)
    (iblk_2_apply V c t (ix2 (0 : Fin 1) q) (ix2 (0 : Fin 1) ((((cfg3.win 5).blk t).view.emb (ix2 p q) : S100000x128.Idx) 1)) h1)
    (iblk_3_apply V c t (ix2 (0 : Fin 1) q) (ix2 (0 : Fin 1) ((((cfg3.win 5).blk t).view.emb (ix2 p q) : S100000x128.Idx) 1)) h1)
    (iblk_4_apply V c t (ix2 (0 : Fin 1) q) (ix2 (0 : Fin 1) ((((cfg3.win 5).blk t).view.emb (ix2 p q) : S100000x128.Idx) 1)) h1)

end R3

/-- The normalization pass leaves the batch-normalized, scaled and shifted feature array. -/
theorem final3 : Final3 := fun V c =>
  (Gen.dat3 (F := Ideal) V c).arrAt_eq_of_cover 5
    (Cert.Layer.normalized (V c main_v94_0) (V c main_v96) (V c main_v100) (V c main_v92) (V c main_v93))
    (fun t _ => R3.flushed_eq V c t) R3.cover

end Cert.KernelIdeal.HandRun

end
-- ==== Proof.KerFinal4.lean ====
/-
  The relation-table pass. Its grid is one point; the body stores the product of the 1000×128 block with the 128×128
  weight, each a whole array. So the array after the pass is the matrix product of the two operand arrays, index by
  index: the stored block read at an index is the sum over the contraction axis, and the one block is the array.
-/
import proofs.«133848_j46454366273980_2_alg».proof.Proof.KerFinalsStmt
import Idealize.ShloMosaic.Lib.Pipeline.Value
import Idealize.ShloMosaic.Lib.ValueIdx
import Idealize.ShloMosaic.PureOps.Ideal.Laws

set_option maxRecDepth 16384

noncomputable section

namespace Cert.KernelIdeal.HandRun

open Idealize.ShloMosaic Idealize.ShloMosaic.TcCoe Idealize.ShloMosaic.ValueIdx Cert.KernelIdeal
open Idealize.ShloMosaic.Pipeline (Dat)

namespace R4

theorem hz : (![0, 0] : Fin 2 → Nat) = fun _ => 0 := funext fun a => by fin_cases a <;> rfl

/-- The stored block at an index: the contraction over the 128 lanes of the two loaded blocks. -/
theorem pay_apply (x0 : Vec Ideal S1000x128 .f32) (x1 : Vec Ideal S128x128 .f32) (y : S1000x128.Idx) :
    Gen.k4_pay1 x0 x1 y = Cert.Gcn.Dense.prod (M := 1000) (K := 128) (N := 128) x0 x1 y := by
  unfold Gen.k4_pay1
  rw [shapeCast_self]
  refine (Ideal.matmul_constant_zero_apply dot_S1000x128_S128x128_S1000x128_1_0_0_1_n_n none _ _ y).trans ?_
  exact Cert.Gcn.Dense.sum_contr_eq_prod dot_S1000x128_S128x128_S1000x128_1_0_0_1_n_n rfl rfl
    (fun _ _ => rfl)
    (fun i q => dot_S1000x128_S128x128_S1000x128_1_0_0_1_n_n.lhsIdx_val_of_single rfl i q)
    (fun i q => dot_S1000x128_S128x128_S1000x128_1_0_0_1_n_n.rhsIdx_val_of_single rfl i q)
    (fun _ _ => rfl) x0 x1 y

/-- The stored block at an index against the product of two whole arrays: it is enough that the loaded blocks read
    the arrays along the row and the column the index names. -/
theorem pay_at (A : Cert.Layer.T128 → EReal) (W : Cert.Layer.W128 → EReal)
    (x0 : Vec Ideal S1000x128 .f32) (x1 : Vec Ideal S128x128 .f32) (y i : S1000x128.Idx)
    (h0 : ∀ k : Fin 128, x0 (ix2 (y 0) k) = A (ix2 (i 0) k))
    (h1 : ∀ k : Fin 128, x1 (ix2 k (y 1)) = W (ix2 k (i 1))) :
    Gen.k4_pay1 x0 x1 y = Cert.Layer.relOut A W i := by
  refine (pay_apply x0 x1 y).trans ?_
  unfold Cert.Layer.relOut Cert.Gcn.Dense.prod
  exact Finset.sum_congr rfl fun k _ => by rw [h0 k, h1 k]

/-- The block indices of the three windows at the grid's point: all zero. -/
theorem idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The first operand's block is the operand array itself. -/
theorem iblk0_apply (V : Vals) (c : Dev nD) (t : Fin cfg4.N) (x k : S1000x128.Idx)
    (hk0 : (k 0).val = (x 0).val) (hk1 : (k 1).val = (x 1).val) :
    (Gen.iblk4 (F := Ideal) V c 0 t : Vec Ideal S1000x128 .f32) x = V c main_v102 k := by
  obtain ⟨e0, e1, -, -, -, -⟩ := idx t
  unfold Gen.iblk4
  rw [View.read_apply]
  show V c main_v102 _ = V c main_v102 _
  congr 1
  funext a
  apply Fin.ext
  match a with
  | ⟨0, _⟩ => show win4_0.index t (0 : Fin 2) * 1000 + 1 * (x 0).val = (k 0).val; rw [e0, hk0]; omega
  | ⟨1, _⟩ => show win4_0.index t (1 : Fin 2) * 128 + 1 * (x 1).val = (k 1).val; rw [e1, hk1]; omega

/-- The second operand's block is the weight array itself. -/
theorem iblk1_apply (V : Vals) (c : Dev nD) (t : Fin cfg4.N) (x k : S128x128.Idx)
    (hk0 : (k 0).val = (x 0).val) (hk1 : (k 1).val = (x 1).val) :
    (Gen.iblk4 (F := Ideal) V c 1 t : Vec Ideal S128x128 .f32) x = V c main_arg6 k := by
  obtain ⟨-, -, e0, e1, -, -⟩ := idx t
  unfold Gen.iblk4
  rw [View.read_apply]
  show V c main_arg6 _ = V c main_arg6 _
  congr 1
  funext a
  apply Fin.ext
  match a with
  | ⟨0, _⟩ => show win4_1.index t (0 : Fin 2) * 128 + 1 * (x 0).val = (k 0).val; rw [e0, hk0]; omega
  | ⟨1, _⟩ => show win4_1.index t (1 : Fin 2) * 128 + 1 * (x 1).val = (k 1).val; rw [e1, hk1]; omega

/-- What the point writes back is its block of the product of the two operand arrays. -/
theorem flushed_eq (V : Vals) (c : Dev nD) (t : Fin cfg4.N) :
    (Gen.dat4 (F := Ideal) V c).flushed 2 t
      = ((cfg4.win 2).blk t).view.read (Elt Ideal) (Cert.Layer.relOut (V c main_v102) (V c main_arg6)) := by
  show (cfg4.win 2).cut (grid4.coords t) ((Gen.dat4 (F := Ideal) V c).after 2 t) = _
  rw [Gen.after4_2]
  unfold Gen.out4_2
  rw [View.canon_unit_zero hz]
  simp only [View.ld_unit_zero (S := S1000x128) hz, View.ld_unit_zero (S := S128x128) hz]
  obtain ⟨-, -, -, -, e0, e1⟩ := idx t
  refine funext fun (y : S1000x128.Idx) => ?_
  show Gen.k4_pay1 (Gen.iblk4 V c 0 t) (Gen.iblk4 V c 1 t) y
      = Cert.Layer.relOut (V c main_v102) (V c main_arg6) (((cfg4.win 2).blk t).view.emb y)
  have h0 : ((((cfg4.win 2).blk t).view.emb y : S1000x128.Idx) 0).val = (y 0).val := by
    show win4_2.index t (0 : Fin 2) * 1000 + 1 * (y 0).val = (y 0).val; rw [e0]; omega
  have h1 : ((((cfg4.win 2).blk t).view.emb y : S1000x128.Idx) 1).val = (y 1).val := by
    show win4_2.index t (1 : Fin 2) * 128 + 1 * (y 1).val = (y 1).val; rw [e1]; omega
  exact pay_at (V c main_v102) (V c main_arg6) (Gen.iblk4 V c 0 t) (Gen.iblk4 V c 1 t) y
    (((cfg4.win 2).blk t).view.emb y)
    (fun k => iblk0_apply V c t (ix2 (y 0) k) (ix2 ((((cfg4.win 2).blk t).view.emb y : S1000x128.Idx) 0) k) h0 rfl)
    (fun k => iblk1_apply V c t (ix2 k (y 1)) (ix2 k ((((cfg4.win 2).blk t).view.emb y : S1000x128.Idx) 1)) rfl h1)

/-- An index of the result array is in the point's block iff each coordinate is in the block's range. -/
theorem mem_blk (t : Fin cfg4.N) (i : S1000x128.Idx) :
    i ∈ ((cfg4.win 2).blk t).view.set ↔ ∀ a : Fin 2, win4_2.index t a * S1000x128.size a ≤ (i a).val
      ∧ (i a).val < win4_2.index t a * S1000x128.size a + S1000x128.size a := by
  show i ∈ ((View.whole main_v103).slice (win4_2.rect t)).set ↔ _
  rw [View.set_slice_whole, Rect.mem_set_unit]
  exact Iff.rfl

/-- The one block is the whole result array. -/
theorem cover (i : S1000x128.Idx) :
    ∃ t : Fin cfg4.N, (cfg4.win 2).flush t = true ∧ i ∈ ((cfg4.win 2).blk t).view.set := by
  refine ⟨Gen.t4_0, Gen.flush4_2 _, ?_⟩
  rw [mem_blk]
  obtain ⟨-, -, -, -, e0, e1⟩ := idx Gen.t4_0
  have hi0 : (i 0).val < 1000 := (i 0).isLt
  have hi1 : (i 1).val < 128 := (i 1).isLt
  intro a
  match a with
  | ⟨0, _⟩ => show win4_2.index Gen.t4_0 (0 : Fin 2) * 1000 ≤ (i 0).val ∧ (i 0).val < win4_2.index Gen.t4_0 (0 : Fin 2) * 1000 + 1000; omega
  | ⟨1, _⟩ => show win4_2.index Gen.t4_0 (1 : Fin 2) * 128 ≤ (i 1).val ∧ (i 1).val < win4_2.index Gen.t4_0 (1 : Fin 2) * 128 + 128; omega

end R4

/-- The relation-table pass leaves the matrix product of its two operand arrays. -/
theorem final4 : Final4 := fun V c =>
  (Gen.dat4 (F := Ideal) V c).arrAt_eq_of_cover 2 (Cert.Layer.relOut (V c main_v102) (V c main_arg6))
    (fun t _ => R4.flushed_eq V c t) R4.cover

end Cert.KernelIdeal.HandRun

end
-- ==== Proof.KerFinals.lean ====
/-
  The five tiled passes together: each output array after its pass is the pass's whole-array function of its operand
  arrays.
-/
import proofs.«133848_j46454366273980_2_alg».proof.Proof.KerFinal0
import proofs.«133848_j46454366273980_2_alg».proof.Proof.KerFinal1
import proofs.«133848_j46454366273980_2_alg».proof.Proof.KerFinal2
import proofs.«133848_j46454366273980_2_alg».proof.Proof.KerFinal3
import proofs.«133848_j46454366273980_2_alg».proof.Proof.KerFinal4

set_option maxRecDepth 16384

namespace Cert.KernelIdeal.HandRun

/-- All seven output arrays of the five passes. -/
theorem finals : Finals := ⟨final0, final1, final2c, final2s, final2q, final3, final4⟩

end Cert.KernelIdeal.HandRun
-- ==== Proof.RefOps.lean ====
/-
  The reference program's @main as one straight line of host operations, and its run.

  @main is printed in three consecutive windows; the three outlined functions it calls (two selects against a
  broadcast scalar, and the per-column variance, which itself calls such a select) are inlined at their call
  sites, each operation of a callee written over the buffers that call's record names. The list of operations
  is the concatenation of the three windows' lists; @main equals the sequential program of that list, every
  operation touches TensorCore buffers only, and so every weakly fair execution terminates with each buffer at
  the fold of the operations' results over the launch contents.
-/
import proofs.«133848_j46454366273980_2_alg».proof.ReferenceIdeal
import proofs.«133848_j46454366273980_2_alg».proof.Proof.Gen.ReferenceIdeal
import Idealize.ShloMosaic.Lib.StableHlo.Run
import Idealize.ShloMosaic.Lib.Pipeline.Frame

set_option maxRecDepth 16384
set_option Elab.async false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-- The first window: the extended relation table, the halves of the edge list and of the edge types, and for each
    direction the in-degree of every node, its guarded reciprocal (the first two calls) and that reciprocal
    gathered per edge; then the forward direction's two index rows. -/
abbrev ops0 : List (HloOp τ sig (Elt F)) :=
  [ StableHlo.binary main_arg3 main_arg8 main_v0 ((fun a b => concatenate S1001x128 0 [⟨S1000x128, a⟩, ⟨S1x128, b⟩] concatenates_S1000x128_S1x128_S1001x128_d0) : (⟨S1000x128, .f32⟩ : BufTy).Contents (Elt F) → (⟨S1x128, .f32⟩ : BufTy).Contents (Elt F) → (⟨S1001x128, .f32⟩ : BufTy).Contents (Elt F)),
    StableHlo.unary main_arg1 main_v1 ((extractStridedSlice S2x600000 ![0, 0] · slices_S2x1200000_S2x600000_0_0) : (⟨S2x1200000, .i32⟩ : BufTy).Contents (Elt F) → (⟨S2x600000, .i32⟩ : BufTy).Contents (Elt F)),
    StableHlo.unary main_arg1 main_v2 ((extractStridedSlice S2x600000 ![0, 600000] · slices_S2x1200000_S2x600000_0_600000) : (⟨S2x1200000, .i32⟩ : BufTy).Contents (Elt F) → (⟨S2x600000, .i32⟩ : BufTy).Contents (Elt F)),
    StableHlo.unary main_arg2 main_v3 ((extractStridedSlice S600000 ![0] · slices_S1200000_S600000_0) : (⟨S1200000, .i32⟩ : BufTy).Contents (Elt F) → (⟨S600000, .i32⟩ : BufTy).Contents (Elt F)),
    StableHlo.unary main_arg2 main_v4 ((extractStridedSlice S600000 ![600000] · slices_S1200000_S600000_600000) : (⟨S1200000, .i32⟩ : BufTy).Contents (Elt F) → (⟨S600000, .i32⟩ : BufTy).Contents (Elt F)),
    StableHlo.unary main_v1 main_v5 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v5 main_v6 rfl shapeCasts_S1x600000_S600000,
    StableHlo.nullary main_cst (constant S_ .f32 0x3F800000#32),
    StableHlo.unary main_cst main_v7 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S600000x1 ![0] bcast_S600000_S600000x1_0 : (⟨S600000, .i32⟩ : BufTy).Contents (Elt F) → (⟨S600000x1, .i32⟩ : BufTy).Contents (Elt F)),
    StableHlo.ternary main_v8 main_v9 main_v7 main_v10 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v13 main_v10 main_v14 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (StableHlo.TRef.of (T := ⟨S_, .f32⟩) main_cst_3) main_call0.v0 id,
    StableHlo.TRef.unary main_call0.v0 main_call0.v1 (broadcastInDim S100000 ![] bcast_S_S100000),
    StableHlo.TRef.ternary (StableHlo.TRef.of (T := ⟨S100000, .i1⟩) main_v12) (StableHlo.TRef.of (T := ⟨S100000, .f32⟩) main_v14) main_call0.v1 main_call0.v2 select,
    StableHlo.nullary main_c (constantI S_ 32 0#32),
    StableHlo.unary main_c main_v16 (broadcastInDim S600000 ![] bcast_S_S600000 : (⟨S_, .i32⟩ : BufTy).Contents (Elt F) → (⟨S600000, .i32⟩ : BufTy).Contents (Elt F)),
    StableHlo.binary main_v6 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v18 (broadcastInDim S600000 ![] bcast_S_S600000 : (⟨S_, .i32⟩ : BufTy).Contents (Elt F) → (⟨S600000, .i32⟩ : BufTy).Contents (Elt F)),
    StableHlo.binary main_v6 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v6 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_v15 main_v21 main_v22 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v2 main_v23 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v23 main_v24 rfl shapeCasts_S1x600000_S600000,
    StableHlo.nullary main_cst_5 (constant S_ .f32 0x3F800000#32),
    StableHlo.unary main_cst_5 main_v25 (broadcastInDim S600000 ![] bcast_S_S600000 : (⟨S_, .f32⟩ : BufTy).Contents (Elt F) → (⟨S600000, .f32⟩ : BufTy).Contents (Elt F)),
    StableHlo.nullary main_cst_6 (constant S_ .f32 0x00000000#32),
    StableHlo.unary main_cst_6 main_v26 (broadcastInDim S100000 ![] bcast_S_S100000 : (⟨S_, .f32⟩ : BufTy).Contents (Elt F) → (⟨S100000, .f32⟩ : BufTy).Contents (Elt F)),
    StableHlo.unary main_v24 main_v27 (broadcastInDim S600000x1 ![0] bcast_S600000_S600000x1_0 : (⟨S600000, .i32⟩ : BufTy).Contents (Elt F) → (⟨S600000x1, .i32⟩ : BufTy).Contents (Elt F)),
    StableHlo.ternary main_v26 main_v27 main_v25 main_v28 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_7 (constant S_ .f32 0x00000000#32),
    StableHlo.unary main_cst_7 main_v29 (broadcastInDim S100000 ![] bcast_S_S100000 : (⟨S_, .f32⟩ : BufTy).Contents (Elt F) → (⟨S100000, .f32⟩ : BufTy).Contents (Elt F)),
    StableHlo.binary main_v28 main_v29 main_v30 (cmpf .ogt : (⟨S100000, .f32⟩ : BufTy).Contents (Elt F) → (⟨S100000, .f32⟩ : BufTy).Contents (Elt F) → (⟨S100000, .i1⟩ : BufTy).Contents (Elt F)),
    StableHlo.nullary main_cst_8 (constant S_ .f32 0x3F800000#32),
    StableHlo.unary main_cst_8 main_v31 (broadcastInDim S100000 ![] bcast_S_S100000 : (⟨S_, .f32⟩ : BufTy).Contents (Elt F) → (⟨S100000, .f32⟩ : BufTy).Contents (Elt F)),
    StableHlo.binary main_v31 main_v28 main_v32 (Host.divf : (⟨S100000, .f32⟩ : BufTy).Contents (Elt F) → (⟨S100000, .f32⟩ : BufTy).Contents (Elt F) → (⟨S100000, .f32⟩ : BufTy).Contents (Elt F)),
    StableHlo.nullary main_cst_9 (constant S_ .f32 0x00000000#32),
    StableHlo.TRef.unary (StableHlo.TRef.of (T := ⟨S_, .f32⟩) main_cst_9) main_call1.v0 id,
    StableHlo.TRef.unary main_call1.v0 main_call1.v1 (broadcastInDim S100000 ![] bcast_S_S100000),
    StableHlo.TRef.ternary (StableHlo.TRef.of (T := ⟨S100000, .i1⟩) main_v30) (StableHlo.TRef.of (T := ⟨S100000, .f32⟩) main_v32) main_call1.v1 main_call1.v2 select,
    StableHlo.nullary main_c_10 (constantI S_ 32 0#32),
    StableHlo.unary main_c_10 main_v34 (broadcastInDim S600000 ![] bcast_S_S600000 : (⟨S_, .i32⟩ : BufTy).Contents (Elt F) → (⟨S600000, .i32⟩ : BufTy).Contents (Elt F)),
    StableHlo.binary main_v24 main_v34 main_v35 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v36 (broadcastInDim S600000 ![] bcast_S_S600000 : (⟨S_, .i32⟩ : BufTy).Contents (Elt F) → (⟨S600000, .i32⟩ : BufTy).Contents (Elt F)),
    StableHlo.binary main_v24 main_v36 main_v37 (addi : (⟨S600000, .i32⟩ : BufTy).Contents (Elt F) → (⟨S600000, .i32⟩ : BufTy).Contents (Elt F) → (⟨S600000, .i32⟩ : BufTy).Contents (Elt F)),
    StableHlo.ternary main_v35 main_v37 main_v24 main_v38 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v38 main_v39 (broadcastInDim S600000x1 ![0] bcast_S600000_S600000x1_0 : (⟨S600000, .i32⟩ : BufTy).Contents (Elt F) → (⟨S600000x1, .i32⟩ : BufTy).Contents (Elt F)),
    StableHlo.binary main_v33 main_v39 main_v40 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v1 main_v41 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v41 main_v42 rfl shapeCasts_S1x600000_S600000,
    StableHlo.unary main_v1 main_v43 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v43 main_v44 rfl shapeCasts_S1x600000_S600000,
    StableHlo.nullary main_c_12 (constantI S_ 32 0#32) ]

/-- The second window: per direction the gathered rows of `x` and of the relation table, their lane-wise product
    projected by the direction's weight, scaled per edge and summed into node rows; then the self-loop projection. -/
abbrev ops1 : List (HloOp τ sig (Elt F)) :=
  [ StableHlo.unary main_c_12 main_v45 (broadcastInDim S600000 ![] bcast_S_S600000 : (⟨S_, .i32⟩ : BufTy).Contents (Elt F) → (⟨S600000, .i32⟩ : BufTy).Contents (Elt F)),
    StableHlo.binary main_v44 main_v45 main_v46 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v47 (broadcastInDim S600000 ![] bcast_S_S600000 : (⟨S_, .i32⟩ : BufTy).Contents (Elt F) → (⟨S600000, .i32⟩ : BufTy).Contents (Elt F)),
    StableHlo.binary main_v44 main_v47 main_v48 (addi : (⟨S600000, .i32⟩ : BufTy).Contents (Elt F) → (⟨S600000, .i32⟩ : BufTy).Contents (Elt F) → (⟨S600000, .i32⟩ : BufTy).Contents (Elt F)),
    StableHlo.ternary main_v46 main_v48 main_v44 main_v49 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v49 main_v50 (broadcastInDim S600000x1 ![0] bcast_S600000_S600000x1_0 : (⟨S600000, .i32⟩ : BufTy).Contents (Elt F) → (⟨S600000x1, .i32⟩ : BufTy).Contents (Elt F)),
    StableHlo.binary main_arg0 main_v50 main_v51 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_14 (constantI S_ 32 0#32),
    StableHlo.unary main_c_14 main_v52 (broadcastInDim S600000 ![] bcast_S_S600000 : (⟨S_, .i32⟩ : BufTy).Contents (Elt F) → (⟨S600000, .i32⟩ : BufTy).Contents (Elt F)),
    StableHlo.binary main_v3 main_v52 main_v53 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 1001#32),
    StableHlo.unary main_c_15 main_v54 (broadcastInDim S600000 ![] bcast_S_S600000 : (⟨S_, .i32⟩ : BufTy).Contents (Elt F) → (⟨S600000, .i32⟩ : BufTy).Contents (Elt F)),
    StableHlo.binary main_v3 main_v54 main_v55 (addi : (⟨S600000, .i32⟩ : BufTy).Contents (Elt F) → (⟨S600000, .i32⟩ : BufTy).Contents (Elt F) → (⟨S600000, .i32⟩ : BufTy).Contents (Elt F)),
    StableHlo.ternary main_v53 main_v55 main_v3 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v56 main_v57 (broadcastInDim S600000x1 ![0] bcast_S600000_S600000x1_0 : (⟨S600000, .i32⟩ : BufTy).Contents (Elt F) → (⟨S600000x1, .i32⟩ : BufTy).Contents (Elt F)),
    StableHlo.binary main_v0 main_v57 main_v58 ((fun x i => Host.gather gather_S1001x128_S600000x1_S600000x128_1_0_n_n_0_1_1128 x i) : (⟨S1001x128, .f32⟩ : BufTy).Contents (Elt F) → (⟨S600000x1, .i32⟩ : BufTy).Contents (Elt F) → (⟨S600000x128, .f32⟩ : BufTy).Contents (Elt F)),
    StableHlo.binary main_v51 main_v58 main_v59 (mulf : (⟨S600000x128, .f32⟩ : BufTy).Contents (Elt F) → (⟨S600000x128, .f32⟩ : BufTy).Contents (Elt F) → (⟨S600000x128, .f32⟩ : BufTy).Contents (Elt F)),
    StableHlo.binary main_v59 main_arg4 main_v60 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_v22 main_v61 (broadcastInDim S600000x1 ![0] bcast_S600000_S600000x1_0 : (⟨S600000, .f32⟩ : BufTy).Contents (Elt F) → (⟨S600000x1, .f32⟩ : BufTy).Contents (Elt F)),
    StableHlo.unary main_v61 main_v62 (broadcastInDim S600000x128 ![0, 1] bcast_S600000x1_S600000x128_0_1 : (⟨S600000x1, .f32⟩ : BufTy).Contents (Elt F) → (⟨S600000x128, .f32⟩ : BufTy).Contents (Elt F)),
    StableHlo.binary main_v60 main_v62 main_v63 (mulf : (⟨S600000x128, .f32⟩ : BufTy).Contents (Elt F) → (⟨S600000x128, .f32⟩ : BufTy).Contents (Elt F) → (⟨S600000x128, .f32⟩ : BufTy).Contents (Elt F)),
    StableHlo.nullary main_cst_16 (constant S_ .f32 0x00000000#32),
    StableHlo.unary main_cst_16 main_v64 (broadcastInDim S100000x128 ![] bcast_S_S100000x128 : (⟨S_, .f32⟩ : BufTy).Contents (Elt F) → (⟨S100000x128, .f32⟩ : BufTy).Contents (Elt F)),
    StableHlo.unary main_v42 main_v65 (broadcastInDim S600000x1 ![0] bcast_S600000_S600000x1_0 : (⟨S600000, .i32⟩ : BufTy).Contents (Elt F) → (⟨S600000x1, .i32⟩ : BufTy).Contents (Elt F)),
    StableHlo.ternary main_v64 main_v65 main_v63 main_v66 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v2 main_v67 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v67 main_v68 rfl shapeCasts_S1x600000_S600000,
    StableHlo.unary main_v2 main_v69 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v69 main_v70 rfl shapeCasts_S1x600000_S600000,
    StableHlo.nullary main_c_17 (constantI S_ 32 0#32),
    StableHlo.unary main_c_17 main_v71 (broadcastInDim S600000 ![] bcast_S_S600000 : (⟨S_, .i32⟩ : BufTy).Contents (Elt F) → (⟨S600000, .i32⟩ : BufTy).Contents (Elt F)),
    StableHlo.binary main_v70 main_v71 main_v72 (cmpi .slt : (⟨S600000, .i32⟩ : BufTy).Contents (Elt F) → (⟨S600000, .i32⟩ : BufTy).Contents (Elt F) → (⟨S600000, .i1⟩ : BufTy).Contents (Elt F)),
    StableHlo.nullary main_c_18 (constantI S_ 32 100000#32),
    StableHlo.unary main_c_18 main_v73 (broadcastInDim S600000 ![] bcast_S_S600000 : (⟨S_, .i32⟩ : BufTy).Contents (Elt F) → (⟨S600000, .i32⟩ : BufTy).Contents (Elt F)),
    StableHlo.binary main_v70 main_v73 main_v74 (addi : (⟨S600000, .i32⟩ : BufTy).Contents (Elt F) → (⟨S600000, .i32⟩ : BufTy).Contents (Elt F) → (⟨S600000, .i32⟩ : BufTy).Contents (Elt F)),
    StableHlo.ternary main_v72 main_v74 main_v70 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v75 main_v76 (broadcastInDim S600000x1 ![0] bcast_S600000_S600000x1_0 : (⟨S600000, .i32⟩ : BufTy).Contents (Elt F) → (⟨S600000x1, .i32⟩ : BufTy).Contents (Elt F)),
    StableHlo.binary main_arg0 main_v76 main_v77 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_19 (constantI S_ 32 0#32),
    StableHlo.unary main_c_19 main_v78 (broadcastInDim S600000 ![] bcast_S_S600000 : (⟨S_, .i32⟩ : BufTy).Contents (Elt F) → (⟨S600000, .i32⟩ : BufTy).Contents (Elt F)),
    StableHlo.binary main_v4 main_v78 main_v79 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 1001#32),
    StableHlo.unary main_c_20 main_v80 (broadcastInDim S600000 ![] bcast_S_S600000 : (⟨S_, .i32⟩ : BufTy).Contents (Elt F) → (⟨S600000, .i32⟩ : BufTy).Contents (Elt F)),
    StableHlo.binary main_v4 main_v80 main_v81 (addi : (⟨S600000, .i32⟩ : BufTy).Contents (Elt F) → (⟨S600000, .i32⟩ : BufTy).Contents (Elt F) → (⟨S600000, .i32⟩ : BufTy).Contents (Elt F)),
    StableHlo.ternary main_v79 main_v81 main_v4 main_v82 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v82 main_v83 (broadcastInDim S600000x1 ![0] bcast_S600000_S600000x1_0 : (⟨S600000, .i32⟩ : BufTy).Contents (Elt F) → (⟨S600000x1, .i32⟩ : BufTy).Contents (Elt F)),
    StableHlo.binary main_v0 main_v83 main_v84 ((fun x i => Host.gather gather_S1001x128_S600000x1_S600000x128_1_0_n_n_0_1_1128 x i) : (⟨S1001x128, .f32⟩ : BufTy).Contents (Elt F) → (⟨S600000x1, .i32⟩ : BufTy).Contents (Elt F) → (⟨S600000x128, .f32⟩ : BufTy).Contents (Elt F)),
    StableHlo.binary main_v77 main_v84 main_v85 (mulf : (⟨S600000x128, .f32⟩ : BufTy).Contents (Elt F) → (⟨S600000x128, .f32⟩ : BufTy).Contents (Elt F) → (⟨S600000x128, .f32⟩ : BufTy).Contents (Elt F)),
    StableHlo.binary main_v85 main_arg5 main_v86 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_v40 main_v87 (broadcastInDim S600000x1 ![0] bcast_S600000_S600000x1_0 : (⟨S600000, .f32⟩ : BufTy).Contents (Elt F) → (⟨S600000x1, .f32⟩ : BufTy).Contents (Elt F)),
    StableHlo.unary main_v87 main_v88 (broadcastInDim S600000x128 ![0, 1] bcast_S600000x1_S600000x128_0_1 : (⟨S600000x1, .f32⟩ : BufTy).Contents (Elt F) → (⟨S600000x128, .f32⟩ : BufTy).Contents (Elt F)),
    StableHlo.binary main_v86 main_v88 main_v89 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v90 (broadcastInDim S100000x128 ![] bcast_S_S100000x128 : (⟨S_, .f32⟩ : BufTy).Contents (Elt F) → (⟨S100000x128, .f32⟩ : BufTy).Contents (Elt F)),
    StableHlo.unary main_v68 main_v91 (broadcastInDim S600000x1 ![0] bcast_S600000_S600000x1_0 : (⟨S600000, .i32⟩ : BufTy).Contents (Elt F) → (⟨S600000x1, .i32⟩ : BufTy).Contents (Elt F)),
    StableHlo.ternary main_v90 main_v91 main_v89 main_v92 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg8 main_v93 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v93 main_v94 (mulf : (⟨S100000x128, .f32⟩ : BufTy).Contents (Elt F) → (⟨S100000x128, .f32⟩ : BufTy).Contents (Elt F) → (⟨S100000x128, .f32⟩ : BufTy).Contents (Elt F)),
    StableHlo.binary main_v94 main_arg7 main_v95 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The third window: the average of the three with the bias added, its column mean and column variance (the third
    call, with its own select inlined), the normalization with scale and shift, and the relation table's projection. -/
abbrev ops2 : List (HloOp τ sig (Elt F)) :=
  [ StableHlo.binary main_v66 main_v92 main_v96 (addf : (⟨S100000x128, .f32⟩ : BufTy).Contents (Elt F) → (⟨S100000x128, .f32⟩ : BufTy).Contents (Elt F) → (⟨S100000x128, .f32⟩ : BufTy).Contents (Elt F)),
    StableHlo.binary main_v96 main_v95 main_v97 (addf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3EAAAAAB#32),
    StableHlo.unary main_cst_22 main_v98 (broadcastInDim S100000x128 ![] bcast_S_S100000x128 : (⟨S_, .f32⟩ : BufTy).Contents (Elt F) → (⟨S100000x128, .f32⟩ : BufTy).Contents (Elt F)),
    StableHlo.binary main_v97 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.binary main_v102 main_cst_23 main_v103 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v104 (broadcastInDim S128 ![] bcast_S_S128 : (⟨S_, .f32⟩ : BufTy).Contents (Elt F) → (⟨S128, .f32⟩ : BufTy).Contents (Elt F)),
    StableHlo.binary main_v103 main_v104 main_v105 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call2.cst (constant S_ .f32 0x00000000#32),
    StableHlo.TRef.binary (StableHlo.TRef.of (T := ⟨S100000x128, .f32⟩) main_v102) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of (T := ⟨S100000x128, .f32⟩) main_v102) main_call2.v4 main_call2.v5 subf,
    StableHlo.TRef.binary main_call2.v5 main_call2.v5 main_call2.v6 mulf,
    StableHlo.TRef.unary (StableHlo.TRef.of (T := ⟨S_, .i32⟩) main_c_25) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v105 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v108 main_v109 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v110 (broadcastInDim S128 ![] bcast_S_S128 : (⟨S_, .f32⟩ : BufTy).Contents (Elt F) → (⟨S128, .f32⟩ : BufTy).Contents (Elt F)),
    StableHlo.binary main_v106 main_v110 main_v111 (addf : (⟨S128, .f32⟩ : BufTy).Contents (Elt F) → (⟨S128, .f32⟩ : BufTy).Contents (Elt F) → (⟨S128, .f32⟩ : BufTy).Contents (Elt F)),
    StableHlo.unary main_v111 main_v112 (Host.rsqrt : (⟨S128, .f32⟩ : BufTy).Contents (Elt F) → (⟨S128, .f32⟩ : BufTy).Contents (Elt F)),
    StableHlo.unary main_v112 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_arg10 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (mulf : (⟨S100000x128, .f32⟩ : BufTy).Contents (Elt F) → (⟨S100000x128, .f32⟩ : BufTy).Contents (Elt F) → (⟨S100000x128, .f32⟩ : BufTy).Contents (Elt F)),
    StableHlo.unary main_arg11 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v120 main_v121 (addf : (⟨S100000x128, .f32⟩ : BufTy).Contents (Elt F) → (⟨S100000x128, .f32⟩ : BufTy).Contents (Elt F) → (⟨S100000x128, .f32⟩ : BufTy).Contents (Elt F)),
    StableHlo.binary main_v0 main_arg6 main_v122 ((fun l r => Host.dotGeneral dot_S1001x128_S128x128_S1001x128_1_0_0_1_n_n none l r) : (⟨S1001x128, .f32⟩ : BufTy).Contents (Elt F) → (⟨S128x128, .f32⟩ : BufTy).Contents (Elt F) → (⟨S1001x128, .f32⟩ : BufTy).Contents (Elt F)),
    StableHlo.unary main_v122 main_v123 ((extractStridedSlice S1000x128 ![0, 0] · slices_S1001x128_S1000x128_0_0) : (⟨S1001x128, .f32⟩ : BufTy).Contents (Elt F) → (⟨S1000x128, .f32⟩ : BufTy).Contents (Elt F)) ]

/-- @main's operations, in order: the three windows one after the other. -/
abbrev ops : List (HloOp τ sig (Elt F)) := ops0 ++ (ops1 ++ ops2)

/-! Each window is the sequential program of its list: unfolding the callees at their calls and reassociating the
    sequencing leaves the same chain of steps on both sides. -/

set_option maxHeartbeats 4000000 in
theorem main_part0_eq (d : Dev nD) : main_part0 (F := F) d = seq ops0 := rfl
set_option maxHeartbeats 4000000 in
theorem main_part1_eq (d : Dev nD) : main_part1 (F := F) d = seq ops1 := rfl
set_option maxHeartbeats 4000000 in
theorem main_part2_eq (d : Dev nD) : main_part2 (F := F) d = seq ops2 := rfl

/-- @main is the sequential program of the whole list. -/
theorem main_eq (d : Dev nD) : main (F := F) d = seq ops := by
  simp only [ops, seq_append, ← main_part0_eq d, ← main_part1_eq d, ← main_part2_eq d]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only. -/
theorem ops0_sub : (ops0 : List (HloOp τ sig (Elt F))).Forall fun op => op.bufs ⊆ tcRefs τ sig :=
  ⟨binary_bufs_sub .., unary_bufs_sub .., unary_bufs_sub .., unary_bufs_sub .., unary_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub ..⟩
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub ..⟩
theorem ops2_sub : (ops2 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxHeartbeats 4000000 in
/-- On every device, for any float values, from any memory with zero counters: every weakly fair execution of @main
    terminates, and every TensorCore buffer ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ

end Cert.ReferenceIdeal.HandRun

end
-- ==== Proof.RefFrame.lean ====
/-
  The reference program leaves its argument arrays unchanged.

  Each window of @main writes a known list of buffers, none of them an argument; a buffer a window does not write
  keeps its contents through it, so each of the twelve arguments keeps its contents through the whole list of
  operations. With the run of the straight line: every weakly fair execution of the reference terminates with its
  arguments unchanged.
-/
import proofs.«133848_j46454366273980_2_alg».proof.Proof.RefOps
import proofs.«133848_j46454366273980_2_alg».proof.Defs
import proofs.«133848_j46454366273980_2_alg».proof.Proof.Gen.Pre_finite_inputs

set_option maxRecDepth 16384
set_option Elab.async false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

/-- A device's buffer contents at the exact-real reading. -/
abbrev Vl : Type := Valuation τ sig (Elt Ideal)

/-- The buffers the first window's operations write. -/
abbrev ops0_W : List (Ref sig .tc) := [main_v0, main_v1, main_v2, main_v3, main_v4, main_v5, main_v6, main_cst, main_v7, main_cst_0, main_v8, main_v9, main_v10, main_cst_1, main_v11, main_v12, main_cst_2, main_v13, main_v14, main_cst_3, main_call0_v0, main_call0_v1, main_v15, main_c, main_v16, main_v17, main_c_4, main_v18, main_v19, main_v20, main_v21, main_v22, main_v23, main_v24, main_cst_5, main_v25, main_cst_6, main_v26, main_v27, main_v28, main_cst_7, main_v29, main_v30, main_cst_8, main_v31, main_v32, main_cst_9, main_call1_v0, main_call1_v1, main_v33, main_c_10, main_v34, main_v35, main_c_11, main_v36, main_v37, main_v38, main_v39, main_v40, main_v41, main_v42, main_v43, main_v44, main_c_12]
theorem ops0_writes : (ops0 : List (HloOp τ sig (Elt Ideal))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the first window does not write keeps its contents through it. -/
theorem keep0 (W : Vl) (r : Ref sig .tc) (h : r ∉ ops0_W) :
    after (ops0 (F := Ideal)) W (Proc.devRef .tc r) = W (Proc.devRef .tc r) :=
  after_of_writes_sub ops0 _ ops0_writes h

/-- The buffers the second window's operations write. -/
abbrev ops1_W : List (Ref sig .tc) := [main_v45, main_v46, main_c_13, main_v47, main_v48, main_v49, main_v50, main_v51, main_c_14, main_v52, main_v53, main_c_15, main_v54, main_v55, main_v56, main_v57, main_v58, main_v59, main_v60, main_v61, main_v62, main_v63, main_cst_16, main_v64, main_v65, main_v66, main_v67, main_v68, main_v69, main_v70, main_c_17, main_v71, main_v72, main_c_18, main_v73, main_v74, main_v75, main_v76, main_v77, main_c_19, main_v78, main_v79, main_c_20, main_v80, main_v81, main_v82, main_v83, main_v84, main_v85, main_v86, main_v87, main_v88, main_v89, main_cst_21, main_v90, main_v91, main_v92, main_v93, main_v94, main_v95]
theorem ops1_writes : (ops1 : List (HloOp τ sig (Elt Ideal))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the second window does not write keeps its contents through it. -/
theorem keep1 (W : Vl) (r : Ref sig .tc) (h : r ∉ ops1_W) :
    after (ops1 (F := Ideal)) W (Proc.devRef .tc r) = W (Proc.devRef .tc r) :=
  after_of_writes_sub ops1 _ ops1_writes h

/-- The buffers the third window's operations write. -/
abbrev ops2_W : List (Ref sig .tc) := [main_v96, main_v97, main_cst_22, main_v98, main_v99, main_v100, main_v101, main_v102, main_cst_23, main_v103, main_cst_24, main_v104, main_v105, main_c_25, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v106, main_v107, main_v108, main_v109, main_cst_26, main_v110, main_v111, main_v112, main_v113, main_v114, main_v115, main_v116, main_v117, main_v118, main_v119, main_v120, main_v121, main_v122, main_v123]
theorem ops2_writes : (ops2 : List (HloOp τ sig (Elt Ideal))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the third window does not write keeps its contents through it. -/
theorem keep2 (W : Vl) (r : Ref sig .tc) (h : r ∉ ops2_W) :
    after (ops2 (F := Ideal)) W (Proc.devRef .tc r) = W (Proc.devRef .tc r) :=
  after_of_writes_sub ops2 _ ops2_writes h

/-- The fold over the whole list is the three windows' folds in turn. -/
theorem after_ops_windows (V : Vl) :
    after (ops (F := Ideal)) V = after (ops2 (F := Ideal)) (after (ops1 (F := Ideal)) (after (ops0 (F := Ideal)) V)) := by
  simp only [ops, after_append]

/-- Argument 0 is unchanged. -/
theorem arg0_eq (V : Vl) : after (ops (F := Ideal)) V (Proc.devRef .tc main_arg0) = V (Proc.devRef .tc main_arg0) := by
  rw [after_ops_windows, keep2 _ main_arg0 (by decide), keep1 _ main_arg0 (by decide), keep0 _ main_arg0 (by decide)]
/-- Argument 1 is unchanged. -/
theorem arg1_eq (V : Vl) : after (ops (F := Ideal)) V (Proc.devRef .tc main_arg1) = V (Proc.devRef .tc main_arg1) := by
  rw [after_ops_windows, keep2 _ main_arg1 (by decide), keep1 _ main_arg1 (by decide), keep0 _ main_arg1 (by decide)]
/-- Argument 2 is unchanged. -/
theorem arg2_eq (V : Vl) : after (ops (F := Ideal)) V (Proc.devRef .tc main_arg2) = V (Proc.devRef .tc main_arg2) := by
  rw [after_ops_windows, keep2 _ main_arg2 (by decide), keep1 _ main_arg2 (by decide), keep0 _ main_arg2 (by decide)]
/-- Argument 3 is unchanged. -/
theorem arg3_eq (V : Vl) : after (ops (F := Ideal)) V (Proc.devRef .tc main_arg3) = V (Proc.devRef .tc main_arg3) := by
  rw [after_ops_windows, keep2 _ main_arg3 (by decide), keep1 _ main_arg3 (by decide), keep0 _ main_arg3 (by decide)]
/-- Argument 4 is unchanged. -/
theorem arg4_eq (V : Vl) : after (ops (F := Ideal)) V (Proc.devRef .tc main_arg4) = V (Proc.devRef .tc main_arg4) := by
  rw [after_ops_windows, keep2 _ main_arg4 (by decide), keep1 _ main_arg4 (by decide), keep0 _ main_arg4 (by decide)]
/-- Argument 5 is unchanged. -/
theorem arg5_eq (V : Vl) : after (ops (F := Ideal)) V (Proc.devRef .tc main_arg5) = V (Proc.devRef .tc main_arg5) := by
  rw [after_ops_windows, keep2 _ main_arg5 (by decide), keep1 _ main_arg5 (by decide), keep0 _ main_arg5 (by decide)]
/-- Argument 6 is unchanged. -/
theorem arg6_eq (V : Vl) : after (ops (F := Ideal)) V (Proc.devRef .tc main_arg6) = V (Proc.devRef .tc main_arg6) := by
  rw [after_ops_windows, keep2 _ main_arg6 (by decide), keep1 _ main_arg6 (by decide), keep0 _ main_arg6 (by decide)]
/-- Argument 7 is unchanged. -/
theorem arg7_eq (V : Vl) : after (ops (F := Ideal)) V (Proc.devRef .tc main_arg7) = V (Proc.devRef .tc main_arg7) := by
  rw [after_ops_windows, keep2 _ main_arg7 (by decide), keep1 _ main_arg7 (by decide), keep0 _ main_arg7 (by decide)]
/-- Argument 8 is unchanged. -/
theorem arg8_eq (V : Vl) : after (ops (F := Ideal)) V (Proc.devRef .tc main_arg8) = V (Proc.devRef .tc main_arg8) := by
  rw [after_ops_windows, keep2 _ main_arg8 (by decide), keep1 _ main_arg8 (by decide), keep0 _ main_arg8 (by decide)]
/-- Argument 9 is unchanged. -/
theorem arg9_eq (V : Vl) : after (ops (F := Ideal)) V (Proc.devRef .tc main_arg9) = V (Proc.devRef .tc main_arg9) := by
  rw [after_ops_windows, keep2 _ main_arg9 (by decide), keep1 _ main_arg9 (by decide), keep0 _ main_arg9 (by decide)]
/-- Argument 10 is unchanged. -/
theorem arg10_eq (V : Vl) : after (ops (F := Ideal)) V (Proc.devRef .tc main_arg10) = V (Proc.devRef .tc main_arg10) := by
  rw [after_ops_windows, keep2 _ main_arg10 (by decide), keep1 _ main_arg10 (by decide), keep0 _ main_arg10 (by decide)]
/-- Argument 11 is unchanged. -/
theorem arg11_eq (V : Vl) : after (ops (F := Ideal)) V (Proc.devRef .tc main_arg11) = V (Proc.devRef .tc main_arg11) := by
  rw [after_ops_windows, keep2 _ main_arg11 (by decide), keep1 _ main_arg11 (by decide), keep0 _ main_arg11 (by decide)]

/-- From any memory with zero counters, every weakly fair execution of the reference terminates with its twelve
    argument arrays unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run m ρ)

/-- The reference's frame: it runs and its arguments end unchanged (the precondition is not needed). -/
theorem frame_ref : Cert.frame_ReferenceIdeal := fun m g _ => frame_run m g

end Cert.ReferenceIdeal.HandRun

end
-- ==== Proof.StagesR.lean ====
/-
  The host stages that the Pallas program and the jnp reference share, as pure functions of the argument arrays at the
  exact-real reading: the relation table with the loop relation appended, the two halves of the edge list and of the
  edge types, an index column, the wrap of a negative index by the axis length, the in-degree of a node as a
  scatter-add of ones, its reciprocal where positive and zero elsewhere, that reciprocal gathered per edge, the rows of
  `x` and of the relation table gathered per edge, and the segment sum of per-edge messages into node rows.
  Each is the composition of the program's own host operations, in the program's order.
-/
import proofs.«133848_j46454366273980_2_alg».proof.ReferenceIdeal
import Idealize.ShloMosaic.PureOps.Ideal

noncomputable section

namespace Cert.ReferenceIdeal.St

open Idealize.ShloMosaic Cert.ReferenceIdeal

variable [Facts]
open Facts₀ Facts

/-- A float array of shape `s` at the exact-real reading. -/
abbrev FA (s : Shape) : Type := FVec Ideal s .f32
/-- A 32-bit integer array of shape `s`. -/
abbrev IA (s : Shape) : Type := IVec s 32

/-- The float scalar with the given bits, spread over shape-`S100000` (one entry per node). -/
def nodeConst (w : BitVec 32) : FA S100000 := broadcastInDim S100000 ![] bcast_S_S100000 (constant (F := Ideal) S_ .f32 w)

/-- The relation table with the loop relation appended as row 1000. -/
def relFull (rel : FA S1000x128) (lr : FA S1x128) : FA S1001x128 :=
  concatenate S1001x128 0 [⟨S1000x128, rel⟩, ⟨S1x128, lr⟩] concatenates_S1000x128_S1x128_S1001x128_d0

/-- Forward edges: columns 0 … 599999 of the edge list. -/
def halfF (ei : IA S2x1200000) : IA S2x600000 := extractStridedSlice S2x600000 ![0, 0] ei slices_S2x1200000_S2x600000_0_0
/-- Reverse edges: columns 600000 … 1199999 of the edge list. -/
def halfR (ei : IA S2x1200000) : IA S2x600000 := extractStridedSlice S2x600000 ![0, 600000] ei slices_S2x1200000_S2x600000_0_600000
/-- Relation types of the forward edges. -/
def typF (et : IA S1200000) : IA S600000 := extractStridedSlice S600000 ![0] et slices_S1200000_S600000_0
/-- Relation types of the reverse edges. -/
def typR (et : IA S1200000) : IA S600000 := extractStridedSlice S600000 ![600000] et slices_S1200000_S600000_600000
/-- Row 0 of a half of the edge list (the node a message is summed into), as a vector. -/
def row0 (h : IA S2x600000) : IA S600000 :=
  shapeCast S600000 (extractStridedSlice S1x600000 ![0, 0] h slices_S2x600000_S1x600000_0_0) shapeCasts_S1x600000_S600000
/-- Row 1 of a half of the edge list (the node whose features are read), as a vector. -/
def row1 (h : IA S2x600000) : IA S600000 :=
  shapeCast S600000 (extractStridedSlice S1x600000 ![1, 0] h slices_S2x600000_S1x600000_1_0) shapeCasts_S1x600000_S600000
/-- An index vector as a one-column index array. -/
def col (v : IA S600000) : IA S600000x1 := broadcastInDim S600000x1 ![0] bcast_S600000_S600000x1_0 v
/-- A negative index wrapped once by the axis length `n`. -/
def wrap (n : BitVec 32) (v : IA S600000) : IA S600000 :=
  select (cmpi .slt v (broadcastInDim S600000 ![] bcast_S_S600000 (constantI S_ 32 0#32)))
    (addi v (broadcastInDim S600000 ![] bcast_S_S600000 (constantI S_ 32 n))) v
/-- The number of edges summed into each node: ones scattered-added at `row`. -/
def deg (row : IA S600000) : FA S100000 :=
  Host.scatterAdd (F := Ideal) scatter_S100000_S600000x1_S600000_n_0_0_1 (nodeConst 0x00000000#32) (col row)
    (broadcastInDim S600000 ![] bcast_S_S600000 (constant (F := Ideal) S_ .f32 0x3F800000#32))
/-- `1 / deg` where the degree is positive, `0` elsewhere. -/
def invDeg (row : IA S600000) : FA S100000 :=
  select (cmpf (F := Ideal) .ogt (deg row) (nodeConst 0x00000000#32)) (Host.divf (F := Ideal) (nodeConst 0x3F800000#32) (deg row))
    (nodeConst 0x00000000#32)
/-- The per-edge scale: the reciprocal in-degree of the edge's target row. -/
def edgeNorm (row : IA S600000) : FA S600000 :=
  Host.gather gather_S100000_S600000x1_S600000_n_0_n_n_0_1_1 (invDeg row) (col (wrap 100000#32 row))
/-- A per-edge scalar repeated along the 128 lanes. -/
def lanes (n : FA S600000) : FA S600000x128 :=
  broadcastInDim S600000x128 ![0, 1] bcast_S600000x1_S600000x128_0_1 (broadcastInDim S600000x1 ![0] bcast_S600000_S600000x1_0 n)
/-- The rows of `x` at the edges' source nodes. -/
def xRows (x : FA S100000x128) (dst : IA S600000) : FA S600000x128 :=
  Host.gather gather_S100000x128_S600000x1_S600000x128_1_0_n_n_0_1_1128 x (col (wrap 100000#32 dst))
/-- The rows of the extended relation table at the edges' types. -/
def relRows (rf : FA S1001x128) (ty : IA S600000) : FA S600000x128 :=
  Host.gather gather_S1001x128_S600000x1_S600000x128_1_0_n_n_0_1_1128 rf (col (wrap 1001#32 ty))
/-- Per-edge messages summed into their target node rows. -/
def segSum (row : IA S600000) (msg : FA S600000x128) : FA S100000x128 :=
  Host.scatterAdd (F := Ideal) scatter_S100000x128_S600000x1_S600000x128_1_0_0_1
    (broadcastInDim S100000x128 ![] bcast_S_S100000x128 (constant (F := Ideal) S_ .f32 0x00000000#32)) (col row) msg

end Cert.ReferenceIdeal.St

end
-- ==== Proof.RefDefs.lean ====
/-
  The remaining stages of the layer as the reference program computes them, continuing the shared host stages, as
  pure functions of arrays at the exact-real reading: a direction's per-edge messages and their segment sum, the
  self-loop projection, the average of the three contributions with the bias, the column mean and the column
  variance of the combined rows, the normalized output, and the relation table's projection. Each is the
  composition of the program's own operations in the program's order.
-/
import proofs.«133848_j46454366273980_2_alg».proof.Proof.StagesR

noncomputable section

namespace Cert.ReferenceIdeal.St

open Idealize.ShloMosaic Cert.ReferenceIdeal

variable [Facts]
open Facts₀ Facts

/-- One direction's per-edge messages: the gathered rows of `x` times the gathered relation rows, lane by lane,
    projected by the direction's weight and scaled by the per-edge reciprocal in-degree. -/
def msgR (xg rg : FA S600000x128) (W : FA S128x128) (n : FA S600000) : FA S600000x128 :=
  mulf (Host.dotGeneral dot_S600000x128_S128x128_S600000x128_1_0_0_1_n_n none (mulf xg rg) W) (lanes n)

/-- One direction's node rows: its messages summed into the rows of the edges' targets. -/
def embR (x : FA S100000x128) (rf : FA S1001x128) (h : IA S2x600000) (ty : IA S600000) (W : FA S128x128) : FA S100000x128 :=
  segSum (row0 h) (msgR (xRows x (row1 h)) (relRows rf ty) W (edgeNorm (row0 h)))

/-- The self-loop rows: `x` times the loop relation, lane by lane, projected by the loop weight. -/
def loopR (x : FA S100000x128) (lr : FA S1x128) (Wl : FA S128x128) : FA S100000x128 :=
  Host.dotGeneral dot_S100000x128_S128x128_S100000x128_1_0_0_1_n_n none
    (mulf x (broadcastInDim S100000x128 ![0, 1] bcast_S1x128_S100000x128_0_1 lr)) Wl

/-- A per-lane vector repeated along the 100000 rows. -/
def rowsOf (v : FA S128) : FA S100000x128 :=
  broadcastInDim S100000x128 ![0, 1] bcast_S1x128_S100000x128_0_1 (broadcastInDim S1x128 ![1] bcast_S128_S1x128_1 v)

/-- The three contributions averaged with the single-precision word of one third, plus the bias. -/
def combR (emb rev loop : FA S100000x128) (bias : FA S128) : FA S100000x128 :=
  addf (mulf (addf (addf emb rev) loop) (broadcastInDim S100000x128 ![] bcast_S_S100000x128 (constant (F := Ideal) S_ .f32 0x3EAAAAAB#32)))
    (rowsOf bias)

/-- The column mean: the column sum over the 100000 rows divided by 100000. -/
def meanR (c : FA S100000x128) : FA S128 :=
  Host.divf (Host.reduceAdd c (constant (F := Ideal) S_ .f32 0x00000000#32) reducesTo_S100000x128_S128_d0 h_S_)
    (broadcastInDim S128 ![] bcast_S_S128 (constant (F := Ideal) S_ .f32 0x47C35000#32))

/-- The column variance as the program computes it: the column sum of squared deviations from the column mean
    (the mean taken on a one-row array), divided by `100000 - 0`, where that count is positive, and the
    not-a-number word elsewhere. -/
def varR (c : FA S100000x128) : FA S128 :=
  select
    (broadcastInDim S128 ![] bcast_S_S128
      (cmpf .ogt (subf (constant (F := Ideal) S_ .f32 0x47C35000#32) (sitofp .f32 (constantI S_ 32 0#32) : FA S_) : FA S_)
        (constant (F := Ideal) S_ .f32 0x00000000#32)))
    (Host.divf
      (Host.reduceAdd
        (mulf
          (subf c (broadcastInDim S100000x128 ![0, 1] bcast_S1x128_S100000x128_0_1
            (Host.divf (broadcastInDim S1x128 ![1] bcast_S128_S1x128_1
                (Host.reduceAdd c (constant (F := Ideal) S_ .f32 0x00000000#32) reducesTo_S100000x128_S128_d0 h_S_))
              (broadcastInDim S1x128 ![] bcast_S_S1x128 (constant (F := Ideal) S_ .f32 0x47C35000#32)))))
          (subf c (broadcastInDim S100000x128 ![0, 1] bcast_S1x128_S100000x128_0_1
            (Host.divf (broadcastInDim S1x128 ![1] bcast_S128_S1x128_1
                (Host.reduceAdd c (constant (F := Ideal) S_ .f32 0x00000000#32) reducesTo_S100000x128_S128_d0 h_S_))
              (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128
        (subf (constant (F := Ideal) S_ .f32 0x47C35000#32) (sitofp .f32 (constantI S_ 32 0#32) : FA S_) : FA S_)))
    (broadcastInDim S128 ![] bcast_S_S128 (constant (F := Ideal) S_ .f32 0x7FC00000#32))

/-- The batch normalization of the combined rows `c`, lane by lane: centred by the column mean, scaled by the
    reciprocal square root of the column variance plus the stabilizer, then by `g`, and shifted by `b`. -/
def normR (c : FA S100000x128) (g b : FA S128) : FA S100000x128 :=
  addf (mulf (mulf (subf c (rowsOf (meanR c)))
      (rowsOf (Host.rsqrt (addf (varR c) (broadcastInDim S128 ![] bcast_S_S128 (constant (F := Ideal) S_ .f32 0x3727C5AC#32))))))
    (rowsOf g)) (rowsOf b)

/-- The layer's first result: the normalized combination of the forward rows, the reverse rows and the self-loop. -/
def outR (x : FA S100000x128) (ei : IA S2x1200000) (et : IA S1200000) (rel : FA S1000x128)
    (Win Wout Wloop : FA S128x128) (lr : FA S1x128) (bias g b : FA S128) : FA S100000x128 :=
  normR (combR (embR x (relFull rel lr) (halfF ei) (typF et) Win) (embR x (relFull rel lr) (halfR ei) (typR et) Wout)
    (loopR x lr Wloop) bias) g b

/-- The layer's second result: the extended relation table projected by the relation weight, without its last row. -/
def relOutR (rel : FA S1000x128) (lr : FA S1x128) (Wrel : FA S128x128) : FA S1000x128 :=
  extractStridedSlice S1000x128 ![0, 0]
    (Host.dotGeneral dot_S1001x128_S128x128_S1001x128_1_0_0_1_n_n none (relFull rel lr) Wrel) slices_S1001x128_S1000x128_0_0

end Cert.ReferenceIdeal.St

end
-- ==== Proof.RefOpsU.lean ====
/-
  The first and third windows of the reference's operations with the inlined callees' operations written, like
  @main's own, over plain references: the typed references of a call's record name literal buffers whose types are
  the values' types, so the conversions between a value's type and its buffer's type are identities and each
  operation equals the plain one.
-/
import proofs.«133848_j46454366273980_2_alg».proof.Proof.RefOps

set_option maxRecDepth 16384
set_option Elab.async false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-- The first window's operations, every one over plain references. -/
abbrev ops0U : List (HloOp τ sig (Elt F)) :=
  [ StableHlo.binary main_arg3 main_arg8 main_v0 ((fun a b => concatenate S1001x128 0 [⟨S1000x128, a⟩, ⟨S1x128, b⟩] concatenates_S1000x128_S1x128_S1001x128_d0) : (⟨S1000x128, .f32⟩ : BufTy).Contents (Elt F) → (⟨S1x128, .f32⟩ : BufTy).Contents (Elt F) → (⟨S1001x128, .f32⟩ : BufTy).Contents (Elt F)),
    StableHlo.unary main_arg1 main_v1 ((extractStridedSlice S2x600000 ![0, 0] · slices_S2x1200000_S2x600000_0_0) : (⟨S2x1200000, .i32⟩ : BufTy).Contents (Elt F) → (⟨S2x600000, .i32⟩ : BufTy).Contents (Elt F)),
    StableHlo.unary main_arg1 main_v2 ((extractStridedSlice S2x600000 ![0, 600000] · slices_S2x1200000_S2x600000_0_600000) : (⟨S2x1200000, .i32⟩ : BufTy).Contents (Elt F) → (⟨S2x600000, .i32⟩ : BufTy).Contents (Elt F)),
    StableHlo.unary main_arg2 main_v3 ((extractStridedSlice S600000 ![0] · slices_S1200000_S600000_0) : (⟨S1200000, .i32⟩ : BufTy).Contents (Elt F) → (⟨S600000, .i32⟩ : BufTy).Contents (Elt F)),
    StableHlo.unary main_arg2 main_v4 ((extractStridedSlice S600000 ![600000] · slices_S1200000_S600000_600000) : (⟨S1200000, .i32⟩ : BufTy).Contents (Elt F) → (⟨S600000, .i32⟩ : BufTy).Contents (Elt F)),
    StableHlo.unary main_v1 main_v5 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v5 main_v6 rfl shapeCasts_S1x600000_S600000,
    StableHlo.nullary main_cst (constant S_ .f32 0x3F800000#32),
    StableHlo.unary main_cst main_v7 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S600000x1 ![0] bcast_S600000_S600000x1_0 : (⟨S600000, .i32⟩ : BufTy).Contents (Elt F) → (⟨S600000x1, .i32⟩ : BufTy).Contents (Elt F)),
    StableHlo.ternary main_v8 main_v9 main_v7 main_v10 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v13 main_v10 main_v14 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v16 (broadcastInDim S600000 ![] bcast_S_S600000 : (⟨S_, .i32⟩ : BufTy).Contents (Elt F) → (⟨S600000, .i32⟩ : BufTy).Contents (Elt F)),
    StableHlo.binary main_v6 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v18 (broadcastInDim S600000 ![] bcast_S_S600000 : (⟨S_, .i32⟩ : BufTy).Contents (Elt F) → (⟨S600000, .i32⟩ : BufTy).Contents (Elt F)),
    StableHlo.binary main_v6 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v6 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_v15 main_v21 main_v22 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v2 main_v23 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v23 main_v24 rfl shapeCasts_S1x600000_S600000,
    StableHlo.nullary main_cst_5 (constant S_ .f32 0x3F800000#32),
    StableHlo.unary main_cst_5 main_v25 (broadcastInDim S600000 ![] bcast_S_S600000 : (⟨S_, .f32⟩ : BufTy).Contents (Elt F) → (⟨S600000, .f32⟩ : BufTy).Contents (Elt F)),
    StableHlo.nullary main_cst_6 (constant S_ .f32 0x00000000#32),
    StableHlo.unary main_cst_6 main_v26 (broadcastInDim S100000 ![] bcast_S_S100000 : (⟨S_, .f32⟩ : BufTy).Contents (Elt F) → (⟨S100000, .f32⟩ : BufTy).Contents (Elt F)),
    StableHlo.unary main_v24 main_v27 (broadcastInDim S600000x1 ![0] bcast_S600000_S600000x1_0 : (⟨S600000, .i32⟩ : BufTy).Contents (Elt F) → (⟨S600000x1, .i32⟩ : BufTy).Contents (Elt F)),
    StableHlo.ternary main_v26 main_v27 main_v25 main_v28 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_7 (constant S_ .f32 0x00000000#32),
    StableHlo.unary main_cst_7 main_v29 (broadcastInDim S100000 ![] bcast_S_S100000 : (⟨S_, .f32⟩ : BufTy).Contents (Elt F) → (⟨S100000, .f32⟩ : BufTy).Contents (Elt F)),
    StableHlo.binary main_v28 main_v29 main_v30 (cmpf .ogt : (⟨S100000, .f32⟩ : BufTy).Contents (Elt F) → (⟨S100000, .f32⟩ : BufTy).Contents (Elt F) → (⟨S100000, .i1⟩ : BufTy).Contents (Elt F)),
    StableHlo.nullary main_cst_8 (constant S_ .f32 0x3F800000#32),
    StableHlo.unary main_cst_8 main_v31 (broadcastInDim S100000 ![] bcast_S_S100000 : (⟨S_, .f32⟩ : BufTy).Contents (Elt F) → (⟨S100000, .f32⟩ : BufTy).Contents (Elt F)),
    StableHlo.binary main_v31 main_v28 main_v32 (Host.divf : (⟨S100000, .f32⟩ : BufTy).Contents (Elt F) → (⟨S100000, .f32⟩ : BufTy).Contents (Elt F) → (⟨S100000, .f32⟩ : BufTy).Contents (Elt F)),
    StableHlo.nullary main_cst_9 (constant S_ .f32 0x00000000#32),
    StableHlo.unary main_cst_9 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v30 main_v32 main_call1_v1 main_v33 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c_10 (constantI S_ 32 0#32),
    StableHlo.unary main_c_10 main_v34 (broadcastInDim S600000 ![] bcast_S_S600000 : (⟨S_, .i32⟩ : BufTy).Contents (Elt F) → (⟨S600000, .i32⟩ : BufTy).Contents (Elt F)),
    StableHlo.binary main_v24 main_v34 main_v35 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v36 (broadcastInDim S600000 ![] bcast_S_S600000 : (⟨S_, .i32⟩ : BufTy).Contents (Elt F) → (⟨S600000, .i32⟩ : BufTy).Contents (Elt F)),
    StableHlo.binary main_v24 main_v36 main_v37 (addi : (⟨S600000, .i32⟩ : BufTy).Contents (Elt F) → (⟨S600000, .i32⟩ : BufTy).Contents (Elt F) → (⟨S600000, .i32⟩ : BufTy).Contents (Elt F)),
    StableHlo.ternary main_v35 main_v37 main_v24 main_v38 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v38 main_v39 (broadcastInDim S600000x1 ![0] bcast_S600000_S600000x1_0 : (⟨S600000, .i32⟩ : BufTy).Contents (Elt F) → (⟨S600000x1, .i32⟩ : BufTy).Contents (Elt F)),
    StableHlo.binary main_v33 main_v39 main_v40 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v1 main_v41 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v41 main_v42 rfl shapeCasts_S1x600000_S600000,
    StableHlo.unary main_v1 main_v43 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v43 main_v44 rfl shapeCasts_S1x600000_S600000,
    StableHlo.nullary main_c_12 (constantI S_ 32 0#32) ]

/-- The third window's operations, every one over plain references. -/
abbrev ops2U : List (HloOp τ sig (Elt F)) :=
  [ StableHlo.binary main_v66 main_v92 main_v96 (addf : (⟨S100000x128, .f32⟩ : BufTy).Contents (Elt F) → (⟨S100000x128, .f32⟩ : BufTy).Contents (Elt F) → (⟨S100000x128, .f32⟩ : BufTy).Contents (Elt F)),
    StableHlo.binary main_v96 main_v95 main_v97 (addf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3EAAAAAB#32),
    StableHlo.unary main_cst_22 main_v98 (broadcastInDim S100000x128 ![] bcast_S_S100000x128 : (⟨S_, .f32⟩ : BufTy).Contents (Elt F) → (⟨S100000x128, .f32⟩ : BufTy).Contents (Elt F)),
    StableHlo.binary main_v97 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.binary main_v102 main_cst_23 main_v103 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v104 (broadcastInDim S128 ![] bcast_S_S128 : (⟨S_, .f32⟩ : BufTy).Contents (Elt F) → (⟨S128, .f32⟩ : BufTy).Contents (Elt F)),
    StableHlo.binary main_v103 main_v104 main_v105 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.nullary main_call2_cst (constant S_ .f32 0x00000000#32),
    StableHlo.binary main_v102 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47C35000#32),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S100000x128 ![0, 1] bcast_S1x128_S100000x128_0_1 : (⟨S1x128, .f32⟩ : BufTy).Contents (Elt F) → (⟨S100000x128, .f32⟩ : BufTy).Contents (Elt F)),
    StableHlo.binary main_v102 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    StableHlo.unary main_c_25 main_call2_v7 (sitofp .f32 : (⟨S_, .i32⟩ : BufTy).Contents (Elt F) → (⟨S_, .f32⟩ : BufTy).Contents (Elt F)),
    StableHlo.nullary main_call2_cst_1 (constant S_ .f32 0x47C35000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v106 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v105 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v108 main_v109 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v110 (broadcastInDim S128 ![] bcast_S_S128 : (⟨S_, .f32⟩ : BufTy).Contents (Elt F) → (⟨S128, .f32⟩ : BufTy).Contents (Elt F)),
    StableHlo.binary main_v106 main_v110 main_v111 (addf : (⟨S128, .f32⟩ : BufTy).Contents (Elt F) → (⟨S128, .f32⟩ : BufTy).Contents (Elt F) → (⟨S128, .f32⟩ : BufTy).Contents (Elt F)),
    StableHlo.unary main_v111 main_v112 (Host.rsqrt : (⟨S128, .f32⟩ : BufTy).Contents (Elt F) → (⟨S128, .f32⟩ : BufTy).Contents (Elt F)),
    StableHlo.unary main_v112 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_arg10 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (mulf : (⟨S100000x128, .f32⟩ : BufTy).Contents (Elt F) → (⟨S100000x128, .f32⟩ : BufTy).Contents (Elt F) → (⟨S100000x128, .f32⟩ : BufTy).Contents (Elt F)),
    StableHlo.unary main_arg11 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v120 main_v121 (addf : (⟨S100000x128, .f32⟩ : BufTy).Contents (Elt F) → (⟨S100000x128, .f32⟩ : BufTy).Contents (Elt F) → (⟨S100000x128, .f32⟩ : BufTy).Contents (Elt F)),
    StableHlo.binary main_v0 main_arg6 main_v122 ((fun l r => Host.dotGeneral dot_S1001x128_S128x128_S1001x128_1_0_0_1_n_n none l r) : (⟨S1001x128, .f32⟩ : BufTy).Contents (Elt F) → (⟨S128x128, .f32⟩ : BufTy).Contents (Elt F) → (⟨S1001x128, .f32⟩ : BufTy).Contents (Elt F)),
    StableHlo.unary main_v122 main_v123 ((extractStridedSlice S1000x128 ![0, 0] · slices_S1001x128_S1000x128_0_0) : (⟨S1001x128, .f32⟩ : BufTy).Contents (Elt F) → (⟨S1000x128, .f32⟩ : BufTy).Contents (Elt F)) ]

set_option maxHeartbeats 4000000 in
theorem ops0_eq : (ops0 : List (HloOp τ sig (Elt F))) = ops0U := rfl
set_option maxHeartbeats 4000000 in
theorem ops2_eq : (ops2 : List (HloOp τ sig (Elt F))) = ops2U := rfl

end Cert.ReferenceIdeal.HandRun

end
-- ==== Proof.RefWin1.lean ====
/-
  The second window of the reference program read at its three results, from any contents before it: each direction's
  node rows — the gathered rows of `x` times the gathered relation rows, projected by the direction's weight, scaled
  per edge by the reciprocal in-degree and summed into the rows of the edges' targets — and the self-loop rows.
  Each is the window's own operations composed in their order, which is how the stage functions are written.
-/
import proofs.«133848_j46454366273980_2_alg».proof.Proof.RefOps
import proofs.«133848_j46454366273980_2_alg».proof.Proof.RefDefs
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.StableHlo

set_option maxHeartbeats 400000 in
/-- The self-loop rows. -/
theorem win1_v95 (W : Valuation τ sig (Elt Ideal)) :
    after (ops1 (F := Ideal)) W (Proc.devRef .tc main_v95)
      = St.loopR (W (Proc.devRef .tc main_arg0)) (W (Proc.devRef .tc main_arg8)) (W (Proc.devRef .tc main_arg7)) := by
  dsimp only [ops1]; after_results_simp <;> rfl

set_option maxHeartbeats 400000 in
/-- The reverse direction's node rows. -/
theorem win1_v92 (W : Valuation τ sig (Elt Ideal)) :
    after (ops1 (F := Ideal)) W (Proc.devRef .tc main_v92)
      = St.segSum (St.row0 (W (Proc.devRef .tc main_v2)))
          (St.msgR (St.xRows (W (Proc.devRef .tc main_arg0)) (St.row1 (W (Proc.devRef .tc main_v2))))
            (St.relRows (W (Proc.devRef .tc main_v0)) (W (Proc.devRef .tc main_v4))) (W (Proc.devRef .tc main_arg5))
            (W (Proc.devRef .tc main_v40))) := by
  dsimp only [ops1]; after_results_simp <;> rfl

set_option maxHeartbeats 400000 in
/-- The forward direction's node rows; the first wrap of this window compares with the integer zero bound before it. -/
theorem win1_v66 (W : Valuation τ sig (Elt Ideal))
    (hc : W (Proc.devRef .tc main_c_12) = (constantI S_ 32 0#32 : St.IA S_)) :
    after (ops1 (F := Ideal)) W (Proc.devRef .tc main_v66)
      = St.segSum (W (Proc.devRef .tc main_v42))
          (St.msgR (St.xRows (W (Proc.devRef .tc main_arg0)) (W (Proc.devRef .tc main_v44)))
            (St.relRows (W (Proc.devRef .tc main_v0)) (W (Proc.devRef .tc main_v3))) (W (Proc.devRef .tc main_arg4))
            (W (Proc.devRef .tc main_v22))) := by
  dsimp only [ops1]; after_results_simp; rw [hc] <;> rfl

end Cert.ReferenceIdeal.HandRun

end
-- ==== Proof.RefWin2.lean ====
import proofs.«133848_j46454366273980_2_alg».proof.Proof.RefOps
import proofs.«133848_j46454366273980_2_alg».proof.Proof.RefDefs
import Idealize.ShloMosaic.Lib.StableHlo.Run

/-!
# The third window of the reference, read as two whole-array terms

The window's operations, run in order from any contents, leave in the first result's buffer the batch
normalization of the averaged, biased rows, and in the second result's buffer rows 0 … 999 of the
product of the extended relation table with its weight. Each buffer is written once, so the contents of a
buffer after the window is the composition of the operations that lead to it; the outlined variance is
the same composition over its own buffers, whose contents pass through unchanged.
-/

set_option maxRecDepth 16384
set_option Elab.async false

noncomputable section

namespace Cert.ReferenceIdeal.HandRun

open Cert.ReferenceIdeal Cert.ReferenceIdeal.Facts₀ Idealize.ShloMosaic Idealize.ShloMosaic.StableHlo

/-- Contents moved to a buffer's own type and back are the contents. -/
theorem ofBuf_toBuf {Val : EltTy → Type} {T : BufTy} (x : TRef sig T) (v : T.Contents Val) :
    x.ofBuf (x.toBuf v) = v := by
  unfold TRef.ofBuf TRef.toBuf
  simp only [cast_cast, cast_eq]

set_option maxHeartbeats 400000 in
/-- The second result's buffer after the window: rows 0 … 999 of the product of the extended relation table
    with the relation weight. -/
theorem win2_v123 (W : Valuation τ sig (Elt Ideal)) :
    after (ops2 (F := Ideal)) W (Proc.devRef .tc main_v123)
      = (extractStridedSlice S1000x128 ![0, 0]
          (Host.dotGeneral (F := Ideal) (φ₁ := .f32) (φ₂ := .f32) dot_S1001x128_S128x128_S1001x128_1_0_0_1_n_n none
            (W (Proc.devRef .tc main_v0) : St.FA S1001x128) (W (Proc.devRef .tc main_arg6) : St.FA S128x128))
          slices_S1001x128_S1000x128_0_0 : St.FA S1000x128) := by
  simp only [ops2]; after_results_simp

attribute [local irreducible] Host.reduceAdd Host.divf Host.rsqrt select cmpf sitofp addf mulf subf
  broadcastInDim constant constantI in
set_option maxHeartbeats 400000 in
/-- The first result's buffer after the window: the normalized combination of the three contributions. -/
theorem win2_v121 (W : Valuation τ sig (Elt Ideal)) :
    after (ops2 (F := Ideal)) W (Proc.devRef .tc main_v121)
      = St.normR (St.combR (W (Proc.devRef .tc main_v66)) (W (Proc.devRef .tc main_v92)) (W (Proc.devRef .tc main_v95))
          (W (Proc.devRef .tc main_arg9))) (W (Proc.devRef .tc main_arg10)) (W (Proc.devRef .tc main_arg11)) := by
  simp only [ops2]; after_results_simp
  simp only [ofBuf_toBuf, id]
  simp only [St.normR, St.combR, St.meanR, St.varR, St.rowsOf]
  rfl

end Cert.ReferenceIdeal.HandRun

end
-- ==== Proof.RefValue.lean ====
/-
  What the reference program computes, as terms of its argument arrays at the exact-real reading.

  The fold of @main's operations is read window by window. After the first window the extended relation table,
  the halves of the edge list and of the edge types, the forward index rows and both per-edge scales are in
  place; after the second, the forward rows, the reverse rows and the self-loop rows; the third combines and
  normalizes them and projects the relation table. A buffer a window does not write keeps its contents, so each
  value reaches the window that reads it. Joined, the two results are `outR` and `relOutR` of the arguments and the
  twelve arguments are unchanged; with the run of the straight line this is the statement about every weakly
  fair execution.
-/
import proofs.«133848_j46454366273980_2_alg».proof.Proof.RefFrame
import proofs.«133848_j46454366273980_2_alg».proof.Proof.RefDefs
import proofs.«133848_j46454366273980_2_alg».proof.Proof.RefOpsU
import proofs.«133848_j46454366273980_2_alg».proof.Proof.RefWin1
import proofs.«133848_j46454366273980_2_alg».proof.Proof.RefWin2

set_option maxRecDepth 16384
set_option Elab.async false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

/-! ### The first window's plain values, from any contents -/

set_option maxHeartbeats 1000000 in
/-- The extended relation table. -/
theorem win0_v0 (W : Vl) : after (ops0 (F := Ideal)) W (Proc.devRef .tc main_v0) = St.relFull (W (Proc.devRef .tc main_arg3)) (W (Proc.devRef .tc main_arg8)) := by
  simp only [ops0]; after_results_simp <;> rfl
set_option maxHeartbeats 1000000 in
/-- The reverse half of the edge list. -/
theorem win0_v2 (W : Vl) : after (ops0 (F := Ideal)) W (Proc.devRef .tc main_v2) = St.halfR (W (Proc.devRef .tc main_arg1)) := by
  simp only [ops0]; after_results_simp <;> rfl
set_option maxHeartbeats 1000000 in
/-- The forward edges' types. -/
theorem win0_v3 (W : Vl) : after (ops0 (F := Ideal)) W (Proc.devRef .tc main_v3) = St.typF (W (Proc.devRef .tc main_arg2)) := by
  simp only [ops0]; after_results_simp <;> rfl
set_option maxHeartbeats 1000000 in
/-- The reverse edges' types. -/
theorem win0_v4 (W : Vl) : after (ops0 (F := Ideal)) W (Proc.devRef .tc main_v4) = St.typR (W (Proc.devRef .tc main_arg2)) := by
  simp only [ops0]; after_results_simp <;> rfl
set_option maxHeartbeats 1000000 in
/-- The forward edges' target rows. -/
theorem win0_v42 (W : Vl) : after (ops0 (F := Ideal)) W (Proc.devRef .tc main_v42) = St.row0 (St.halfF (W (Proc.devRef .tc main_arg1))) := by
  simp only [ops0]; after_results_simp <;> rfl
set_option maxHeartbeats 1000000 in
/-- The forward edges' source rows. -/
theorem win0_v44 (W : Vl) : after (ops0 (F := Ideal)) W (Proc.devRef .tc main_v44) = St.row1 (St.halfF (W (Proc.devRef .tc main_arg1))) := by
  simp only [ops0]; after_results_simp <;> rfl
set_option maxHeartbeats 1000000 in
/-- The integer zero the second window's first line broadcasts. -/
theorem win0_c12 (W : Vl) : after (ops0 (F := Ideal)) W (Proc.devRef .tc main_c_12) = (constantI S_ 32 0#32 : St.IA S_) := by
  simp only [ops0]; after_results_simp <;> rfl

/-! ### The first window's per-edge scales, from any contents

The two selects the window calls are read over plain references (`ops0_eq`), where the conversions between a
value's type and its buffer's type have disappeared. -/

set_option maxHeartbeats 1000000 in
/-- The forward edges' scale: the reciprocal in-degree of each edge's target, gathered per edge. -/
theorem win0_v22 (W : Vl) : after (ops0 (F := Ideal)) W (Proc.devRef .tc main_v22)
    = St.edgeNorm (St.row0 (St.halfF (W (Proc.devRef .tc main_arg1)))) := by
  rw [ops0_eq]; simp only [ops0U]; after_results_simp <;> rfl
set_option maxHeartbeats 1000000 in
/-- The reverse edges' scale. -/
theorem win0_v40 (W : Vl) : after (ops0 (F := Ideal)) W (Proc.devRef .tc main_v40)
    = St.edgeNorm (St.row0 (St.halfR (W (Proc.devRef .tc main_arg1)))) := by
  rw [ops0_eq]; simp only [ops0U]; after_results_simp <;> rfl

/-! ### The contents after each window -/

/-- The contents after the first window. -/
def val1 (V : Vl) : Vl := after (ops0 (F := Ideal)) V
/-- The contents after the first two windows. -/
def val2 (V : Vl) : Vl := after (ops1 (F := Ideal)) (val1 V)
/-- The contents after all three windows. -/
def val3 (V : Vl) : Vl := after (ops2 (F := Ideal)) (val2 V)

/-- The fold over the whole list is the three windows' folds in turn. -/
theorem after_ops (V : Vl) : after (ops (F := Ideal)) V = val3 V := after_ops_windows V

theorem val1_arg0 (V : Vl) : val1 V (Proc.devRef .tc main_arg0) = V (Proc.devRef .tc main_arg0) := keep0 V main_arg0 (by decide)
theorem val1_arg1 (V : Vl) : val1 V (Proc.devRef .tc main_arg1) = V (Proc.devRef .tc main_arg1) := keep0 V main_arg1 (by decide)
theorem val1_arg2 (V : Vl) : val1 V (Proc.devRef .tc main_arg2) = V (Proc.devRef .tc main_arg2) := keep0 V main_arg2 (by decide)
theorem val1_arg3 (V : Vl) : val1 V (Proc.devRef .tc main_arg3) = V (Proc.devRef .tc main_arg3) := keep0 V main_arg3 (by decide)
theorem val1_arg4 (V : Vl) : val1 V (Proc.devRef .tc main_arg4) = V (Proc.devRef .tc main_arg4) := keep0 V main_arg4 (by decide)
theorem val1_arg5 (V : Vl) : val1 V (Proc.devRef .tc main_arg5) = V (Proc.devRef .tc main_arg5) := keep0 V main_arg5 (by decide)
theorem val1_arg6 (V : Vl) : val1 V (Proc.devRef .tc main_arg6) = V (Proc.devRef .tc main_arg6) := keep0 V main_arg6 (by decide)
theorem val1_arg7 (V : Vl) : val1 V (Proc.devRef .tc main_arg7) = V (Proc.devRef .tc main_arg7) := keep0 V main_arg7 (by decide)
theorem val1_arg8 (V : Vl) : val1 V (Proc.devRef .tc main_arg8) = V (Proc.devRef .tc main_arg8) := keep0 V main_arg8 (by decide)
theorem val1_arg9 (V : Vl) : val1 V (Proc.devRef .tc main_arg9) = V (Proc.devRef .tc main_arg9) := keep0 V main_arg9 (by decide)
theorem val1_arg10 (V : Vl) : val1 V (Proc.devRef .tc main_arg10) = V (Proc.devRef .tc main_arg10) := keep0 V main_arg10 (by decide)
theorem val1_arg11 (V : Vl) : val1 V (Proc.devRef .tc main_arg11) = V (Proc.devRef .tc main_arg11) := keep0 V main_arg11 (by decide)
theorem val2_arg0 (V : Vl) : val2 V (Proc.devRef .tc main_arg0) = V (Proc.devRef .tc main_arg0) :=
  (keep1 (val1 V) main_arg0 (by decide)).trans (val1_arg0 V)
theorem val2_arg1 (V : Vl) : val2 V (Proc.devRef .tc main_arg1) = V (Proc.devRef .tc main_arg1) :=
  (keep1 (val1 V) main_arg1 (by decide)).trans (val1_arg1 V)
theorem val2_arg2 (V : Vl) : val2 V (Proc.devRef .tc main_arg2) = V (Proc.devRef .tc main_arg2) :=
  (keep1 (val1 V) main_arg2 (by decide)).trans (val1_arg2 V)
theorem val2_arg3 (V : Vl) : val2 V (Proc.devRef .tc main_arg3) = V (Proc.devRef .tc main_arg3) :=
  (keep1 (val1 V) main_arg3 (by decide)).trans (val1_arg3 V)
theorem val2_arg4 (V : Vl) : val2 V (Proc.devRef .tc main_arg4) = V (Proc.devRef .tc main_arg4) :=
  (keep1 (val1 V) main_arg4 (by decide)).trans (val1_arg4 V)
theorem val2_arg5 (V : Vl) : val2 V (Proc.devRef .tc main_arg5) = V (Proc.devRef .tc main_arg5) :=
  (keep1 (val1 V) main_arg5 (by decide)).trans (val1_arg5 V)
theorem val2_arg6 (V : Vl) : val2 V (Proc.devRef .tc main_arg6) = V (Proc.devRef .tc main_arg6) :=
  (keep1 (val1 V) main_arg6 (by decide)).trans (val1_arg6 V)
theorem val2_arg7 (V : Vl) : val2 V (Proc.devRef .tc main_arg7) = V (Proc.devRef .tc main_arg7) :=
  (keep1 (val1 V) main_arg7 (by decide)).trans (val1_arg7 V)
theorem val2_arg8 (V : Vl) : val2 V (Proc.devRef .tc main_arg8) = V (Proc.devRef .tc main_arg8) :=
  (keep1 (val1 V) main_arg8 (by decide)).trans (val1_arg8 V)
theorem val2_arg9 (V : Vl) : val2 V (Proc.devRef .tc main_arg9) = V (Proc.devRef .tc main_arg9) :=
  (keep1 (val1 V) main_arg9 (by decide)).trans (val1_arg9 V)
theorem val2_arg10 (V : Vl) : val2 V (Proc.devRef .tc main_arg10) = V (Proc.devRef .tc main_arg10) :=
  (keep1 (val1 V) main_arg10 (by decide)).trans (val1_arg10 V)
theorem val2_arg11 (V : Vl) : val2 V (Proc.devRef .tc main_arg11) = V (Proc.devRef .tc main_arg11) :=
  (keep1 (val1 V) main_arg11 (by decide)).trans (val1_arg11 V)

theorem val1_v0 (V : Vl) : val1 V (Proc.devRef .tc main_v0) = St.relFull (V (Proc.devRef .tc main_arg3)) (V (Proc.devRef .tc main_arg8)) := win0_v0 V
theorem val1_v2 (V : Vl) : val1 V (Proc.devRef .tc main_v2) = St.halfR (V (Proc.devRef .tc main_arg1)) := win0_v2 V
theorem val1_v3 (V : Vl) : val1 V (Proc.devRef .tc main_v3) = St.typF (V (Proc.devRef .tc main_arg2)) := win0_v3 V
theorem val1_v4 (V : Vl) : val1 V (Proc.devRef .tc main_v4) = St.typR (V (Proc.devRef .tc main_arg2)) := win0_v4 V
theorem val1_v22 (V : Vl) : val1 V (Proc.devRef .tc main_v22) = St.edgeNorm (St.row0 (St.halfF (V (Proc.devRef .tc main_arg1)))) := win0_v22 V
theorem val1_v40 (V : Vl) : val1 V (Proc.devRef .tc main_v40) = St.edgeNorm (St.row0 (St.halfR (V (Proc.devRef .tc main_arg1)))) := win0_v40 V
theorem val1_v42 (V : Vl) : val1 V (Proc.devRef .tc main_v42) = St.row0 (St.halfF (V (Proc.devRef .tc main_arg1))) := win0_v42 V
theorem val1_v44 (V : Vl) : val1 V (Proc.devRef .tc main_v44) = St.row1 (St.halfF (V (Proc.devRef .tc main_arg1))) := win0_v44 V
theorem val1_c12 (V : Vl) : val1 V (Proc.devRef .tc main_c_12) = (constantI S_ 32 0#32 : St.IA S_) := win0_c12 V

/-- The extended relation table is still in place after the second window. -/
theorem val2_v0 (V : Vl) : val2 V (Proc.devRef .tc main_v0) = St.relFull (V (Proc.devRef .tc main_arg3)) (V (Proc.devRef .tc main_arg8)) :=
  (keep1 (val1 V) main_v0 (by decide)).trans (val1_v0 V)
/-- The forward rows. -/
theorem val2_v66 (V : Vl) : val2 V (Proc.devRef .tc main_v66)
    = St.embR (V (Proc.devRef .tc main_arg0)) (St.relFull (V (Proc.devRef .tc main_arg3)) (V (Proc.devRef .tc main_arg8))) (St.halfF (V (Proc.devRef .tc main_arg1))) (St.typF (V (Proc.devRef .tc main_arg2))) (V (Proc.devRef .tc main_arg4)) := by
  unfold val2
  rw [win1_v66 (val1 V) (val1_c12 V), val1_v42, val1_v44, val1_v0, val1_v3, val1_v22, val1_arg0, val1_arg4]
  rfl
/-- The reverse rows. -/
theorem val2_v92 (V : Vl) : val2 V (Proc.devRef .tc main_v92)
    = St.embR (V (Proc.devRef .tc main_arg0)) (St.relFull (V (Proc.devRef .tc main_arg3)) (V (Proc.devRef .tc main_arg8))) (St.halfR (V (Proc.devRef .tc main_arg1))) (St.typR (V (Proc.devRef .tc main_arg2))) (V (Proc.devRef .tc main_arg5)) := by
  unfold val2
  rw [win1_v92 (val1 V), val1_v2, val1_v0, val1_v4, val1_v40, val1_arg0, val1_arg5]
  rfl
/-- The self-loop rows. -/
theorem val2_v95 (V : Vl) : val2 V (Proc.devRef .tc main_v95) = St.loopR (V (Proc.devRef .tc main_arg0)) (V (Proc.devRef .tc main_arg8)) (V (Proc.devRef .tc main_arg7)) := by
  unfold val2
  rw [win1_v95 (val1 V), val1_arg0, val1_arg8, val1_arg7]

/-- The first result is `outR` of the arguments. -/
theorem val3_v121 (V : Vl) : val3 V (Proc.devRef .tc main_v121) = St.outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) := by
  unfold val3
  rw [win2_v121 (val2 V), val2_v66, val2_v92, val2_v95, val2_arg9, val2_arg10, val2_arg11]
  rfl
/-- The second result is `relOutR` of the arguments. -/
theorem val3_v123 (V : Vl) : val3 V (Proc.devRef .tc main_v123) = St.relOutR (V (Proc.devRef .tc main_arg3)) (V (Proc.devRef .tc main_arg8)) (V (Proc.devRef .tc main_arg6)) := by
  unfold val3
  rw [win2_v123 (val2 V), val2_v0, val2_arg6]
  rfl

/-! ### The fold over the whole list -/

/-- The first result is `outR` of the arguments. -/
theorem out_eq (V : Vl) : after (ops (F := Ideal)) V (Proc.devRef .tc main_v121) = St.outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) := by
  rw [after_ops]; exact val3_v121 V
/-- The second result is `relOutR` of the arguments. -/
theorem relOut_eq (V : Vl) : after (ops (F := Ideal)) V (Proc.devRef .tc main_v123)
    = St.relOutR (V (Proc.devRef .tc main_arg3)) (V (Proc.devRef .tc main_arg8)) (V (Proc.devRef .tc main_arg6)) := by
  rw [after_ops]; exact val3_v123 V

/-! ### Every weakly fair execution -/

/-- From any memory with zero counters, every weakly fair execution of the reference terminates with the first
    result at `outR` and the second at `relOutR` of the launch contents of the arguments, and the arguments unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v121) = St.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v123) = St.relOutR (m ((c.tc : Thread nD τ).loc main_arg3)) (m ((c.tc : Thread nD τ).loc main_arg8)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v121).trans (out_eq (launchContents m c)),
      (h c main_v123).trans (relOut_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run m ρ)

end Cert.ReferenceIdeal.HandRun

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.PreReal.lean ====
import proofs.«133848_j46454366273980_2_alg».proof.Defs
import proofs.«133848_j46454366273980_2_alg».proof.Proof.LibRealOps
import Idealize.ShloMosaic.Lib.ReduceAll

/-!
# From the finiteness precondition to real entries

The precondition says of each float argument x that the conjunction, over every index, of the
comparisons |x i| < +inf is the bit 1. At the ideal instance a float is an extended real, the
absolute value is max x (-x), and the word 0x7F800000 denotes the top element. So each comparison
says max (x i) (-(x i)) < ⊤, which excludes both infinities: x i is a real number.
-/

set_option maxRecDepth 16384

open Idealize Idealize.ShloMosaic Idealize.SL.Sem

namespace Cert.Proof.PreReal

open Cert.Proof.RealOps

/-- An extended real whose absolute value max a (-a) lies below the top element is a real number:
    at the top element the maximum is ⊤, and at the bottom element -⊥ = ⊤ makes it ⊤ as well. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The word of the float +inf denotes the top element. -/
theorem ofBits_inf_f32 : Ideal.ofBits .f32 0x7F800000#32 = ⊤ := by
  simp [Ideal.ofBits, Ideal.ieee]

/-- The comparison bit of x < y is 1 exactly when x < y. -/
theorem cmp_olt_eq_one {x y : EReal} (h : Ideal.cmp .olt x y = 1#1) : x < y := by
  by_contra hn
  simp [Ideal.cmp, hn] at h

/-- The rank-zero shape has one index: there is no axis to give a coordinate for. -/
instance subsingleton_scalarIdx : Subsingleton (⟨0, ![]⟩ : Shape).Idx :=
  ⟨fun a b => funext fun d => d.elim0⟩

/-- That one index. -/
abbrev scalarIdx : (⟨0, ![]⟩ : Shape).Idx := fun a => a.elim0

/-- One conjunct of the precondition: if the conjunction over all indices of |x i| < +inf is 1,
    every entry of x is a real number. Any shape s, any list of reduced axes leaving the scalar shape. -/
theorem allReal_of_all_abs_lt_inf {s : Shape} {axes : List (Fin s.rank)}
    (hb : (⟨0, ![]⟩ : Shape).BroadcastsInDim s (![] : Fin 0 → Fin s.rank))
    (hr : s.ReducesTo axes (⟨0, ![]⟩ : Shape)) (h0 : 0 < (⟨0, ![]⟩ : Shape).numel)
    (x : FVec Ideal s .f32)
    (h : Host.reduce IntOp.andi
          (cmpf (F := Ideal) .olt (Host.absf x)
            (broadcastInDim s ![] hb (constant (⟨0, ![]⟩ : Shape) .f32 0x7F800000#32)))
          (constantI (⟨0, ![]⟩ : Shape) 1 1#1) hr h0 = (fun _ => 1#1)) :
    AllReal x := by
  intro i
  have e := Host.reduce_andi_all _ _ hr h0 scalarIdx (congrFun h scalarIdx) i
  have e' : Ideal.cmp .olt (max (x i) (-(x i))) (Ideal.ofBits .f32 0x7F800000#32) = 1#1 := e
  rw [ofBits_inf_f32] at e'
  exact real_of_abs_lt_top (x i) (cmp_olt_eq_one e')

open Cert.Pre_finite_inputs in
/-- The whole precondition, conjunct by conjunct: each of the ten float arguments is all real. -/
theorem allReal_of_fn [Cert.Pre_finite_inputs.Facts]
    {a0 : FVec Ideal S100000x128 .f32} {a1 : IVec S2x1200000 32} {a2 : IVec S1200000 32}
    {a3 : FVec Ideal S1000x128 .f32} {a4 a5 a6 a7 : FVec Ideal S128x128 .f32}
    {a8 : FVec Ideal S1x128 .f32} {a9 a10 a11 : FVec Ideal S128 .f32}
    (h : Cert.Pre_finite_inputs.fn (F := Ideal) a0 a1 a2 a3 a4 a5 a6 a7 a8 a9 a10 a11 = (fun _ => 1#1)) :
    AllReal a0 ∧ AllReal a3 ∧ AllReal a4 ∧ AllReal a5 ∧ AllReal a6 ∧ AllReal a7 ∧ AllReal a8
      ∧ AllReal a9 ∧ AllReal a10 ∧ AllReal a11 := by
  have h1 := congrFun h scalarIdx
  dsimp only [Cert.Pre_finite_inputs.fn, Cert.Pre_finite_inputs.fn_part1, Cert.Pre_finite_inputs.fn_part2,
    ShloMosaic.andi] at h1
  obtain ⟨h1, c11⟩ := IntOp.andi_eq_one.1 h1
  obtain ⟨h1, c10⟩ := IntOp.andi_eq_one.1 h1
  obtain ⟨h1, c9⟩ := IntOp.andi_eq_one.1 h1
  obtain ⟨h1, c8⟩ := IntOp.andi_eq_one.1 h1
  obtain ⟨h1, c7⟩ := IntOp.andi_eq_one.1 h1
  obtain ⟨h1, c6⟩ := IntOp.andi_eq_one.1 h1
  obtain ⟨h1, c5⟩ := IntOp.andi_eq_one.1 h1
  obtain ⟨h1, c4⟩ := IntOp.andi_eq_one.1 h1
  obtain ⟨c0, c3⟩ := IntOp.andi_eq_one.1 h1
  have lift : ∀ {v : IVec S_ 1}, v scalarIdx = 1#1 → v = (fun _ => 1#1) :=
    fun {v} hv => funext fun j => by rw [Subsingleton.elim j scalarIdx]; exact hv
  exact ⟨allReal_of_all_abs_lt_inf _ _ _ a0 (lift c0), allReal_of_all_abs_lt_inf _ _ _ a3 (lift c3),
    allReal_of_all_abs_lt_inf _ _ _ a4 (lift c4), allReal_of_all_abs_lt_inf _ _ _ a5 (lift c5),
    allReal_of_all_abs_lt_inf _ _ _ a6 (lift c6), allReal_of_all_abs_lt_inf _ _ _ a7 (lift c7),
    allReal_of_all_abs_lt_inf _ _ _ a8 (lift c8), allReal_of_all_abs_lt_inf _ _ _ a9 (lift c9),
    allReal_of_all_abs_lt_inf _ _ _ a10 (lift c10), allReal_of_all_abs_lt_inf _ _ _ a11 (lift c11)⟩

/-- The precondition of the idealized kernel: on every core each float argument array is all real. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11)) :=
  allReal_of_fn (h c)

end Cert.Proof.PreReal
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.Reads.lean ====
import proofs.«133848_j46454366273980_2_alg».proof.Proof.StagesK
import proofs.«133848_j46454366273980_2_alg».proof.Proof.StagesR
import proofs.«133848_j46454366273980_2_alg».proof.Proof.KerValue
import proofs.«133848_j46454366273980_2_alg».proof.Proof.LayerSpec
import proofs.«133848_j46454366273980_2_alg».proof.Proof.LibMatProd
import proofs.«133848_j46454366273980_2_alg».proof.Proof.LibRowOps
import proofs.«133848_j46454366273980_2_alg».proof.Proof.LibKeepdims
import proofs.«133848_j46454366273980_2_alg».proof.Proof.LibRealOps
import proofs.«133848_j46454366273980_2_alg».proof.Proof.Gen.KernelIdeal
import proofs.«133848_j46454366273980_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# The whole-array operations of the two result terms, read at an index

Both programs build their results from the same few whole-array operations. Read at an index over the
extended reals they are: a column sum over the 100000 node rows (the zero it starts from dropped), a matrix
product as the plain sum over the 128 contracted lanes, a vector repeated along rows or along lanes, a
one-row array made of a vector, and a scalar spread over a shape. With these the second result of the
two programs is the same function: the first 1000 rows of the product of the 1001-row table are the product
of its first 1000 rows, because row p of a product reads only row p of the left factor.
-/

set_option maxRecDepth 16384

noncomputable section

namespace Cert.Proof.Reads

open Idealize.ShloMosaic Idealize.ShloMosaic.ValueIdx

variable [Cert.KernelIdeal.Facts] [Cert.ReferenceIdeal.Facts]

/-! ## 1. A column sum -/

/-- The host's sum over the FIRST axis of an [a, b] array, at lane q: the initial value plus the sum of
    the column. -/
theorem hostColSum_apply {a b : ℕ} {φ : FTy} (x : FVec Ideal ⟨2, ![a, b]⟩ φ) (init : (⟨0, ![]⟩ : Shape).Idx → Ideal φ)
    (h' : (⟨2, ![a, b]⟩ : Shape).ReducesTo [0] ⟨1, ![b]⟩) (hu : 0 < (⟨0, ![]⟩ : Shape).numel)
    (h : (⟨2, ![a, b]⟩ : Shape).Reduces [0] ⟨1, ![b]⟩) (q : Fin b) :
    Host.reduceAdd x init h' hu (ix1 q) = init ix0 + ∑ n : Fin a, x (ix2 n q) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-- The column sum of the node rows from the zero word: the sum over the 100000 rows. -/
theorem colSum_apply (c : Cert.ReferenceIdeal.St.FA Cert.ReferenceIdeal.S100000x128) (q : Fin 128) :
    Host.reduceAdd c (constant (F := Ideal) Cert.ReferenceIdeal.S_ .f32 0x00000000#32)
        Cert.ReferenceIdeal.Facts₀.reducesTo_S100000x128_S128_d0 Cert.ReferenceIdeal.Facts₀.h_S_ (ix1 q)
      = ∑ n : Fin 100000, c (ix2 n q) := by
  have hR : (⟨2, ![100000, 128]⟩ : Shape).Reduces [0] ⟨1, ![128]⟩ := by decide
  rw [hostColSum_apply c _ _ _ hR q, Cert.Proof.RealOps.constant_zero_apply, zero_add]

/-! ## 2. The three matrix products of the reference -/

/-- The host's product of a 600000×128 array with a 128×128 array is the plain sum over the contracted lane. -/
theorem dot600000_eq_prod (l : Cert.ReferenceIdeal.St.FA Cert.ReferenceIdeal.S600000x128) (r : Cert.ReferenceIdeal.St.FA Cert.ReferenceIdeal.S128x128) :
    Host.dotGeneral (F := Ideal) Cert.ReferenceIdeal.dot_S600000x128_S128x128_S600000x128_1_0_0_1_n_n none l r
      = Cert.Gcn.Dense.prod (M := 600000) (K := 128) (N := 128) l r := by
  funext i
  simp only [Host.dotGeneral]
  rw [Ideal.dotGeneral_apply]
  exact Cert.Gcn.Dense.sum_contr_eq_prod Cert.ReferenceIdeal.dot_S600000x128_S128x128_S600000x128_1_0_0_1_n_n rfl rfl
    (fun _ _ => rfl)
    (fun i q => (Cert.ReferenceIdeal.dot_S600000x128_S128x128_S600000x128_1_0_0_1_n_n).lhsIdx_val_of_single rfl i q)
    (fun i q => (Cert.ReferenceIdeal.dot_S600000x128_S128x128_S600000x128_1_0_0_1_n_n).rhsIdx_val_of_single rfl i q)
    (fun _ _ => rfl) l r i

/-- The host's product of a 100000×128 array with a 128×128 array is the plain sum over the contracted lane. -/
theorem dot100000_eq_prod (l : Cert.ReferenceIdeal.St.FA Cert.ReferenceIdeal.S100000x128) (r : Cert.ReferenceIdeal.St.FA Cert.ReferenceIdeal.S128x128) :
    Host.dotGeneral (F := Ideal) Cert.ReferenceIdeal.dot_S100000x128_S128x128_S100000x128_1_0_0_1_n_n none l r
      = Cert.Gcn.Dense.prod (M := 100000) (K := 128) (N := 128) l r := by
  funext i
  simp only [Host.dotGeneral]
  rw [Ideal.dotGeneral_apply]
  exact Cert.Gcn.Dense.sum_contr_eq_prod Cert.ReferenceIdeal.dot_S100000x128_S128x128_S100000x128_1_0_0_1_n_n rfl rfl
    (fun _ _ => rfl)
    (fun i q => (Cert.ReferenceIdeal.dot_S100000x128_S128x128_S100000x128_1_0_0_1_n_n).lhsIdx_val_of_single rfl i q)
    (fun i q => (Cert.ReferenceIdeal.dot_S100000x128_S128x128_S100000x128_1_0_0_1_n_n).rhsIdx_val_of_single rfl i q)
    (fun _ _ => rfl) l r i

/-- The host's product of a 1001×128 array with a 128×128 array is the plain sum over the contracted lane. -/
theorem dot1001_eq_prod (l : Cert.ReferenceIdeal.St.FA Cert.ReferenceIdeal.S1001x128) (r : Cert.ReferenceIdeal.St.FA Cert.ReferenceIdeal.S128x128) :
    Host.dotGeneral (F := Ideal) Cert.ReferenceIdeal.dot_S1001x128_S128x128_S1001x128_1_0_0_1_n_n none l r
      = Cert.Gcn.Dense.prod (M := 1001) (K := 128) (N := 128) l r := by
  funext i
  simp only [Host.dotGeneral]
  rw [Ideal.dotGeneral_apply]
  exact Cert.Gcn.Dense.sum_contr_eq_prod Cert.ReferenceIdeal.dot_S1001x128_S128x128_S1001x128_1_0_0_1_n_n rfl rfl
    (fun _ _ => rfl)
    (fun i q => (Cert.ReferenceIdeal.dot_S1001x128_S128x128_S1001x128_1_0_0_1_n_n).lhsIdx_val_of_single rfl i q)
    (fun i q => (Cert.ReferenceIdeal.dot_S1001x128_S128x128_S1001x128_1_0_0_1_n_n).rhsIdx_val_of_single rfl i q)
    (fun _ _ => rfl) l r i

/-! ## 3. Vectors repeated along rows or lanes, and a vector as a one-row array -/

/-- A per-lane vector repeated along the 100000 rows reads, at (p, q), the vector at q. -/
theorem rowsOf_apply (v : Cert.ReferenceIdeal.St.FA Cert.ReferenceIdeal.S128) (p : Fin 100000) (q : Fin 128) :
    broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 v) (ix2 p q) = v (ix1 q) := (Cert.RowOps.bcast_1b_ab_apply _ _ p q).trans (Cert.RowOps.bcast_b_1b_apply v _ (0 : Fin 1) q)

/-- A per-edge scalar repeated along the 128 lanes reads, at (e, k), the scalar of edge e (reference). -/
theorem lanesR_apply (n : Cert.ReferenceIdeal.St.FA Cert.ReferenceIdeal.S600000) (e : Fin 600000) (k : Fin 128) :
    Cert.ReferenceIdeal.St.lanes n (ix2 e k) = n (ix1 e) := by
  unfold Cert.ReferenceIdeal.St.lanes
  exact (Cert.RowOps.bcast_a1_ab_apply _ _ e k).trans (Cert.RowOps.bcast_a_a1_apply n _ e (0 : Fin 1))

/-- The same reading of the Pallas program's stage. -/
theorem lanesK_apply (n : Cert.KernelIdeal.St.FA Cert.KernelIdeal.S600000) (e : Fin 600000) (k : Fin 128) :
    Cert.KernelIdeal.St.lanes n (ix2 e k) = n (ix1 e) := by
  unfold Cert.KernelIdeal.St.lanes
  exact (Cert.RowOps.bcast_a1_ab_apply _ _ e k).trans (Cert.RowOps.bcast_a_a1_apply n _ e (0 : Fin 1))

/-- A 128-vector as a one-row array reads, at (0, q), the vector at q. -/
theorem rowOf_apply (v : Cert.KernelIdeal.St.FA Cert.KernelIdeal.S128) (q : Fin 128) :
    Cert.KernelIdeal.St.rowOf v (ix2 (0 : Fin 1) q) = v (ix1 q) := by
  unfold Cert.KernelIdeal.St.rowOf
  exact shapeCast_a_1a_apply v _ (0 : Fin 1) q

/-- The one-row loop relation repeated along the 100000 rows reads, at (p, q), the row at (0, q). -/
theorem loopRow_apply (lr : Cert.ReferenceIdeal.St.FA Cert.ReferenceIdeal.S1x128) (p : Fin 100000) (q : Fin 128) :
    broadcastInDim Cert.ReferenceIdeal.S100000x128 ![0, 1] Cert.ReferenceIdeal.Facts₀.bcast_S1x128_S100000x128_0_1 lr (ix2 p q)
      = lr (ix2 (0 : Fin 1) q) :=
  Cert.RowOps.bcast_1b_ab_apply lr _ p q

/-! ## 4. A scalar constant spread over a shape -/

/-- The word w spread over any shape reads, at any index, the extended real that w denotes. -/
theorem bcast_const_apply {s : Shape} (hb : (⟨0, ![]⟩ : Shape).BroadcastsInDim s (![] : Fin 0 → Fin s.rank))
    (w : BitVec 32) (j : s.Idx) :
    broadcastInDim s ![] hb (constant (F := Ideal) (⟨0, ![]⟩ : Shape) .f32 w) j = Ideal.ofBits .f32 w :=
  Cert.RowOps.bcast_scalar_apply _ hb j

/-- The one-row array of the word of 100000 is that number in every lane. -/
theorem nNodesRow_apply (j : Cert.KernelIdeal.S1x128.Idx) : Cert.KernelIdeal.St.nNodesRow j = Cert.Layer.nNodes := by
  unfold Cert.KernelIdeal.St.nNodesRow Cert.Layer.nNodes
  exact bcast_const_apply _ _ j

/-! ## 6. The shared stages are the same functions in the two programs

Each stage is the same composition of the same operations over the same literal shapes; the two
programs' shape records differ only in the proofs they carry. -/

theorem relFull_eq : Cert.ReferenceIdeal.St.relFull = Cert.KernelIdeal.St.relFull := rfl
theorem halfF_eq : Cert.ReferenceIdeal.St.halfF = Cert.KernelIdeal.St.halfF := rfl
theorem halfR_eq : Cert.ReferenceIdeal.St.halfR = Cert.KernelIdeal.St.halfR := rfl
theorem typF_eq : Cert.ReferenceIdeal.St.typF = Cert.KernelIdeal.St.typF := rfl
theorem typR_eq : Cert.ReferenceIdeal.St.typR = Cert.KernelIdeal.St.typR := rfl
theorem row0_eq : Cert.ReferenceIdeal.St.row0 = Cert.KernelIdeal.St.row0 := rfl
theorem row1_eq : Cert.ReferenceIdeal.St.row1 = Cert.KernelIdeal.St.row1 := rfl
theorem edgeNorm_eq : Cert.ReferenceIdeal.St.edgeNorm = Cert.KernelIdeal.St.edgeNorm := rfl
theorem lanes_eq : Cert.ReferenceIdeal.St.lanes = Cert.KernelIdeal.St.lanes := rfl
theorem xRows_eq : Cert.ReferenceIdeal.St.xRows = Cert.KernelIdeal.St.xRows := rfl
theorem relRows_eq : Cert.ReferenceIdeal.St.relRows = Cert.KernelIdeal.St.relRows := rfl
theorem segSum_eq : Cert.ReferenceIdeal.St.segSum = Cert.KernelIdeal.St.segSum := rfl

/-! ## 5. The second result -/

/-- Rows 0 … 999 of the 1001-row table: at (p, k) the slice reads the table at (p, k). -/
theorem sliceRows_apply (t : Cert.ReferenceIdeal.St.FA Cert.ReferenceIdeal.S1001x128) (h : Cert.ReferenceIdeal.S1001x128.Slices ![0, 0] Cert.ReferenceIdeal.S1000x128)
    (p : Fin 1000) (k : Fin 128) :
    extractStridedSlice Cert.ReferenceIdeal.S1000x128 ![0, 0] t h (ix2 p k)
      = t (ix2 (⟨p.val, by have := p.isLt; omega⟩ : Fin 1001) k) :=
  extractStridedSlice_apply _ t h (ix2 p k) _ fun a => by
    match a with
    | ⟨0, _⟩ => exact (Nat.zero_add _).symm
    | ⟨1, _⟩ => exact (Nat.zero_add _).symm

/-- The second result is the same function in the two programs: the reference multiplies the 1001-row table
    and keeps rows 0 … 999, the Pallas program multiplies those rows; row p of either is
    the sum over k of the table at (p, k) times the weight at (k, q). -/
theorem relOut_eq (rel : Cert.ReferenceIdeal.St.FA Cert.ReferenceIdeal.S1000x128) (lr : Cert.ReferenceIdeal.St.FA Cert.ReferenceIdeal.S1x128) (Wrel : Cert.ReferenceIdeal.St.FA Cert.ReferenceIdeal.S128x128) :
    extractStridedSlice Cert.ReferenceIdeal.S1000x128 ![0, 0]
        (Host.dotGeneral (F := Ideal) Cert.ReferenceIdeal.dot_S1001x128_S128x128_S1001x128_1_0_0_1_n_n none (Cert.ReferenceIdeal.St.relFull rel lr) Wrel)
        Cert.ReferenceIdeal.Facts₀.slices_S1001x128_S1000x128_0_0
      = Cert.KernelIdeal.St.relOutK rel lr Wrel := by
  funext i
  obtain ⟨p, q, rfl⟩ : ∃ (p : Fin 1000) (q : Fin 128), i = ix2 p q := ⟨i 0, i 1, eq_ix2 i⟩
  unfold Cert.KernelIdeal.St.relOutK Cert.Layer.relOut
  rw [sliceRows_apply, dot1001_eq_prod]
  unfold Cert.Gcn.Dense.prod
  refine Finset.sum_congr rfl fun k _ => ?_
  exact congrArg (· * Wrel (ix2 k q)) (sliceRows_apply (Cert.ReferenceIdeal.St.relFull rel lr) _ p k).symm

end Cert.Proof.Reads

end
-- ==== Proof.ReadsRef.lean ====
import proofs.«133848_j46454366273980_2_alg».proof.Proof.Reads
import proofs.«133848_j46454366273980_2_alg».proof.Proof.RefDefs

/-!
# The reference's two derived arrays, read under their names

A per-lane vector repeated along the 100000 rows reads, at (p, q), the vector at q; and the
reference's second result is the Pallas program's. Both are the facts already shown for the
compositions of operations that these two names abbreviate.
-/

set_option maxRecDepth 16384

noncomputable section

namespace Cert.Proof.Reads

open Idealize.ShloMosaic Idealize.ShloMosaic.ValueIdx

variable [Cert.KernelIdeal.Facts] [Cert.ReferenceIdeal.Facts]

/-- A per-lane vector repeated along the 100000 rows reads, at (p, q), the vector at q. -/
theorem rowsOfR_apply (v : Cert.ReferenceIdeal.St.FA Cert.ReferenceIdeal.S128) (p : Fin 100000) (q : Fin 128) :
    Cert.ReferenceIdeal.St.rowsOf v (ix2 p q) = v (ix1 q) :=
  rowsOf_apply v p q

/-- The second result is the same function in the two programs. -/
theorem relOutR_eq (rel : Cert.ReferenceIdeal.St.FA Cert.ReferenceIdeal.S1000x128) (lr : Cert.ReferenceIdeal.St.FA Cert.ReferenceIdeal.S1x128) (Wrel : Cert.ReferenceIdeal.St.FA Cert.ReferenceIdeal.S128x128) :
    Cert.ReferenceIdeal.St.relOutR rel lr Wrel = Cert.KernelIdeal.St.relOutK rel lr Wrel :=
  relOut_eq rel lr Wrel

end Cert.Proof.Reads

end
-- ==== Proof.LayerMath.lean ====
/-
  Two facts about finite sums of REAL numbers inside the extended reals, which join the two arrangements of the layer.
  * A per-edge scale σ may multiply one factor of every summand or the whole sum:
      ∑ k, ((a k · σ) · b k) · w k = (∑ k, (a k · b k) · w k) · σ.
    On the extended reals this needs every quantity finite (distributing over a sum fails at infinities).
  * The mean of squared deviations of n numbers equals their mean square minus the squared mean, when the divisor is
    the real number n: with μ = (∑ c) / n,   (∑ (c i − μ)²) / n = (∑ c i²) / n − μ².
-/
import Mathlib.Tactic.FieldSimp
import Mathlib.Tactic.Ring
import Mathlib.Algebra.BigOperators.Fin
import Idealize.ShloMosaic.PureOps.Ideal
import proofs.«133848_j46454366273980_2_alg».proof.Proof.LibRealOps

noncomputable section

namespace Cert.Layer.Math

open Idealize.ShloMosaic Cert.Proof.RealOps

/-- A family of extended reals that are all real is the coercion of a real family. -/
theorem exists_real_family {ι : Type*} (f : ι → EReal) (h : ∀ i, ∃ r : ℝ, f i = (r : EReal)) :
    ∃ g : ι → ℝ, f = fun i => ((g i : ℝ) : EReal) := by
  choose g hg using h
  exact ⟨g, funext hg⟩

/-- A real scale multiplies one factor of every summand, or the whole sum. -/
theorem sum_scaled {ι : Type*} (s : Finset ι) (a b w : ι → EReal) (σ : EReal)
    (ha : ∀ k, ∃ r : ℝ, a k = (r : EReal)) (hb : ∀ k, ∃ r : ℝ, b k = (r : EReal))
    (hw : ∀ k, ∃ r : ℝ, w k = (r : EReal)) (hσ : ∃ r : ℝ, σ = (r : EReal)) :
    ∑ k ∈ s, ((a k * σ) * b k) * w k = (∑ k ∈ s, (a k * b k) * w k) * σ := by
  obtain ⟨ar, rfl⟩ := exists_real_family a ha
  obtain ⟨br, rfl⟩ := exists_real_family b hb
  obtain ⟨wr, rfl⟩ := exists_real_family w hw
  obtain ⟨t, rfl⟩ := hσ
  simp only [← EReal.coe_mul]
  rw [coe_sum_real, coe_sum_real, ← EReal.coe_mul, Finset.sum_mul]
  refine congrArg _ (Finset.sum_congr rfl fun k _ => ?_)
  ring

/-- Over the reals: the mean squared deviation is the mean square minus the squared mean. -/
theorem real_var_identity {n : ℕ} (c : Fin n → ℝ) (N : ℝ) (hN : N = (n : ℝ)) (h0 : N ≠ 0) :
    (∑ i, (c i - (∑ j, c j) * (1 / N)) * (c i - (∑ j, c j) * (1 / N))) * (1 / N)
      = (∑ i, c i * c i) * (1 / N) - ((∑ j, c j) * (1 / N)) * ((∑ j, c j) * (1 / N)) := by
  set S : ℝ := ∑ j, c j with hS
  have h1 : ∑ i, (c i - S * (1 / N)) * (c i - S * (1 / N))
      = (∑ i, c i * c i) - 2 * (S * (1 / N)) * S + (n : ℝ) * ((S * (1 / N)) * (S * (1 / N))) := by
    have : ∀ i, (c i - S * (1 / N)) * (c i - S * (1 / N))
        = c i * c i - 2 * (S * (1 / N)) * c i + (S * (1 / N)) * (S * (1 / N)) := fun i => by ring
    simp only [this, Finset.sum_add_distrib, Finset.sum_sub_distrib, ← Finset.mul_sum, Finset.sum_const,
      Finset.card_univ, Fintype.card_fin, nsmul_eq_mul, ← hS]
    ring
  rw [h1, ← hN]
  field_simp
  ring

/-- The same on the extended reals, every entry a real and the divisor the real number of entries. -/
theorem var_identity {n : ℕ} (c : Fin n → EReal) (hc : ∀ i, ∃ r : ℝ, c i = (r : EReal)) (N : ℝ) (hN : N = (n : ℝ))
    (h0 : N ≠ 0) :
    Ideal.div (∑ i, (c i - Ideal.div (∑ j, c j) (N : EReal)) * (c i - Ideal.div (∑ j, c j) (N : EReal))) (N : EReal)
      = Ideal.div (∑ i, c i * c i) (N : EReal)
        - Ideal.div (∑ j, c j) (N : EReal) * Ideal.div (∑ j, c j) (N : EReal) := by
  obtain ⟨cr, rfl⟩ := exists_real_family c hc
  simp only [Ideal.div_coe h0, ← EReal.coe_mul, coe_sum_real, ← EReal.coe_sub]
  exact congrArg _ (real_var_identity cr N hN h0)

end Cert.Layer.Math

end
-- ==== Proof.LibNormalize.lean ====
import Idealize.ShloMosaic.PureOps.Ideal
import Idealize.ShloMosaic.PureOps.Ideal.Laws

/-!
# Normalising by a root over the extended reals

General facts about the ideal float operations, for comparing a normalisation written
`x * rsqrt (v + ε)` with one written `x / sqrt (v + ε)`:

* `x / √s = x · (1/√s)` for every extended real `x` as soon as `0 < s` (at `s = +∞` both sides are `x · 0`);
  no finiteness of `x` is needed;
* a square is non-negative, so a mean of squares plus a positive `ε` is positive — again for all
  extended reals, infinite ones included;
* the float constants 128, 100000 and 10⁻⁵ (as rounded to binary32) denote positive reals.
-/

noncomputable section

namespace Cert.Norm

open Idealize.ShloMosaic

/-- Dividing by the root of a positive `s` is multiplying by its reciprocal root. -/
theorem div_sqrt_eq_mul_rsqrt (a s : EReal) (hs : 0 < s) : Ideal.div a (Ideal.sqrt s) = a * Ideal.rsqrt s := by
  induction s using EReal.rec with
  | bot => exact absurd hs (not_lt.mpr bot_le)
  | top => rw [Ideal.sqrt_top, Ideal.rsqrt_top, Ideal.div, if_neg EReal.top_ne_zero, EReal.inv_top]
  | coe r =>
    have hr : 0 < r := by exact_mod_cast hs
    have hsq : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hsq.ne'), EReal.coe_inv]

/-- A square of an extended real is non-negative (`(±∞)² = +∞`). -/
theorem mul_self_nonneg (x : EReal) : 0 ≤ x * x := by
  induction x using EReal.rec with
  | bot => simp
  | top => simp
  | coe r => exact_mod_cast _root_.mul_self_nonneg r

/-- A sum of squares divided by a positive real, plus a positive real, is positive. -/
theorem meanSq_add_pos {n : ℕ} (d : Fin n → EReal) {c e : ℝ} (hc : 0 < c) (he : 0 < e) :
    0 < Ideal.div (∑ k, d k * d k) (c : EReal) + (e : EReal) := by
  rw [Ideal.div_coe hc.ne']
  have h1 : 0 ≤ ∑ k, d k * d k := Finset.sum_nonneg fun k _ => mul_self_nonneg (d k)
  have h2 : 0 ≤ (∑ k, d k * d k) * ((1 / c : ℝ) : EReal) :=
    mul_nonneg h1 (by exact_mod_cast (one_div_pos.mpr hc).le)
  exact lt_of_lt_of_le (by exact_mod_cast he) (le_add_of_nonneg_left h2)

/-- The binary32 pattern of 128.0 denotes the real 128. -/
theorem ofBits_128 : Ideal.ofBits .f32 0x43000000#32 = ((128 : ℝ) : EReal) := by
  simp [Ideal.ofBits, Ideal.ieee, -EReal.coe_mul]; norm_num

/-- The binary32 pattern of 100000.0 denotes the real 100000. -/
theorem ofBits_100000 : Ideal.ofBits .f32 0x47C35000#32 = ((100000 : ℝ) : EReal) := by
  simp [Ideal.ofBits, Ideal.ieee, -EReal.coe_mul]; norm_num

/-- The binary32 pattern nearest 10⁻⁵ denotes the positive real 10995116 / 2⁴⁰. -/
theorem ofBits_eps : Ideal.ofBits .f32 0x3727C5AC#32 = (((10995116 : ℝ) / 1099511627776 : ℝ) : EReal) := by
  simp [Ideal.ofBits, Ideal.ieee, -EReal.coe_mul]; norm_num

/-- So the variance-plus-ε under a row normalisation over 128 lanes is positive, -/
theorem var128_pos {n : ℕ} (d : Fin n → EReal) :
    0 < Ideal.div (∑ k, d k * d k) (Ideal.ofBits .f32 0x43000000#32) + Ideal.ofBits .f32 0x3727C5AC#32 := by
  rw [ofBits_128, ofBits_eps]; exact meanSq_add_pos d (by norm_num) (by norm_num)

/-- and the one under a normalisation over 100000 nodes. -/
theorem var100000_pos {n : ℕ} (d : Fin n → EReal) :
    0 < Ideal.div (∑ k, d k * d k) (Ideal.ofBits .f32 0x47C35000#32) + Ideal.ofBits .f32 0x3727C5AC#32 := by
  rw [ofBits_100000, ofBits_eps]; exact meanSq_add_pos d (by norm_num) (by norm_num)

end Cert.Norm

end
-- ==== Proof.BridgeCore.lean ====
/-
  The two laws that join the arrangements, at an index of the layer's arrays.
  * Messages: scaling the projected lane-wise product of an edge by the edge's real scale σ is projecting the product
    whose first factor was scaled: (∑ k, (a e k · b e k) · W k j) · σ e = ∑ k, ((a e k · σ e) · b e k) · W k j.
  * Variance of a lane over the 100000 rows, the divisor the word of 100000 (which denotes the real 100000, the number
    of rows): mean squared deviation = mean square − squared mean.
  * The reference guards its variance by `100000 − 0 > 0`, which holds.
-/
import proofs.«133848_j46454366273980_2_alg».proof.Proof.LayerSpec
import proofs.«133848_j46454366273980_2_alg».proof.Proof.LayerMath
import proofs.«133848_j46454366273980_2_alg».proof.Proof.LibNormalize
import proofs.«133848_j46454366273980_2_alg».proof.Proof.LibRealOps

noncomputable section

namespace Cert.Layer

open Idealize.ShloMosaic Idealize.ShloMosaic.ValueIdx Cert.Proof.RealOps

/-- The word of 100000 denotes the real 100000. -/
theorem nNodes_eq : nNodes = ((100000 : ℝ) : EReal) := Cert.Norm.ofBits_100000

/-- A per-edge real scale applied after the projection, or to the first factor before it. -/
theorem msg_scaled {a b : E128 → EReal} {W : W128 → EReal} (σ : Fin 600000 → EReal)
    (ha : AllReal a) (hb : AllReal b) (hW : AllReal W) (hσ : ∀ e, ∃ r : ℝ, σ e = (r : EReal)) (i : E128) :
    msg a b W i * σ (i 0) = msg (fun i' => a i' * σ (i' 0)) b W i := by
  unfold msg Cert.Gcn.Dense.prod
  exact (Cert.Layer.Math.sum_scaled Finset.univ (fun k => a (ix2 (i 0) k)) (fun k => b (ix2 (i 0) k))
    (fun k => W (ix2 k (i 1))) (σ (i 0)) (fun k => ha _) (fun k => hb _) (fun k => hW _) (hσ _)).symm

/-- The batch variance of lane `q`, as the mean squared deviation and as mean square minus squared mean. -/
theorem var_lane {c : N128 → EReal} (hc : AllReal c) (q : Fin 128) :
    Ideal.div (∑ n : Fin 100000, (c (ix2 n q) - Ideal.div (∑ n' : Fin 100000, c (ix2 n' q)) nNodes)
        * (c (ix2 n q) - Ideal.div (∑ n' : Fin 100000, c (ix2 n' q)) nNodes)) nNodes
      = Ideal.div (∑ n : Fin 100000, c (ix2 n q) * c (ix2 n q)) nNodes
        - Ideal.div (∑ n' : Fin 100000, c (ix2 n' q)) nNodes * Ideal.div (∑ n' : Fin 100000, c (ix2 n' q)) nNodes := by
  rw [nNodes_eq]
  exact Cert.Layer.Math.var_identity (fun n => c (ix2 n q)) (fun n => hc _) 100000 (by norm_num) (by norm_num)

/-- The count the reference divides its variance by: `100000 − 0`, the integer zero read as a float. -/
theorem count_eq : nNodes - (((0 : BitVec 32).toInt : ℝ) : EReal) = nNodes := by
  simp

/-- The reference's guard on that count holds. -/
theorem count_pos : Ideal.cmp .ogt (nNodes - (((0 : BitVec 32).toInt : ℝ) : EReal)) 0 = 1#1 := by
  rw [count_eq, nNodes_eq]
  unfold Ideal.cmp
  have : (0 : EReal) < ((100000 : ℝ) : EReal) := by exact_mod_cast (by norm_num : (0 : ℝ) < 100000)
  simp [this]

end Cert.Layer

end
-- ==== Proof.StagesReal.lean ====
/-
  Every stage of the layer keeps real-valuedness: if every entry of every float argument is a real number, so is every
  entry of the extended relation table, of the in-degree (a sum of ones), of its guarded reciprocal (1/deg where the
  degree is positive, hence nonzero; 0 elsewhere), of the gathered rows, of the projected messages (finite sums of
  products), of their segment sums, and of the averaged, biased features.
-/
import proofs.«133848_j46454366273980_2_alg».proof.Proof.StagesK
import proofs.«133848_j46454366273980_2_alg».proof.Proof.LayerSpec
import proofs.«133848_j46454366273980_2_alg».proof.Proof.LibRealOps

set_option maxRecDepth 16384

noncomputable section

namespace Cert.KernelIdeal.St

open Idealize.ShloMosaic Idealize.ShloMosaic.ValueIdx Cert.KernelIdeal Cert.Proof.RealOps

variable [Facts]
open Facts₀ Facts

/-- A concatenation reads, at each index, one entry of one member. -/
theorem real_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _

theorem real_relFull {rel : FA S1000x128} {lr : FA S1x128} (hrel : AllReal rel) (hlr : AllReal lr) :
    AllReal (relFull rel lr) := by
  refine real_concatenate _ _ _ _ fun p hp => ?_
  rcases List.mem_cons.mp hp with rfl | hp
  · exact hrel
  · rcases List.mem_cons.mp hp with rfl | hp
    · exact hlr
    · exact absurd hp (List.not_mem_nil)

theorem nodeConst_zero (i : S100000.Idx) : nodeConst 0x00000000#32 i = 0 := by
  unfold nodeConst broadcastInDim
  exact constant_zero_apply S_ _
theorem nodeConst_one (i : S100000.Idx) : nodeConst 0x3F800000#32 i = 1 := by
  unfold nodeConst broadcastInDim
  exact constant_one_apply S_ _

theorem real_deg (row : IA S600000) : AllReal (deg row) :=
  AllReal.scatterAdd _ _ (fun i => ⟨0, by rw [nodeConst_zero, EReal.coe_zero]⟩)
    (AllReal.broadcastInDim _ _ (AllReal.constant_one S_))

/-- The guarded reciprocal degree at a node: `1 / deg` where `0 < deg`, else `0`. -/
theorem invDeg_apply (row : IA S600000) (i : S100000.Idx) :
    invDeg row i = if 0 < deg row i then Ideal.div 1 (deg row i) else 0 := by
  unfold invDeg
  simp only [select, cmpf, Host.divf, nodeConst_zero, nodeConst_one]
  have hc : FloatOps.cmpf CmpFPredicate.ogt (deg row i) 0 = Ideal.cmp .ogt (deg row i) 0 := rfl
  rw [hc, Ideal.hostDivf_def]
  unfold Scalar.select Ideal.cmp
  by_cases hp : (0 : EReal) < deg row i
  · simp [hp]
  · simp [hp]

theorem real_invDeg (row : IA S600000) : AllReal (invDeg row) := by
  intro i
  rw [invDeg_apply]
  by_cases hp : (0 : EReal) < deg row i
  · rw [if_pos hp]
    exact real_div ⟨1, by rw [EReal.coe_one]⟩ (real_deg row i) (ne_of_gt hp)
  · rw [if_neg hp]
    exact ⟨0, by rw [EReal.coe_zero]⟩

theorem real_edgeNorm (row : IA S600000) : AllReal (edgeNorm row) :=
  AllReal.gather _ _ (real_invDeg row)

theorem real_lanes {n : FA S600000} (hn : AllReal n) : AllReal (lanes n) :=
  AllReal.broadcastInDim _ _ (AllReal.broadcastInDim _ _ hn)

theorem real_xRows {x : FA S100000x128} (hx : AllReal x) (dst : IA S600000) : AllReal (xRows x dst) :=
  AllReal.gather _ _ hx

theorem real_relRows {rf : FA S1001x128} (hrf : AllReal rf) (ty : IA S600000) : AllReal (relRows rf ty) :=
  AllReal.gather _ _ hrf

theorem real_segSum (row : IA S600000) {msg : FA S600000x128} (hmsg : AllReal msg) : AllReal (segSum row msg) :=
  AllReal.scatterAdd _ _ (AllReal.broadcastInDim _ _ (AllReal.constant_zero S_)) hmsg

end Cert.KernelIdeal.St

namespace Cert.Layer

open Idealize.ShloMosaic Idealize.ShloMosaic.ValueIdx Cert.Proof.RealOps

theorem real_prod {M K N : ℕ} {x : (⟨2, ![M, K]⟩ : Shape).Idx → EReal} {w : (⟨2, ![K, N]⟩ : Shape).Idx → EReal}
    (hx : AllReal x) (hw : AllReal w) : AllReal (Cert.Gcn.Dense.prod x w) :=
  fun _ => real_sum _ _ fun _ _ => real_mul (hx _) (hw _)

theorem real_msg {a b : E128 → EReal} {W : W128 → EReal} (ha : AllReal a) (hb : AllReal b) (hW : AllReal W) :
    AllReal (msg a b W) :=
  real_prod (fun i => real_mul (ha i) (hb i)) hW

theorem real_loopEmb {x : N128 → EReal} {l : R128 → EReal} {W : W128 → EReal} (hx : AllReal x) (hl : AllReal l)
    (hW : AllReal W) : AllReal (loopEmb x l W) :=
  real_prod (fun i => real_mul (hx i) (hl _)) hW

/-- The word nearest 1/3 denotes the real number 11184811 / 2²⁵. -/
theorem third_eq : third = (((11184811 : ℝ) / 33554432 : ℝ) : EReal) := by
  unfold third
  simp [Ideal.ofBits, Ideal.ieee, -EReal.coe_mul]; norm_num

theorem real_third : ∃ r : ℝ, third = (r : EReal) := ⟨_, third_eq⟩

theorem real_combined {emb rev x : N128 → EReal} {l : R128 → EReal} {W : W128 → EReal} {bias : R128 → EReal}
    (he : AllReal emb) (hr : AllReal rev) (hx : AllReal x) (hl : AllReal l) (hW : AllReal W) (hb : AllReal bias) :
    AllReal (combined emb rev x l W bias) :=
  fun i => real_add (real_mul (real_add (real_add (he i) (hr i)) (real_loopEmb hx hl hW i)) real_third) (hb _)

end Cert.Layer

end
-- ==== Proof.BridgeMsg.lean ====
/-
  The averaged, biased node features are the same array in the two arrangements.
  Per direction, the reference scales the projected product of an edge by the edge's reciprocal in-degree, the Pallas
  program scales the gathered row of `x` first; for real entries the two agree (the scale is one real number per
  edge, repeated along the lanes), so the segment sums agree. The self-loop projection and the combine are the same
  arithmetic read index by index.
-/
import proofs.«133848_j46454366273980_2_alg».proof.Proof.RefDefs
import proofs.«133848_j46454366273980_2_alg».proof.Proof.KerValue
import proofs.«133848_j46454366273980_2_alg».proof.Proof.Reads
import proofs.«133848_j46454366273980_2_alg».proof.Proof.BridgeCore
import proofs.«133848_j46454366273980_2_alg».proof.Proof.StagesReal

set_option maxRecDepth 16384

noncomputable section

namespace Cert.Proof.Bridge

open Idealize.ShloMosaic Idealize.ShloMosaic.ValueIdx Cert.Proof.RealOps Cert.Proof.Reads

variable [Cert.KernelIdeal.Facts] [Cert.ReferenceIdeal.Facts]

/-- One direction's per-edge messages: scale after the projection = scale on the gathered row before it. -/
theorem msg_eq (xg rg : Cert.KernelIdeal.St.FA Cert.KernelIdeal.S600000x128) (W : Cert.KernelIdeal.St.FA Cert.KernelIdeal.S128x128) (n : Cert.KernelIdeal.St.FA Cert.KernelIdeal.S600000)
    (hxg : AllReal xg) (hrg : AllReal rg) (hW : AllReal W) (hn : AllReal n) :
    Cert.ReferenceIdeal.St.msgR xg rg W n = Cert.Layer.msg (mulf xg (Cert.KernelIdeal.St.lanes n)) rg W := by
  funext i
  obtain ⟨e, k, rfl⟩ : ∃ (e : Fin 600000) (k : Fin 128), i = ix2 e k := ⟨i 0, i 1, eq_ix2 i⟩
  have hL : Cert.ReferenceIdeal.St.msgR xg rg W n (ix2 e k) = Cert.Layer.msg xg rg W (ix2 e k) * n (ix1 e) := by
    unfold Cert.ReferenceIdeal.St.msgR
    show FloatOps.mulf (Host.dotGeneral (F := Ideal) Cert.ReferenceIdeal.dot_S600000x128_S128x128_S600000x128_1_0_0_1_n_n none (mulf xg rg) W (ix2 e k))
      (Cert.ReferenceIdeal.St.lanes n (ix2 e k)) = _
    rw [dot600000_eq_prod, lanesR_apply]
    rfl
  have hR : (mulf xg (Cert.KernelIdeal.St.lanes n) : Cert.Layer.E128 → EReal) = fun i' => xg i' * n (ix1 (i' 0)) := by
    funext i'
    obtain ⟨e', k', rfl⟩ : ∃ (e' : Fin 600000) (k' : Fin 128), i' = ix2 e' k' := ⟨i' 0, i' 1, eq_ix2 i'⟩
    show FloatOps.mulf (xg (ix2 e' k')) (Cert.KernelIdeal.St.lanes n (ix2 e' k')) = _
    rw [lanesK_apply]
    rfl
  rw [hL, hR]
  exact Cert.Layer.msg_scaled (fun e => n (ix1 e)) hxg hrg hW (fun e => hn _) (ix2 e k)

/-- One direction's node rows. -/
theorem emb_eq (x : Cert.KernelIdeal.St.FA Cert.KernelIdeal.S100000x128) (rf : Cert.KernelIdeal.St.FA Cert.KernelIdeal.S1001x128) (h : Cert.KernelIdeal.St.IA Cert.KernelIdeal.S2x600000) (ty : Cert.KernelIdeal.St.IA Cert.KernelIdeal.S600000)
    (W : Cert.KernelIdeal.St.FA Cert.KernelIdeal.S128x128) (hx : AllReal x) (hrf : AllReal rf) (hW : AllReal W) :
    Cert.ReferenceIdeal.St.embR x rf h ty W = Cert.KernelIdeal.St.embK x rf h ty W := by
  unfold Cert.ReferenceIdeal.St.embR Cert.KernelIdeal.St.embK
  rw [segSum_eq, row0_eq, row1_eq, xRows_eq, relRows_eq, edgeNorm_eq]
  exact congrArg (Cert.KernelIdeal.St.segSum (Cert.KernelIdeal.St.row0 h))
    (msg_eq _ _ _ _ (Cert.KernelIdeal.St.real_xRows hx _) (Cert.KernelIdeal.St.real_relRows hrf _) hW (Cert.KernelIdeal.St.real_edgeNorm _))

/-- The self-loop rows. -/
theorem loop_eq (x : Cert.KernelIdeal.St.FA Cert.KernelIdeal.S100000x128) (lr : Cert.KernelIdeal.St.FA Cert.KernelIdeal.S1x128) (Wl : Cert.KernelIdeal.St.FA Cert.KernelIdeal.S128x128) :
    Cert.ReferenceIdeal.St.loopR x lr Wl = Cert.Layer.loopEmb x lr Wl := by
  unfold Cert.ReferenceIdeal.St.loopR
  rw [dot100000_eq_prod]
  unfold Cert.Layer.loopEmb
  refine congrArg (Cert.Gcn.Dense.prod (M := 100000) (K := 128) (N := 128) · Wl) ?_
  funext i
  obtain ⟨p, q, rfl⟩ : ∃ (p : Fin 100000) (q : Fin 128), i = ix2 p q := ⟨i 0, i 1, eq_ix2 i⟩
  show FloatOps.mulf (x (ix2 p q))
    (broadcastInDim Cert.ReferenceIdeal.S100000x128 ![0, 1] Cert.ReferenceIdeal.Facts₀.bcast_S1x128_S100000x128_0_1 lr (ix2 p q)) = _
  rw [loopRow_apply]
  rfl

/-- The three contributions averaged, plus the bias. -/
theorem comb_eq (emb rev x : Cert.KernelIdeal.St.FA Cert.KernelIdeal.S100000x128) (lr : Cert.KernelIdeal.St.FA Cert.KernelIdeal.S1x128) (Wl : Cert.KernelIdeal.St.FA Cert.KernelIdeal.S128x128) (bias : Cert.KernelIdeal.St.FA Cert.KernelIdeal.S128) :
    Cert.ReferenceIdeal.St.combR emb rev (Cert.ReferenceIdeal.St.loopR x lr Wl) bias = Cert.Layer.combined emb rev x lr Wl (Cert.KernelIdeal.St.rowOf bias) := by
  rw [loop_eq]
  funext i
  obtain ⟨p, q, rfl⟩ : ∃ (p : Fin 100000) (q : Fin 128), i = ix2 p q := ⟨i 0, i 1, eq_ix2 i⟩
  have hR : Cert.Layer.combined emb rev x lr Wl (Cert.KernelIdeal.St.rowOf bias) (ix2 p q)
      = ((emb (ix2 p q) + rev (ix2 p q)) + Cert.Layer.loopEmb x lr Wl (ix2 p q)) * Cert.Layer.third
        + Cert.KernelIdeal.St.rowOf bias (ix2 (0 : Fin 1) q) := rfl
  have hL : Cert.ReferenceIdeal.St.combR emb rev (Cert.Layer.loopEmb x lr Wl) bias (ix2 p q)
      = ((emb (ix2 p q) + rev (ix2 p q)) + Cert.Layer.loopEmb x lr Wl (ix2 p q))
          * (broadcastInDim Cert.ReferenceIdeal.S100000x128 ![] Cert.ReferenceIdeal.Facts₀.bcast_S_S100000x128
              (constant (F := Ideal) Cert.ReferenceIdeal.S_ .f32 0x3EAAAAAB#32) (ix2 p q))
        + (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias) (ix2 p q)) := rfl
  rw [hL, hR, bcast_const_apply, rowsOf_apply, rowOf_apply]
  rfl

end Cert.Proof.Bridge

end
-- ==== Proof.BridgeNorm.lean ====
/-
  The batch normalization agrees in the two arrangements.
  The lane mean is the lane sum over the 100000 rows divided by the word of 100000 in both. The reference's lane
  variance is the mean squared deviation from that mean (its guard `100000 − 0 > 0` holds, so the guarded value is the
  quotient); the Pallas program's is the mean square minus the squared mean; for real entries they are equal. The rest
  — centre, scale by the reciprocal square root of variance plus the stabilizer, scale and shift per lane — is the
  same arithmetic read index by index.
-/
import proofs.«133848_j46454366273980_2_alg».proof.Proof.BridgeMsg

set_option maxRecDepth 16384

noncomputable section

namespace Cert.Proof.Bridge

open Idealize.ShloMosaic Idealize.ShloMosaic.ValueIdx Cert.Proof.RealOps Cert.Proof.Reads

variable [Cert.KernelIdeal.Facts] [Cert.ReferenceIdeal.Facts]

/-- The lane mean of `c` at lane `q`. -/
def laneMean (c : Cert.KernelIdeal.St.FA Cert.KernelIdeal.S100000x128) (q : Fin 128) : EReal :=
  Ideal.div (∑ n : Fin 100000, c (ix2 n q)) Cert.Layer.nNodes

theorem meanR_apply (c : Cert.KernelIdeal.St.FA Cert.KernelIdeal.S100000x128) (q : Fin 128) : Cert.ReferenceIdeal.St.meanR c (ix1 q) = laneMean c q := by
  have e1 : Cert.ReferenceIdeal.St.meanR c (ix1 q) = Ideal.div
      (Host.reduceAdd c (constant (F := Ideal) Cert.ReferenceIdeal.S_ .f32 0x00000000#32) Cert.ReferenceIdeal.Facts₀.reducesTo_S100000x128_S128_d0
        Cert.ReferenceIdeal.Facts₀.h_S_ (ix1 q))
      (broadcastInDim Cert.ReferenceIdeal.S128 ![] Cert.ReferenceIdeal.Facts₀.bcast_S_S128 (constant (F := Ideal) Cert.ReferenceIdeal.S_ .f32 0x47C35000#32) (ix1 q)) := rfl
  rw [e1, colSum_apply, bcast_const_apply]
  rfl

theorem meanK_apply (c : Cert.KernelIdeal.St.FA Cert.KernelIdeal.S100000x128) (q : Fin 128) : Cert.KernelIdeal.St.meanK c (ix2 (0 : Fin 1) q) = laneMean c q := by
  have e2 : Cert.KernelIdeal.St.meanK c (ix2 (0 : Fin 1) q)
      = Ideal.div (Cert.Layer.colSum c (ix2 (0 : Fin 1) q)) (Cert.KernelIdeal.St.nNodesRow (ix2 (0 : Fin 1) q)) := rfl
  rw [e2, nNodesRow_apply]
  rfl

theorem varK_apply (c : Cert.KernelIdeal.St.FA Cert.KernelIdeal.S100000x128) (q : Fin 128) :
    Cert.KernelIdeal.St.varK c (ix2 (0 : Fin 1) q)
      = Ideal.div (∑ n : Fin 100000, c (ix2 n q) * c (ix2 n q)) Cert.Layer.nNodes - laneMean c q * laneMean c q := by
  have e : Cert.KernelIdeal.St.varK c (ix2 (0 : Fin 1) q)
      = Ideal.div (Cert.Layer.colSumSq c (ix2 (0 : Fin 1) q)) (Cert.KernelIdeal.St.nNodesRow (ix2 (0 : Fin 1) q))
        - Cert.KernelIdeal.St.meanK c (ix2 (0 : Fin 1) q) * Cert.KernelIdeal.St.meanK c (ix2 (0 : Fin 1) q) := rfl
  rw [e, nNodesRow_apply, meanK_apply]
  rfl

/-- The reference's deviation from the lane mean, at a row and a lane. -/
theorem cen_apply (c : Cert.KernelIdeal.St.FA Cert.KernelIdeal.S100000x128) (n : Fin 100000) (q : Fin 128) :
    subf c (broadcastInDim Cert.ReferenceIdeal.S100000x128 ![0, 1] Cert.ReferenceIdeal.Facts₀.bcast_S1x128_S100000x128_0_1
      (Host.divf (F := Ideal)
        (broadcastInDim Cert.ReferenceIdeal.S1x128 ![1] Cert.ReferenceIdeal.Facts₀.bcast_S128_S1x128_1
          (Host.reduceAdd c (constant (F := Ideal) Cert.ReferenceIdeal.S_ .f32 0x00000000#32) Cert.ReferenceIdeal.Facts₀.reducesTo_S100000x128_S128_d0 Cert.ReferenceIdeal.Facts₀.h_S_))
        (broadcastInDim Cert.ReferenceIdeal.S1x128 ![] Cert.ReferenceIdeal.Facts₀.bcast_S_S1x128 (constant (F := Ideal) Cert.ReferenceIdeal.S_ .f32 0x47C35000#32)))) (ix2 n q)
      = c (ix2 n q) - laneMean c q := by
  show FloatOps.subf (c (ix2 n q)) (broadcastInDim (s := Cert.ReferenceIdeal.S1x128) Cert.ReferenceIdeal.S100000x128 ![0, 1] Cert.ReferenceIdeal.Facts₀.bcast_S1x128_S100000x128_0_1 _ (ix2 n q)) = _
  rw [loopRow_apply]
  show c (ix2 n q) - Ideal.div
      (broadcastInDim (s := Cert.ReferenceIdeal.S128) Cert.ReferenceIdeal.S1x128 ![1] Cert.ReferenceIdeal.Facts₀.bcast_S128_S1x128_1 _ (ix2 (0 : Fin 1) q))
      (broadcastInDim (s := Cert.ReferenceIdeal.S_) Cert.ReferenceIdeal.S1x128 ![] Cert.ReferenceIdeal.Facts₀.bcast_S_S1x128 _ (ix2 (0 : Fin 1) q)) = _
  rw [Cert.RowOps.bcast_b_1b_apply, colSum_apply, bcast_const_apply]
  rfl

/-- The reference's lane variance: its guard holds, and the guarded value is the mean squared deviation. -/
theorem varR_apply (c : Cert.KernelIdeal.St.FA Cert.KernelIdeal.S100000x128) (q : Fin 128) :
    Cert.ReferenceIdeal.St.varR c (ix1 q)
      = Ideal.div (∑ n : Fin 100000, (c (ix2 n q) - laneMean c q) * (c (ix2 n q) - laneMean c q)) Cert.Layer.nNodes := by
  unfold Cert.ReferenceIdeal.St.varR
  show Scalar.select
      (broadcastInDim (s := Cert.ReferenceIdeal.S_) Cert.ReferenceIdeal.S128 ![] Cert.ReferenceIdeal.Facts₀.bcast_S_S128 _ (ix1 q))
      (Ideal.div (Host.reduceAdd _ (constant (F := Ideal) Cert.ReferenceIdeal.S_ .f32 0x00000000#32) Cert.ReferenceIdeal.Facts₀.reducesTo_S100000x128_S128_d0 Cert.ReferenceIdeal.Facts₀.h_S_ (ix1 q))
        (broadcastInDim (s := Cert.ReferenceIdeal.S_) Cert.ReferenceIdeal.S128 ![] Cert.ReferenceIdeal.Facts₀.bcast_S_S128 _ (ix1 q)))
      (broadcastInDim (s := Cert.ReferenceIdeal.S_) Cert.ReferenceIdeal.S128 ![] Cert.ReferenceIdeal.Facts₀.bcast_S_S128 _ (ix1 q)) = _
  rw [colSum_apply, Cert.RowOps.bcast_scalar_apply, Cert.RowOps.bcast_scalar_apply]
  have hg : (cmpf (F := Ideal) .ogt
      (subf (constant (F := Ideal) Cert.ReferenceIdeal.S_ .f32 0x47C35000#32) (sitofp .f32 (constantI Cert.ReferenceIdeal.S_ 32 0#32) : Cert.ReferenceIdeal.St.FA Cert.ReferenceIdeal.S_) : Cert.ReferenceIdeal.St.FA Cert.ReferenceIdeal.S_)
      (constant (F := Ideal) Cert.ReferenceIdeal.S_ .f32 0x00000000#32)) ix0 = 1#1 := by
    have h0 : Ideal.ofBits .f32 0x00000000#32 = 0 := Ideal.ofBits_zero_f32
    show Ideal.cmp .ogt (Cert.Layer.nNodes - (((0 : BitVec 32).toInt : ℝ) : EReal)) (Ideal.ofBits .f32 0x00000000#32) = 1#1
    rw [h0]
    exact Cert.Layer.count_pos
  have hd : (subf (constant (F := Ideal) Cert.ReferenceIdeal.S_ .f32 0x47C35000#32) (sitofp .f32 (constantI Cert.ReferenceIdeal.S_ 32 0#32) : Cert.ReferenceIdeal.St.FA Cert.ReferenceIdeal.S_) : Cert.ReferenceIdeal.St.FA Cert.ReferenceIdeal.S_) ix0
      = Cert.Layer.nNodes := by
    show Cert.Layer.nNodes - (((0 : BitVec 32).toInt : ℝ) : EReal) = _
    exact Cert.Layer.count_eq
  rw [hg, hd]
  unfold Scalar.select
  rw [if_pos (show (1#1 : BitVec 1) = 1 from rfl)]
  refine congrArg (Ideal.div · Cert.Layer.nNodes) (Finset.sum_congr rfl fun n _ => ?_)
  exact congrArg₂ (· * ·) (cen_apply c n q) (cen_apply c n q)

/-- For real entries the two lane variances are equal. -/
theorem var_eq (c : Cert.KernelIdeal.St.FA Cert.KernelIdeal.S100000x128) (hc : AllReal c) (q : Fin 128) :
    Cert.ReferenceIdeal.St.varR c (ix1 q) = Cert.KernelIdeal.St.varK c (ix2 (0 : Fin 1) q) := by
  rw [varR_apply, varK_apply]
  exact Cert.Layer.var_lane hc q

/-- The normalization of real-valued rows. -/
theorem norm_eq (c : Cert.KernelIdeal.St.FA Cert.KernelIdeal.S100000x128) (hc : AllReal c) (g b : Cert.KernelIdeal.St.FA Cert.KernelIdeal.S128) :
    Cert.ReferenceIdeal.St.normR c g b = Cert.Layer.normalized c (Cert.KernelIdeal.St.meanK c) (Cert.KernelIdeal.St.varK c) (Cert.KernelIdeal.St.rowOf g) (Cert.KernelIdeal.St.rowOf b) := by
  funext i
  obtain ⟨p, q, rfl⟩ : ∃ (p : Fin 100000) (q : Fin 128), i = ix2 p q := ⟨i 0, i 1, eq_ix2 i⟩
  have hR : Cert.Layer.normalized c (Cert.KernelIdeal.St.meanK c) (Cert.KernelIdeal.St.varK c) (Cert.KernelIdeal.St.rowOf g) (Cert.KernelIdeal.St.rowOf b) (ix2 p q)
      = ((c (ix2 p q) - Cert.KernelIdeal.St.meanK c (ix2 (0 : Fin 1) q))
          * Ideal.rsqrt (Cert.KernelIdeal.St.varK c (ix2 (0 : Fin 1) q) + Cert.Layer.eps)) * Cert.KernelIdeal.St.rowOf g (ix2 (0 : Fin 1) q)
        + Cert.KernelIdeal.St.rowOf b (ix2 (0 : Fin 1) q) := rfl
  have hL : Cert.ReferenceIdeal.St.normR c g b (ix2 p q)
      = ((c (ix2 p q) - Cert.ReferenceIdeal.St.rowsOf (Cert.ReferenceIdeal.St.meanR c) (ix2 p q))
          * Cert.ReferenceIdeal.St.rowsOf (Host.rsqrt (addf (Cert.ReferenceIdeal.St.varR c)
              (broadcastInDim Cert.ReferenceIdeal.S128 ![] Cert.ReferenceIdeal.Facts₀.bcast_S_S128 (constant (F := Ideal) Cert.ReferenceIdeal.S_ .f32 0x3727C5AC#32)))) (ix2 p q))
          * Cert.ReferenceIdeal.St.rowsOf g (ix2 p q)
        + Cert.ReferenceIdeal.St.rowsOf b (ix2 p q) := rfl
  rw [hL, hR]
  unfold Cert.ReferenceIdeal.St.rowsOf
  rw [rowsOf_apply, rowsOf_apply, rowsOf_apply, rowsOf_apply, rowOf_apply, rowOf_apply, meanR_apply, meanK_apply]
  have hs : Host.rsqrt (addf (Cert.ReferenceIdeal.St.varR c)
      (broadcastInDim Cert.ReferenceIdeal.S128 ![] Cert.ReferenceIdeal.Facts₀.bcast_S_S128 (constant (F := Ideal) Cert.ReferenceIdeal.S_ .f32 0x3727C5AC#32))) (ix1 q)
      = Ideal.rsqrt (Cert.ReferenceIdeal.St.varR c (ix1 q)
          + broadcastInDim Cert.ReferenceIdeal.S128 ![] Cert.ReferenceIdeal.Facts₀.bcast_S_S128 (constant (F := Ideal) Cert.ReferenceIdeal.S_ .f32 0x3727C5AC#32) (ix1 q)) := rfl
  rw [hs, bcast_const_apply, var_eq c hc q]
  rfl

/-- The first result: the two arrangements give the same normalized node features, for real-valued float arguments. -/
theorem out_eq (x : Cert.KernelIdeal.St.FA Cert.KernelIdeal.S100000x128) (ei : Cert.KernelIdeal.St.IA Cert.KernelIdeal.S2x1200000) (et : Cert.KernelIdeal.St.IA Cert.KernelIdeal.S1200000) (rel : Cert.KernelIdeal.St.FA Cert.KernelIdeal.S1000x128)
    (Win Wout Wloop : Cert.KernelIdeal.St.FA Cert.KernelIdeal.S128x128) (lr : Cert.KernelIdeal.St.FA Cert.KernelIdeal.S1x128) (bias g b : Cert.KernelIdeal.St.FA Cert.KernelIdeal.S128)
    (hx : AllReal x) (hrel : AllReal rel) (hWin : AllReal Win) (hWout : AllReal Wout) (hWloop : AllReal Wloop)
    (hlr : AllReal lr) (hbias : AllReal bias) :
    Cert.ReferenceIdeal.St.outR x ei et rel Win Wout Wloop lr bias g b = Cert.KernelIdeal.St.outK x ei et rel Win Wout Wloop lr bias g b := by
  have hrf : AllReal (Cert.KernelIdeal.St.relFull rel lr) := Cert.KernelIdeal.St.real_relFull hrel hlr
  have hc : Cert.ReferenceIdeal.St.combR (Cert.ReferenceIdeal.St.embR x (Cert.ReferenceIdeal.St.relFull rel lr) (Cert.ReferenceIdeal.St.halfF ei) (Cert.ReferenceIdeal.St.typF et) Win)
      (Cert.ReferenceIdeal.St.embR x (Cert.ReferenceIdeal.St.relFull rel lr) (Cert.ReferenceIdeal.St.halfR ei) (Cert.ReferenceIdeal.St.typR et) Wout) (Cert.ReferenceIdeal.St.loopR x lr Wloop) bias
      = Cert.KernelIdeal.St.combK x ei et rel Win Wout Wloop lr bias := by
    rw [relFull_eq, halfF_eq, halfR_eq, typF_eq, typR_eq, emb_eq _ _ _ _ _ hx hrf hWin, emb_eq _ _ _ _ _ hx hrf hWout, comb_eq]
    rfl
  have hcr : AllReal (Cert.KernelIdeal.St.combK x ei et rel Win Wout Wloop lr bias) := by
    unfold Cert.KernelIdeal.St.combK
    refine Cert.Layer.real_combined ?_ ?_ hx hlr hWloop ?_
    · exact Cert.KernelIdeal.St.real_segSum _ (Cert.Layer.real_msg ((Cert.KernelIdeal.St.real_xRows hx _).mulf (Cert.KernelIdeal.St.real_lanes (Cert.KernelIdeal.St.real_edgeNorm _)))
        (Cert.KernelIdeal.St.real_relRows hrf _) hWin)
    · exact Cert.KernelIdeal.St.real_segSum _ (Cert.Layer.real_msg ((Cert.KernelIdeal.St.real_xRows hx _).mulf (Cert.KernelIdeal.St.real_lanes (Cert.KernelIdeal.St.real_edgeNorm _)))
        (Cert.KernelIdeal.St.real_relRows hrf _) hWout)
    · intro j
      obtain ⟨u, q, rfl⟩ : ∃ (u : Fin 1) (q : Fin 128), j = ix2 u q := ⟨j 0, j 1, eq_ix2 j⟩
      have hu : u = 0 := Subsingleton.elim _ _
      subst hu
      rw [rowOf_apply]
      exact hbias _
  unfold Cert.ReferenceIdeal.St.outR
  rw [hc, norm_eq _ hcr]
  rfl

end Cert.Proof.Bridge

end
-- ==== Proof.lean ====
/-
  A relational graph-convolution layer with batch normalization, tiled against its plain array form.

  Both programs compute, for each of the two edge directions, per-edge messages — the row of `x` at the edge's source
  node times the relation row of the edge's type, lane by lane, projected by a 128×128 weight and scaled by the
  reciprocal in-degree of the edge's target node (zero where that degree is zero) —, sum them into the target nodes'
  rows, add the self-loop projection, average the three with the single-precision word nearest 1/3, add a bias, and
  batch-normalize each of the 128 lanes over the 100000 rows; the second result is the 1000-row relation table
  projected by a weight.

  The tiled program applies the per-edge scale to the gathered row of `x` before the projection, accumulates each
  lane's sum and sum of squares block by block over 25 blocks of 4000 rows, and takes the variance as mean square minus
  squared mean; the array program scales after the projection and takes the variance as the mean squared deviation.
  Over the extended reals these agree when every float argument is finite: then every intermediate entry is a real
  number, a real scale commutes with a finite sum of products, and for n real numbers with mean μ,
  (∑ (cᵢ − μ)²) / n = (∑ cᵢ²) / n − μ². Sums regroup freely (addition on the extended reals is commutative and
  associative); changes of float format are the identity at this reading. The second result needs no finiteness: a
  row slice commutes with a matrix product.
-/
import proofs.«133848_j46454366273980_2_alg».proof.Defs
import proofs.«133848_j46454366273980_2_alg».proof.Proof.Gen.Kernel
import proofs.«133848_j46454366273980_2_alg».proof.Proof.Gen.Kernel.Frame
import proofs.«133848_j46454366273980_2_alg».proof.Proof.Gen.KernelIdeal
import proofs.«133848_j46454366273980_2_alg».proof.Proof.Gen.KernelIdeal.Frame
import proofs.«133848_j46454366273980_2_alg».proof.Proof.Gen.ReferenceIdeal
import proofs.«133848_j46454366273980_2_alg».proof.Proof.Gen.Pre_finite_inputs
import proofs.«133848_j46454366273980_2_alg».proof.Proof.KerValueRun
import proofs.«133848_j46454366273980_2_alg».proof.Proof.KerFinals
import proofs.«133848_j46454366273980_2_alg».proof.Proof.RefValue
import proofs.«133848_j46454366273980_2_alg».proof.Proof.PreReal
import proofs.«133848_j46454366273980_2_alg».proof.Proof.ReadsRef
import proofs.«133848_j46454366273980_2_alg».proof.Proof.BridgeNorm
import Idealize.ShloMosaic.Adequacy
import Idealize.ShloMosaic.Init

set_option maxRecDepth 16384

noncomputable section

namespace Cert.Proof

open Idealize.ShloMosaic Idealize.SL.Sem

/-- The tiled program at the word level runs and leaves its arguments as launched. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The array program is a straight line of host operations: it runs, and none of them writes an argument. -/
theorem frame_reference : Cert.frame_ReferenceIdeal := Cert.ReferenceIdeal.HandRun.frame_ref

/-- From memories agreeing on the twelve arguments, the float ones finite, both programs end with the same two result
    arrays: the tiled program's are its composed terms of the arguments, the array program's are its own, and the two
    pairs of terms are equal — the first by the two laws on real numbers, the second index by index. -/
theorem algebraic : Cert.algebraic_KernelIdeal_ReferenceIdeal := by
  intro m ρ m' ρ' hpre hagree
  refine ⟨_, _, Cert.KernelIdeal.HandRun.value_run Cert.KernelIdeal.HandRun.finals m ρ, ?_⟩
  refine (θ_run Cert.ReferenceIdeal.defs _ _).mono (fun r h c => ?_) (Cert.ReferenceIdeal.HandRun.value_run m' ρ')
  obtain ⟨h0, h1, hargs⟩ := h c
  obtain ⟨a0, a1, a2, a3, a4, a5, a6, a7, a8, a9, a10, a11⟩ := hagree c
  obtain ⟨r0, r3, r4, r5, r6, r7, r8, r9, r10, r11⟩ := Cert.Proof.PreReal.allReal_of_pre m hpre c
  refine ⟨h0.trans ?_, h1.trans ?_, hargs⟩
  · rw [a0, a1, a2, a3, a4, a5, a7, a8, a9, a10, a11]
    exact Cert.Proof.Bridge.out_eq _ _ _ _ _ _ _ _ _ _ _ r0 r3 r4 r5 r7 r8 r9
  · rw [a3, a8, a6]
    exact Cert.Proof.Reads.relOutR_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
